-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S4x32x32 : Shape := ⟨3, ![4, 32, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_

variable [Facts]

def fn_part1 {F : FTy → Type} [FloatOps F] (main_arg4 : FVec F S4x32x32 .f32) (main_v13 : IVec S_ 1) (main_v16 : IVec S4x32x32 1) : IVec S_ 1 :=
  let main_c_5 : IVec S_ 1 := constantI S_ 1 1#1
  let main_v17 : IVec S_ 1 := (fun x v => Host.reduce IntOp.andi x v reducesTo_S4x32x32_S_d0_1_2 h_S_) main_v16 main_c_5
  let main_v18 : IVec S_ 1 := andi main_v13 main_v17
  let main_v19 : FVec F S4x32x32 .f32 := Host.absf main_arg4
  let main_cst_6 : FVec F S_ .f32 := constant S_ .f32 0x7F800000#32
  let main_v20 : FVec F S4x32x32 .f32 := broadcastInDim S4x32x32 ![] bcast_S_S4x32x32 main_cst_6
  let main_v21 : IVec S4x32x32 1 := cmpf .olt main_v19 main_v20
  let main_c_7 : IVec S_ 1 := constantI S_ 1 1#1
  let main_v22 : IVec S_ 1 := (fun x v => Host.reduce IntOp.andi x v reducesTo_S4x32x32_S_d0_1_2 h_S_) main_v21 main_c_7
  let main_v23 : IVec S_ 1 := andi main_v18 main_v22
  main_v23

def fn {F : FTy → Type} [FloatOps F] (main_arg0 : FVec F S8192x32 .f32) (main_arg1 : FVec F S8192x8192 .f32) (main_arg2 : FVec F S32x32 .f32) (main_arg3 : FVec F S4x32x32 .f32) (main_arg4 : FVec F S4x32x32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S4x32x32 .f32 := Host.absf main_arg3
  let main_cst_4 : FVec F S_ .f32 := constant S_ .f32 0x7F800000#32
  let main_v15 : FVec F S4x32x32 .f32 := broadcastInDim S4x32x32 ![] bcast_S_S4x32x32 main_cst_4
  let main_v16 : IVec S4x32x32 1 := cmpf .olt main_v14 main_v15
  fn_part1 (F := F) main_arg4 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S4x32x32 : Shape := ⟨3, ![4, 32, 32]⟩
abbrev S1024x4096 : Shape := ⟨2, ![1024, 4096]⟩
abbrev S1024x32 : Shape := ⟨2, ![1024, 32]⟩
abbrev S4096x32 : Shape := ⟨2, ![4096, 32]⟩
abbrev S1x32x32 : Shape := ⟨3, ![1, 32, 32]⟩
abbrev S_ : Shape := ⟨0, ![]⟩
abbrev S32x8192 : Shape := ⟨2, ![32, 8192]⟩

abbrev nBuf : Space → Nat
  | .hbm => 64
  | .vmem => 18
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x32, .f32⟩
  | .hbm, ⟨3, _⟩ => ⟨S4x32x32, .f32⟩
  | .hbm, ⟨4, _⟩ => ⟨S4x32x32, .f32⟩
  | .hbm, ⟨5, _⟩ => ⟨S8192x32, .f32⟩
  | .hbm, ⟨6, _⟩ => ⟨S1x32x32, .f32⟩
  | .hbm, ⟨7, _⟩ => ⟨S32x32, .f32⟩
  | .hbm, ⟨8, _⟩ => ⟨S8192x32, .f32⟩
  | .hbm, ⟨9, _⟩ => ⟨S1x32x32, .f32⟩
  | .hbm, ⟨10, _⟩ => ⟨S32x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x32x32, .f32⟩
  | .hbm, ⟨19, _⟩ => ⟨S32x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S_, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x32x32, .f32⟩
  | .hbm, ⟨28, _⟩ => ⟨S32x32, .f32⟩
  | .hbm, ⟨29, _⟩ => ⟨S8192x32, .f32⟩
  | .hbm, ⟨30, _⟩ => ⟨S8192x32, .f32⟩
  | .hbm, ⟨31, _⟩ => ⟨S32x8192, .f32⟩
  | .hbm, ⟨32, _⟩ => ⟨S32x32, .f32⟩
  | .hbm, ⟨33, _⟩ => ⟨S32x32, .f32⟩
  | .hbm, ⟨34, _⟩ => ⟨S8192x32, .f32⟩
  | .hbm, ⟨35, _⟩ => ⟨S1x32x32, .f32⟩
  | .hbm, ⟨36, _⟩ => ⟨S32x32, .f32⟩
  | .hbm, ⟨37, _⟩ => ⟨S8192x32, .f32⟩
  | .hbm, ⟨38, _⟩ => ⟨S8192x32, .f32⟩
  | .hbm, ⟨39, _⟩ => ⟨S32x8192, .f32⟩
  | .hbm, ⟨40, _⟩ => ⟨S32x32, .f32⟩
  | .hbm, ⟨41, _⟩ => ⟨S32x32, .f32⟩
  | .hbm, ⟨42, _⟩ => ⟨S8192x32, .f32⟩
  | .hbm, ⟨43, _⟩ => ⟨S_, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S1x32x32, .f32⟩
  | .hbm, ⟨48, _⟩ => ⟨S32x32, .f32⟩
  | .hbm, ⟨49, _⟩ => ⟨S8192x32, .f32⟩
  | .hbm, ⟨50, _⟩ => ⟨S8192x32, .f32⟩
  | .hbm, ⟨51, _⟩ => ⟨S32x8192, .f32⟩
  | .hbm, ⟨52, _⟩ => ⟨S32x32, .f32⟩
  | .hbm, ⟨53, _⟩ => ⟨S32x32, .f32⟩
  | .hbm, ⟨54, _⟩ => ⟨S8192x32, .f32⟩
  | .hbm, ⟨55, _⟩ => ⟨S_, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S1x32x32, .f32⟩
  | .hbm, ⟨60, _⟩ => ⟨S32x32, .f32⟩
  | .hbm, ⟨61, _⟩ => ⟨S8192x32, .f32⟩
  | .hbm, ⟨62, _⟩ => ⟨S8192x32, .f32⟩
  | .hbm, ⟨63, _⟩ => ⟨S8192x32, .f32⟩
  | .local _ .vmem, ⟨0, _⟩ => ⟨S1024x4096, .f32⟩
  | .local _ .vmem, ⟨1, _⟩ => ⟨S1024x4096, .f32⟩
  | .local _ .vmem, ⟨2, _⟩ => ⟨S8192x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x4096, .f32⟩
  | .local _ .vmem, ⟨7, _⟩ => ⟨S1024x4096, .f32⟩
  | .local _ .vmem, ⟨8, _⟩ => ⟨S8192x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x4096, .f32⟩
  | .local _ .vmem, ⟨13, _⟩ => ⟨S1024x4096, .f32⟩
  | .local _ .vmem, ⟨14, _⟩ => ⟨S8192x32, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c4096_i32 : BitVec 32 := 4096#32
  let v4 : BitVec 32 := Scalar.muli arg1 c4096_i32
  v4
def k0_off1 (i : grid0.Coords) : Fin 2 → Nat :=
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 2], ![false, false]⟩

def k1_mult1 (i : grid1.Coords) : BitVec 32 :=
  let arg1 : BitVec 32 := BitVec.ofNat 32 (i 1).val
  let c4096_i32 : BitVec 32 := 4096#32
  let v4 : BitVec 32 := Scalar.muli arg1 c4096_i32
  v4
def k1_off1 (i : grid1.Coords) : Fin 2 → Nat :=
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 2], ![false, false]⟩

def k2_mult1 (i : grid2.Coords) : BitVec 32 :=
  let arg1 : BitVec 32 := BitVec.ofNat 32 (i 1).val
  let c4096_i32 : BitVec 32 := 4096#32
  let v4 : BitVec 32 := Scalar.muli arg1 c4096_i32
  v4
def k2_off1 (i : grid2.Coords) : Fin 2 → Nat :=
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  let c0_2 : Index := 0#32
  ![v6.toNat, 0]
def k2_cond2 (i : grid2.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x4096_S1024x4096_0_0 : ∀ a, (![0, 0] : Fin 2 → Nat) a + S1024x4096.size a ≤ S1024x4096.size a
  h_S1024x4096 : 0 < S1024x4096.numel
  h_S4096x32 : 0 < S4096x32.numel
  slices_S4x32x32_S1x32x32_0_0_0 : S4x32x32.Slices ![0, 0, 0] S1x32x32
  shapeCasts_S1x32x32_S32x32 : S1x32x32.ShapeCasts S32x32
  slices_S4x32x32_S1x32x32_1_0_0 : S4x32x32.Slices ![1, 0, 0] S1x32x32
  shapeCasts_S4096x32_S4096x32 : S4096x32.ShapeCasts S4096x32
  bcast_S_S8192x32 : S_.BroadcastsInDim S8192x32 (![] : Fin 0 → Fin S8192x32.rank)
  slices_S4x32x32_S1x32x32_2_0_0 : S4x32x32.Slices ![2, 0, 0] S1x32x32
  slices_S4x32x32_S1x32x32_3_0_0 : S4x32x32.Slices ![3, 0, 0] S1x32x32
  transposes_S8192x32_S32x8192_1_0 : S8192x32.Transposes [1, 0] S32x8192
  dot_S1024x4096_S4096x32_S1024x32_1_0_0_1_n_n_wf : DotDims.WF S1024x4096 S4096x32 S1024x32 [1] [0] [0] [1] [] []
  dot_S8192x32_S32x32_S8192x32_1_0_0_1_n_n_wf : DotDims.WF S8192x32 S32x32 S8192x32 [1] [0] [0] [1] [] []
  dot_S32x8192_S8192x32_S32x32_1_0_0_1_n_n_wf : DotDims.WF S32x8192 S8192x32 S32x32 [1] [0] [0] [1] [] []
  dot_S32x32_S32x32_S32x32_1_0_0_1_n_n_wf : DotDims.WF S32x32 S32x32 S32x32 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x32.size a ≤ S8192x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .f32 = 32 ∨ (Rect.block (s := S8192x8192) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x32.size a ≤ S8192x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .f32 = 32 ∨ (Rect.block (s := S8192x8192) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .f32 = 32 ∨ (Rect.block (s := S8192x32) S8192x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)
  hrank2 : 0 < grid2.rank
  k2_mult1_dvd : ∀ i : grid2.Coords, 4096 ∣ (k2_mult1 i).toNat
  k2_off1_inb : ∀ i : grid2.Coords, ∀ a, (k2_off1 i) a + S4096x32.size a ≤ S8192x32.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x8192.size a
  hwx2_0 : ∀ i : grid2.Coords, EltTy.bits .f32 = 32 ∨ (Rect.block (s := S8192x8192) S1024x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x32.size a ≤ S8192x32.size a
  hwx2_1 : ∀ i : grid2.Coords, EltTy.bits .f32 = 32 ∨ (Rect.block (s := S8192x32) S8192x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)

variable [Facts₀]

def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S32x8192_S8192x32_S32x32_1_0_0_1_n_n : DotDims S32x8192 S8192x32 S32x32 where
  lhsContracting := [1]
  rhsContracting := [0]
  lhsNonContracting := [0]
  rhsNonContracting := [1]
  lhsBatch := []
  rhsBatch := []
  wf := dot_S32x8192_S8192x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S8192x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1024x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S4x32x32 : Shape := ⟨3, ![4, 32, 32]⟩
abbrev S1x32x32 : Shape := ⟨3, ![1, 32, 32]⟩
abbrev S_ : Shape := ⟨0, ![]⟩
abbrev S32x8192 : Shape := ⟨2, ![32, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x32, .f32⟩
  | .hbm, ⟨3, _⟩ => ⟨S4x32x32, .f32⟩
  | .hbm, ⟨4, _⟩ => ⟨S4x32x32, .f32⟩
  | .hbm, ⟨5, _⟩ => ⟨S8192x32, .f32⟩
  | .hbm, ⟨6, _⟩ => ⟨S1x32x32, .f32⟩
  | .hbm, ⟨7, _⟩ => ⟨S32x32, .f32⟩
  | .hbm, ⟨8, _⟩ => ⟨S8192x32, .f32⟩
  | .hbm, ⟨9, _⟩ => ⟨S1x32x32, .f32⟩
  | .hbm, ⟨10, _⟩ => ⟨S32x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x32x32, .f32⟩
  | .hbm, ⟨19, _⟩ => ⟨S32x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S_, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x32x32, .f32⟩
  | .hbm, ⟨28, _⟩ => ⟨S32x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S32x8192, .f32⟩
  | .hbm, ⟨33, _⟩ => ⟨S8192x8192, .f32⟩
  | .hbm, ⟨34, _⟩ => ⟨S8192x32, .f32⟩
  | .hbm, ⟨35, _⟩ => ⟨S1x32x32, .f32⟩
  | .hbm, ⟨36, _⟩ => ⟨S32x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S1x32x32, .f32⟩
  | .hbm, ⟨45, _⟩ => ⟨S32x32, .f32⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S_, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S1x32x32, .f32⟩
  | .hbm, ⟨54, _⟩ => ⟨S32x32, .f32⟩
  | .hbm, ⟨55, _⟩ => ⟨S8192x32, .f32⟩
  | .hbm, ⟨56, _⟩ => ⟨S8192x32, .f32⟩
  | .hbm, ⟨57, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]

class Facts₀ : Prop where
  slices_S4x32x32_S1x32x32_0_0_0 : S4x32x32.Slices ![0, 0, 0] S1x32x32
  shapeCasts_S1x32x32_S32x32 : S1x32x32.ShapeCasts S32x32
  slices_S4x32x32_S1x32x32_1_0_0 : S4x32x32.Slices ![1, 0, 0] S1x32x32
  bcast_S_S8192x32 : S_.BroadcastsInDim S8192x32 (![] : Fin 0 → Fin S8192x32.rank)
  slices_S4x32x32_S1x32x32_2_0_0 : S4x32x32.Slices ![2, 0, 0] S1x32x32
  slices_S4x32x32_S1x32x32_3_0_0 : S4x32x32.Slices ![3, 0, 0] S1x32x32
  transposes_S8192x32_S32x8192_1_0 : S8192x32.Transposes [1, 0] S32x8192
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []
  dot_S8192x32_S32x8192_S8192x8192_1_0_0_1_n_n_wf : DotDims.WF S8192x32 S32x8192 S8192x8192 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.Reg0Base.lean ====
/-
  Region 0 of the program: the tiled product `ws · v` on the grid (8, 2) — at a point (i, j) the body adds the
  product of block (i, j) of `ws` (1024 × 4096) with rows 4096 j … 4096 j + 4095 of `v` into a 1024 × 32 accumulator
  that it keeps between the two points of a row tile, clears at j = 0 and copies into the output block at j = 1.
  This module: the windows' blocks as the region finds them, the two branches of the body decided by the point,
  and the accumulator split off the region's scoped buffers.
-/
import proofs.«148117_j28647431864612_2_alg».proof.Proof.Gen.KernelIdeal.Launch
import proofs.«148117_j28647431864612_2_alg».proof.Proof.Gen.KernelIdeal.Skeleton
import proofs.«148117_j28647431864612_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `ws` is in its staging buffer at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of `v`, fetched once, is in its staging buffer at every point: its block index never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided by the point -/

/-- "This is the first reduction tile" (j = 0): the accumulator is cleared. -/
abbrev cond_0 (i : grid0.Coords) : Prop := (Scalar.cmpi .ne (Scalar.extui (Scalar.cmpi .eq (BitVec.ofNat 32 (i 1).val) 0#32)) 0#32) = 1#1
theorem hcond_0 : ∀ t : Fin cfg0.N, cond_0 (grid0.coords t) ↔ t.val % 2 = 0 :=
  (by decide +kernel : ∀ t : Fin grid0.N, cond_0 (grid0.coords t) ↔ t.val % 2 = 0)

/-- "This is the last reduction tile" (j = 1): the accumulator is copied to the output block. -/
abbrev cond_1 (i : grid0.Coords) : Prop := k0_cond2 i = 1#1
theorem hcond_1 : ∀ t : Fin cfg0.N, cond_1 (grid0.coords t) ↔ t.val % 2 = 1 :=
  (by decide +kernel : ∀ t : Fin grid0.N, cond_1 (grid0.coords t) ↔ t.val % 2 = 1)

theorem liveAt_0 : ∀ t : Fin cfg0.N, cfg0.idle 0 (grid0.coords t) = false := by decide +kernel
theorem liveAt_1 : ∀ t : Fin cfg0.N, cfg0.idle 1 (grid0.coords t) = false := by decide +kernel
/-- At j = 0 nothing is stored into the output block and it is not written back. -/
theorem idleAt_2_A : ∀ t : Fin cfg0.N, cond_0 (grid0.coords t) → ¬cond_1 (grid0.coords t) → cfg0.idle 2 (grid0.coords t) = true := by decide +kernel
theorem noFlush_2_A : ∀ t : Fin cfg0.N, cond_0 (grid0.coords t) → ¬cond_1 (grid0.coords t) → (cfg0.win 2).flush t = false := by decide +kernel
/-- At j = 1 the output block is stored. -/
theorem liveAt_2_C : ∀ t : Fin cfg0.N, ¬cond_0 (grid0.coords t) → cond_1 (grid0.coords t) → cfg0.idle 2 (grid0.coords t) = false := by decide +kernel

/-! ## The memrefs the body is called with -/

abbrev VO_2 : View sig .tc .vmem S1024x32 .f32 := (Memref.whole cc0_stg2_0 : Memref sig .tc .vmem S1024x32 .f32).view
abbrev ms_0 (t : Fin cfg0.N) : Memref sig .tc .vmem S1024x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8192x32 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x32 .f32 := win0_2.stage (cfg0.slots t 2)
abbrev hs_2 (t : Fin cfg0.N) : (ms_2 t).IsWhole := hstage0_2 ((cfg0.slots t 2).cast nbuf0_2)
/-- The accumulator: a whole scoped buffer of the kernel's own. -/
abbrev scM : Memref sig .tc .vmem S1024x32 .f32 := Memref.whole cc0_scratch0
abbrev VS : View sig .tc .vmem S1024x32 .f32 := scM.view

/-! ## The accumulator split off the region's scoped rest -/

/-- Everything of the region's class invariant but the accumulator: what gives the invariant back once the
    accumulator returns at any contents. -/
def Others (c : Dev nD) : sProp 𝕄 :=
  iprop((∃ d, owns (c : Thread nD τ) scM fullShare d) -∗ (Pipeline.ΦA spec0 c : sProp 𝕄))

/-- The class invariant hands out the accumulator at some contents, the rest staying behind. -/
theorem PhiA_split (c : Dev nD) :
    (Pipeline.ΦA spec0 c : sProp 𝕄) ⊢ iprop((∃ d, owns (c : Thread nD τ) scM fullShare d) ∗ Others (F := F) c) := by
  unfold Others Pipeline.ΦA; rw [scopedRest0_eq]; simp only [scM, owns_whole]
  iintro ⟨⟨HS, H1, H2, H3, H4, H5, H6, H7, H8, H9, H10, H11, H12⟩, Hg⟩
  isplitl [HS]; · iexact HS
  iintro HS
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- And takes it back at any contents. -/
theorem PhiA_join (c : Dev nD) :
    iprop((∃ d, owns (c : Thread nD τ) scM fullShare d) ∗ Others (F := F) c) ⊢ (Pipeline.ΦA spec0 c : sProp 𝕄) := by
  unfold Others
  iintro ⟨HS, HW⟩
  iapply HW
  iexact HS

end Cert.KernelIdeal.Reg0

end
-- ==== Proof.Reg0RunA.lean ====
/-
  Region 0, the body at a point with j = 0: the accumulator, entered at any contents, is cleared and receives the
  product of the block of `ws` with the first 4096 rows of `v`; the output block's buffer is not touched. The
  stores the run meets, as pieces, are its witness.
-/
import proofs.«148117_j28647431864612_2_alg».proof.Proof.Reg0Base

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 0: the inputs' buffers at their contents and the output's at
    `xi2` come back untouched, the accumulator comes back with the pieces `LS0` written. -/
noncomputable def kernelRun_A (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    Σ' (L2 : List (View.Piece (Elt F) S1024x32 .f32)), { LS0 : List (View.Piece (Elt F) S1024x32 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨[], ?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reg0

end
-- ==== Proof.Reg0RunC.lean ====
/-
  Region 0, the body at a point with j = 1: the accumulator, entered at what the point before left, receives the
  product of the block of `ws` with the last 4096 rows of `v` and is copied into the output block's buffer. The
  stores the run meets, as pieces, are its witness.
-/
import proofs.«148117_j28647431864612_2_alg».proof.Proof.Reg0RunA

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 1: the inputs' buffers come back untouched, the output's buffer
    with the pieces `L2` written and the accumulator, entered at `xs0`, with the pieces `LS0` written. -/
noncomputable def kernelRun_C (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    Σ' (L2 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg0

end
-- ==== Proof.Reg0.lean ====
/-
  Region 0: what the accumulator and the output block hold after each point, by recursion on the point — at j = 0
  the accumulator is the first half-product over zero, at j = 1 the second half-product added to what j = 0 left, and
  the output block is that sum —, the invariant carrying the accumulator from a point to the next, the pipeline's
  proof data and the body's obligation at every point.
-/
import proofs.«148117_j28647431864612_2_alg».proof.Proof.Reg0RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each branch leaves -/

/-- At j = 0 nothing is stored into the output block: a placeholder nothing consults. -/
def out_A_2 (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VO_2.read (Elt F) (VO_2.writes (Elt F) VO_2.junk (kernelRun_A c i arg2 harg2 arg3 harg3 arg4 harg4 arg5 harg5 hc0 hc1 x0 x1).1)

/-- At j = 0 the stores into the accumulator cover it. -/
theorem scover_A (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) (y : S1024x32.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x32.size (by sl_kernel_rfl) y

/-- What j = 0 leaves in the accumulator. -/
def sout_A (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VS.read (Elt F) (VS.writes (Elt F) VS.junk (kernelRun_A c i arg2 harg2 arg3 harg3 arg4 harg4 arg5 harg5 hc0 hc1 x0 x1).2.1)

/-- At j = 1 the store into the output block covers it. -/
theorem cover_C_2 (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x32.size (by sl_kernel_rfl) y

/-- What j = 1 leaves in the output block's buffer. -/
def out_C_2 (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VO_2.read (Elt F) (VO_2.writes (Elt F) VO_2.junk (kernelRun_C c i arg2 harg2 arg3 harg3 arg4 harg4 arg5 harg5 hc0 hc1 x0 x1 xs0).1)

/-- At j = 1 the store into the accumulator covers it. -/
theorem scover_C (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x32.size (by sl_kernel_rfl) y

/-- What j = 1 leaves in the accumulator. -/
def sout_C (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VS.read (Elt F) (VS.writes (Elt F) VS.junk (kernelRun_C c i arg2 harg2 arg3 harg3 arg4 harg4 arg5 harg5 hc0 hc1 x0 x1 xs0).2.1)

/-! ## What the output block and the accumulator hold after each point -/

/-- After the body at position `n`: (the output block's buffer, the accumulator). At an even position (j = 0) the
    accumulator starts afresh; at an odd one (j = 1) it continues from what the position before left. -/
def outsAt (c : Dev nD) : (n : ℕ) → n < cfg0.N → Vec F S1024x32 .f32 × Vec F S1024x32 .f32
  | 0, hn =>
    have h0 : (⟨0, hn⟩ : Fin cfg0.N).val % 2 = 0 := Nat.zero_mod _
    (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩),
     sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩))
  | n + 1, hn =>
    if h0 : (n + 1) % 2 = 0 then
      (out_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩),
       sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩))
    else
      (out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2,
       sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2)

/-- `outsAt` at a point with j = 0. -/
theorem outsAt_A (c : Dev nD) (t : Fin cfg0.N) (h0 : t.val % 2 = 0) :
    outsAt V c t.val t.isLt = (out_A_2 c (grid0.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t),
      sout_A c (grid0.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t)) := by
  obtain ⟨n, hn⟩ := t
  cases n with
  | zero => exact rfl
  | succ n => exact (dif_pos h0).trans rfl

/-- `outsAt` at a point with j = 1: over what the point before left. -/
theorem outsAt_C (c : Dev nD) (t : Fin cfg0.N) (h0 : ¬t.val % 2 = 0) (h1 : t.val % 2 = 1) :
    outsAt V c t.val t.isLt = (out_C_2 c (grid0.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2,
      sout_C c (grid0.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant that carries the accumulator -/

/-- Before position `n`: at the start the class invariant; afterwards the accumulator at what the point before
    left, beside the rest of the class invariant. -/
def PhiS (c : Dev nD) : (n : ℕ) → n ≤ cfg0.N → sProp 𝕄
  | 0, _ => Pipeline.ΦA spec0 c
  | n + 1, hn => iprop(owns (c : Thread nD τ) scM fullShare ((outsAt V c n hn).2) ∗ Others (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare ((outsAt V c n hn).2) ∗ Others (F := F) c) := rfl

theorem PhiS_pos (c : Dev nD) (n : ℕ) (h : n ≤ cfg0.N) (hz : n ≠ 0) :
    PhiS V c n h = iprop(owns (c : Thread nD τ) scM fullShare ((outsAt V c (n - 1) (by omega)).2) ∗ Others (F := F) c) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the parity of the point says which branch runs; the
    invariant hands the body the accumulator (at anything at the first point, at what the point before left later)
    and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · have h1 : ¬t.val % 2 = 1 := by omega
    rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS0, HR⟩
      iapply ((kernelRun_A c (grid0.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
    · rw [PhiS_castSucc V c t, PhiS_pos V c _ _ hz]
      iintro ⟨⟨HS0, HR⟩, Ho, ⟨%d0, H0⟩, ⟨%d1, H1⟩, ⟨%d2, H2⟩⟩
      iapply ((kernelRun_A c (grid0.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
  · have h1 : t.val % 2 = 1 := by omega
    rw [show (dat V c).leavesExact 2 t = owns (c : Thread nD τ) (ms_2 t) fullShare ((dat V c).after 2 t) from by
      unfold Dat.leavesExact; rw [liveAt_2_C t (fun h => h0 ((hcond_0 t).mp h)) ((hcond_1 t).mpr h1)], after_2]
    rw [outsAt_C V c t h0 h1]
    unfold out_C_2 sout_C; (try dsimp only)
    have hz : t.val ≠ 0 := by omega
    rw [PhiS_castSucc V c t, PhiS_pos V c _ _ hz]
    iintro ⟨⟨HS0, HR⟩, Ho, ⟨%d0, H0⟩, ⟨%d1, H1⟩, ⟨%d2, H2⟩⟩
    iapply ((kernelRun_C c (grid0.coords t) _ _ _ _ _ _ _ _ (fun h => h0 ((hcond_0 t).mp h)) ((hcond_1 t).mpr h1) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR]
    · isplitl [HS0]
      · unfold owns; iexists _; isplitr
        swap; · iexact HS0
        ipureintro; exact View.read_writes_of_cover _ _ _ _ _ (scover_C c _ _ _ _ _ _ _ _ _ _ _ _ _ _)
      iexact HR
    isplitl [Ho]; · iexact Ho
    isplitl [H0]; · iexact H0
    isplitl [H1]; · iexact H1
    unfold owns; iexists _; isplitr
    swap; · iexact H2
    ipureintro; exact View.read_writes_of_cover _ _ _ _ _ (cover_C_2 c _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht]
  iintro ⟨HS0, HR⟩
  iapply (PhiA_join (F := F) c)
  isplitl [HS0]
  · iexists _; iexact HS0
  iexact HR

theorem hout (c : Dev nD) : (dat V c).Φ (Fin.last cfg0.N) ⊢ Pipeline.ΦA spec0 c :=
  Phi_out V c _ (by rw [Fin.val_last]; have : cfg0.N = 16 := N_0; omega)

end Cert.KernelIdeal.Reg0

end
-- ==== Proof.Reg1Base.lean ====
/-
  Region 1 of the program: the tiled product `ws · v` on the grid (8, 2) — at a point (i, j) the body adds the
  product of block (i, j) of `ws` (1024 × 4096) with rows 4096 j … 4096 j + 4095 of `v` into a 1024 × 32 accumulator
  that it keeps between the two points of a row tile, clears at j = 0 and copies into the output block at j = 1.
  This module: the windows' blocks as the region finds them, the two branches of the body decided by the point,
  and the accumulator split off the region's scoped buffers.
-/
import proofs.«148117_j28647431864612_2_alg».proof.Proof.Gen.KernelIdeal.Launch
import proofs.«148117_j28647431864612_2_alg».proof.Proof.Gen.KernelIdeal.Skeleton
import proofs.«148117_j28647431864612_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `ws` is in its staging buffer at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of `v`, fetched once, is in its staging buffer at every point: its block index never moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided by the point -/

/-- "This is the first reduction tile" (j = 0): the accumulator is cleared. -/
abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 2 = 0 :=
  (by decide +kernel : ∀ t : Fin grid1.N, cond_0 (grid1.coords t) ↔ t.val % 2 = 0)

/-- "This is the last reduction tile" (j = 1): the accumulator is copied to the output block. -/
abbrev cond_1 (i : grid1.Coords) : Prop := k1_cond2 i = 1#1
theorem hcond_1 : ∀ t : Fin cfg1.N, cond_1 (grid1.coords t) ↔ t.val % 2 = 1 :=
  (by decide +kernel : ∀ t : Fin grid1.N, cond_1 (grid1.coords t) ↔ t.val % 2 = 1)

theorem liveAt_0 : ∀ t : Fin cfg1.N, cfg1.idle 0 (grid1.coords t) = false := by decide +kernel
theorem liveAt_1 : ∀ t : Fin cfg1.N, cfg1.idle 1 (grid1.coords t) = false := by decide +kernel
/-- At j = 0 nothing is stored into the output block and it is not written back. -/
theorem idleAt_2_A : ∀ t : Fin cfg1.N, cond_0 (grid1.coords t) → ¬cond_1 (grid1.coords t) → cfg1.idle 2 (grid1.coords t) = true := by decide +kernel
theorem noFlush_2_A : ∀ t : Fin cfg1.N, cond_0 (grid1.coords t) → ¬cond_1 (grid1.coords t) → (cfg1.win 2).flush t = false := by decide +kernel
/-- At j = 1 the output block is stored. -/
theorem liveAt_2_C : ∀ t : Fin cfg1.N, ¬cond_0 (grid1.coords t) → cond_1 (grid1.coords t) → cfg1.idle 2 (grid1.coords t) = false := by decide +kernel

/-! ## The memrefs the body is called with -/

abbrev VO_2 : View sig .tc .vmem S1024x32 .f32 := (Memref.whole cc1_stg2_0 : Memref sig .tc .vmem S1024x32 .f32).view
abbrev ms_0 (t : Fin cfg1.N) : Memref sig .tc .vmem S1024x4096 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8192x32 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x32 .f32 := win1_2.stage (cfg1.slots t 2)
abbrev hs_2 (t : Fin cfg1.N) : (ms_2 t).IsWhole := hstage1_2 ((cfg1.slots t 2).cast nbuf1_2)
/-- The accumulator: a whole scoped buffer of the kernel's own. -/
abbrev scM : Memref sig .tc .vmem S1024x32 .f32 := Memref.whole cc1_scratch0
abbrev VS : View sig .tc .vmem S1024x32 .f32 := scM.view

/-! ## The accumulator split off the region's scoped rest -/

/-- Everything of the region's class invariant but the accumulator: what gives the invariant back once the
    accumulator returns at any contents. -/
def Others (c : Dev nD) : sProp 𝕄 :=
  iprop((∃ d, owns (c : Thread nD τ) scM fullShare d) -∗ (Pipeline.ΦA spec1 c : sProp 𝕄))

/-- The class invariant hands out the accumulator at some contents, the rest staying behind. -/
theorem PhiA_split (c : Dev nD) :
    (Pipeline.ΦA spec1 c : sProp 𝕄) ⊢ iprop((∃ d, owns (c : Thread nD τ) scM fullShare d) ∗ Others (F := F) c) := by
  unfold Others Pipeline.ΦA; rw [scopedRest1_eq]; simp only [scM, owns_whole]
  iintro ⟨⟨H0, H1, H2, H3, H4, H5, HS, H7, H8, H9, H10, H11, H12⟩, Hg⟩
  isplitl [HS]; · iexact HS
  iintro HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H7]; · iexact H7
  isplitl [H8]; · iexact H8
  isplitl [H9]; · iexact H9
  isplitl [H10]; · iexact H10
  isplitl [H11]; · iexact H11
  iexact H12

/-- And takes it back at any contents. -/
theorem PhiA_join (c : Dev nD) :
    iprop((∃ d, owns (c : Thread nD τ) scM fullShare d) ∗ Others (F := F) c) ⊢ (Pipeline.ΦA spec1 c : sProp 𝕄) := by
  unfold Others
  iintro ⟨HS, HW⟩
  iapply HW
  iexact HS

end Cert.KernelIdeal.Reg1

end
-- ==== Proof.Reg1RunA.lean ====
/-
  Region 1, the body at a point with j = 0: the accumulator, entered at any contents, is cleared and receives the
  product of the block of `ws` with the first 4096 rows of `v`; the output block's buffer is not touched. The
  stores the run meets, as pieces, are its witness.
-/
import proofs.«148117_j28647431864612_2_alg».proof.Proof.Reg1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 0: the inputs' buffers at their contents and the output's at
    `xi2` come back untouched, the accumulator comes back with the pieces `LS0` written. -/
noncomputable def kernelRun_A (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    Σ' (L2 : List (View.Piece (Elt F) S1024x32 .f32)), { LS0 : List (View.Piece (Elt F) S1024x32 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reg1

end
-- ==== Proof.Reg1RunC.lean ====
/-
  Region 1, the body at a point with j = 1: the accumulator, entered at what the point before left, receives the
  product of the block of `ws` with the last 4096 rows of `v` and is copied into the output block's buffer. The
  stores the run meets, as pieces, are its witness.
-/
import proofs.«148117_j28647431864612_2_alg».proof.Proof.Reg1RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 1: the inputs' buffers come back untouched, the output's buffer
    with the pieces `L2` written and the accumulator, entered at `xs0`, with the pieces `LS0` written. -/
noncomputable def kernelRun_C (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    Σ' (L2 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg1

end
-- ==== Proof.Reg1.lean ====
/-
  Region 1: what the accumulator and the output block hold after each point, by recursion on the point — at j = 0
  the accumulator is the first half-product over zero, at j = 1 the second half-product added to what j = 0 left, and
  the output block is that sum —, the invariant carrying the accumulator from a point to the next, the pipeline's
  proof data and the body's obligation at every point.
-/
import proofs.«148117_j28647431864612_2_alg».proof.Proof.Reg1RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each branch leaves -/

/-- At j = 0 nothing is stored into the output block: a placeholder nothing consults. -/
def out_A_2 (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VO_2.read (Elt F) (VO_2.writes (Elt F) VO_2.junk (kernelRun_A c i arg2 harg2 arg3 harg3 arg4 harg4 arg5 harg5 hc0 hc1 x0 x1).1)

/-- At j = 0 the stores into the accumulator cover it. -/
theorem scover_A (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) (y : S1024x32.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x32.size (by sl_kernel_rfl) y

/-- What j = 0 leaves in the accumulator. -/
def sout_A (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VS.read (Elt F) (VS.writes (Elt F) VS.junk (kernelRun_A c i arg2 harg2 arg3 harg3 arg4 harg4 arg5 harg5 hc0 hc1 x0 x1).2.1)

/-- At j = 1 the store into the output block covers it. -/
theorem cover_C_2 (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x32.size (by sl_kernel_rfl) y

/-- What j = 1 leaves in the output block's buffer. -/
def out_C_2 (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VO_2.read (Elt F) (VO_2.writes (Elt F) VO_2.junk (kernelRun_C c i arg2 harg2 arg3 harg3 arg4 harg4 arg5 harg5 hc0 hc1 x0 x1 xs0).1)

/-- At j = 1 the store into the accumulator covers it. -/
theorem scover_C (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x32.size (by sl_kernel_rfl) y

/-- What j = 1 leaves in the accumulator. -/
def sout_C (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VS.read (Elt F) (VS.writes (Elt F) VS.junk (kernelRun_C c i arg2 harg2 arg3 harg3 arg4 harg4 arg5 harg5 hc0 hc1 x0 x1 xs0).2.1)

/-! ## What the output block and the accumulator hold after each point -/

/-- After the body at position `n`: (the output block's buffer, the accumulator). At an even position (j = 0) the
    accumulator starts afresh; at an odd one (j = 1) it continues from what the position before left. -/
def outsAt (c : Dev nD) : (n : ℕ) → n < cfg1.N → Vec F S1024x32 .f32 × Vec F S1024x32 .f32
  | 0, hn =>
    have h0 : (⟨0, hn⟩ : Fin cfg1.N).val % 2 = 0 := Nat.zero_mod _
    (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩),
     sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩))
  | n + 1, hn =>
    if h0 : (n + 1) % 2 = 0 then
      (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩),
       sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩))
    else
      (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2,
       sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2)

/-- `outsAt` at a point with j = 0. -/
theorem outsAt_A (c : Dev nD) (t : Fin cfg1.N) (h0 : t.val % 2 = 0) :
    outsAt V c t.val t.isLt = (out_A_2 c (grid1.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t),
      sout_A c (grid1.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t)) := by
  obtain ⟨n, hn⟩ := t
  cases n with
  | zero => exact rfl
  | succ n => exact (dif_pos h0).trans rfl

/-- `outsAt` at a point with j = 1: over what the point before left. -/
theorem outsAt_C (c : Dev nD) (t : Fin cfg1.N) (h0 : ¬t.val % 2 = 0) (h1 : t.val % 2 = 1) :
    outsAt V c t.val t.isLt = (out_C_2 c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2,
      sout_C c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant that carries the accumulator -/

/-- Before position `n`: at the start the class invariant; afterwards the accumulator at what the point before
    left, beside the rest of the class invariant. -/
def PhiS (c : Dev nD) : (n : ℕ) → n ≤ cfg1.N → sProp 𝕄
  | 0, _ => Pipeline.ΦA spec1 c
  | n + 1, hn => iprop(owns (c : Thread nD τ) scM fullShare ((outsAt V c n hn).2) ∗ Others (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt V c n hn).2) ∗ Others (F := F) c) := rfl

theorem PhiS_pos (c : Dev nD) (n : ℕ) (h : n ≤ cfg1.N) (hz : n ≠ 0) :
    PhiS V c n h = iprop(owns (c : Thread nD τ) scM fullShare ((outsAt V c (n - 1) (by omega)).2) ∗ Others (F := F) c) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the parity of the point says which branch runs; the
    invariant hands the body the accumulator (at anything at the first point, at what the point before left later)
    and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · have h1 : ¬t.val % 2 = 1 := by omega
    rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS0, HR⟩
      iapply ((kernelRun_A c (grid1.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
    · rw [PhiS_castSucc V c t, PhiS_pos V c _ _ hz]
      iintro ⟨⟨HS0, HR⟩, Ho, ⟨%d0, H0⟩, ⟨%d1, H1⟩, ⟨%d2, H2⟩⟩
      iapply ((kernelRun_A c (grid1.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
  · have h1 : t.val % 2 = 1 := by omega
    rw [show (dat V c).leavesExact 2 t = owns (c : Thread nD τ) (ms_2 t) fullShare ((dat V c).after 2 t) from by
      unfold Dat.leavesExact; rw [liveAt_2_C t (fun h => h0 ((hcond_0 t).mp h)) ((hcond_1 t).mpr h1)], after_2]
    rw [outsAt_C V c t h0 h1]
    unfold out_C_2 sout_C; (try dsimp only)
    have hz : t.val ≠ 0 := by omega
    rw [PhiS_castSucc V c t, PhiS_pos V c _ _ hz]
    iintro ⟨⟨HS0, HR⟩, Ho, ⟨%d0, H0⟩, ⟨%d1, H1⟩, ⟨%d2, H2⟩⟩
    iapply ((kernelRun_C c (grid1.coords t) _ _ _ _ _ _ _ _ (fun h => h0 ((hcond_0 t).mp h)) ((hcond_1 t).mpr h1) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR]
    · isplitl [HS0]
      · unfold owns; iexists _; isplitr
        swap; · iexact HS0
        ipureintro; exact View.read_writes_of_cover _ _ _ _ _ (scover_C c _ _ _ _ _ _ _ _ _ _ _ _ _ _)
      iexact HR
    isplitl [Ho]; · iexact Ho
    isplitl [H0]; · iexact H0
    isplitl [H1]; · iexact H1
    unfold owns; iexists _; isplitr
    swap; · iexact H2
    ipureintro; exact View.read_writes_of_cover _ _ _ _ _ (cover_C_2 c _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HS0, HR⟩
  iapply (PhiA_join (F := F) c)
  isplitl [HS0]
  · iexists _; iexact HS0
  iexact HR

theorem hout (c : Dev nD) : (dat V c).Φ (Fin.last cfg1.N) ⊢ Pipeline.ΦA spec1 c :=
  Phi_out V c _ (by rw [Fin.val_last]; have : cfg1.N = 16 := N_1; omega)

end Cert.KernelIdeal.Reg1

end
-- ==== Proof.Reg2Base.lean ====
/-
  Region 2 of the program: the tiled product `ws · v` on the grid (8, 2) — at a point (i, j) the body adds the
  product of block (i, j) of `ws` (1024 × 4096) with rows 4096 j … 4096 j + 4095 of `v` into a 1024 × 32 accumulator
  that it keeps between the two points of a row tile, clears at j = 0 and copies into the output block at j = 1.
  This module: the windows' blocks as the region finds them, the two branches of the body decided by the point,
  and the accumulator split off the region's scoped buffers.
-/
import proofs.«148117_j28647431864612_2_alg».proof.Proof.Gen.KernelIdeal.Launch
import proofs.«148117_j28647431864612_2_alg».proof.Proof.Gen.KernelIdeal.Skeleton
import proofs.«148117_j28647431864612_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `ws` is in its staging buffer at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of `v`, fetched once, is in its staging buffer at every point: its block index never moves. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided by the point -/

/-- "This is the first reduction tile" (j = 0): the accumulator is cleared. -/
abbrev cond_0 (i : grid2.Coords) : Prop := (Scalar.cmpi .ne (Scalar.extui (Scalar.cmpi .eq (BitVec.ofNat 32 (i 1).val) 0#32)) 0#32) = 1#1
theorem hcond_0 : ∀ t : Fin cfg2.N, cond_0 (grid2.coords t) ↔ t.val % 2 = 0 :=
  (by decide +kernel : ∀ t : Fin grid2.N, cond_0 (grid2.coords t) ↔ t.val % 2 = 0)

/-- "This is the last reduction tile" (j = 1): the accumulator is copied to the output block. -/
abbrev cond_1 (i : grid2.Coords) : Prop := k2_cond2 i = 1#1
theorem hcond_1 : ∀ t : Fin cfg2.N, cond_1 (grid2.coords t) ↔ t.val % 2 = 1 :=
  (by decide +kernel : ∀ t : Fin grid2.N, cond_1 (grid2.coords t) ↔ t.val % 2 = 1)

theorem liveAt_0 : ∀ t : Fin cfg2.N, cfg2.idle 0 (grid2.coords t) = false := by decide +kernel
theorem liveAt_1 : ∀ t : Fin cfg2.N, cfg2.idle 1 (grid2.coords t) = false := by decide +kernel
/-- At j = 0 nothing is stored into the output block and it is not written back. -/
theorem idleAt_2_A : ∀ t : Fin cfg2.N, cond_0 (grid2.coords t) → ¬cond_1 (grid2.coords t) → cfg2.idle 2 (grid2.coords t) = true := by decide +kernel
theorem noFlush_2_A : ∀ t : Fin cfg2.N, cond_0 (grid2.coords t) → ¬cond_1 (grid2.coords t) → (cfg2.win 2).flush t = false := by decide +kernel
/-- At j = 1 the output block is stored. -/
theorem liveAt_2_C : ∀ t : Fin cfg2.N, ¬cond_0 (grid2.coords t) → cond_1 (grid2.coords t) → cfg2.idle 2 (grid2.coords t) = false := by decide +kernel

/-! ## The memrefs the body is called with -/

abbrev VO_2 : View sig .tc .vmem S1024x32 .f32 := (Memref.whole cc2_stg2_0 : Memref sig .tc .vmem S1024x32 .f32).view
abbrev ms_0 (t : Fin cfg2.N) : Memref sig .tc .vmem S1024x4096 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S8192x32 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x32 .f32 := win2_2.stage (cfg2.slots t 2)
abbrev hs_2 (t : Fin cfg2.N) : (ms_2 t).IsWhole := hstage2_2 ((cfg2.slots t 2).cast nbuf2_2)
/-- The accumulator: a whole scoped buffer of the kernel's own. -/
abbrev scM : Memref sig .tc .vmem S1024x32 .f32 := Memref.whole cc2_scratch0
abbrev VS : View sig .tc .vmem S1024x32 .f32 := scM.view

/-! ## The accumulator split off the region's scoped rest -/

/-- Everything of the region's class invariant but the accumulator: what gives the invariant back once the
    accumulator returns at any contents. -/
def Others (c : Dev nD) : sProp 𝕄 :=
  iprop((∃ d, owns (c : Thread nD τ) scM fullShare d) -∗ (Pipeline.ΦA spec2 c : sProp 𝕄))

/-- The class invariant hands out the accumulator at some contents, the rest staying behind. -/
theorem PhiA_split (c : Dev nD) :
    (Pipeline.ΦA spec2 c : sProp 𝕄) ⊢ iprop((∃ d, owns (c : Thread nD τ) scM fullShare d) ∗ Others (F := F) c) := by
  unfold Others Pipeline.ΦA; rw [scopedRest2_eq]; simp only [scM, owns_whole]
  iintro ⟨⟨H0, H1, H2, H3, H4, H5, H6, H7, H8, H9, H10, H11, HS⟩, Hg⟩
  isplitl [HS]; · iexact HS
  iintro HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

/-- And takes it back at any contents. -/
theorem PhiA_join (c : Dev nD) :
    iprop((∃ d, owns (c : Thread nD τ) scM fullShare d) ∗ Others (F := F) c) ⊢ (Pipeline.ΦA spec2 c : sProp 𝕄) := by
  unfold Others
  iintro ⟨HS, HW⟩
  iapply HW
  iexact HS

end Cert.KernelIdeal.Reg2

end
-- ==== Proof.Reg2RunA.lean ====
/-
  Region 2, the body at a point with j = 0: the accumulator, entered at any contents, is cleared and receives the
  product of the block of `ws` with the first 4096 rows of `v`; the output block's buffer is not touched. The
  stores the run meets, as pieces, are its witness.
-/
import proofs.«148117_j28647431864612_2_alg».proof.Proof.Reg2Base

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 0: the inputs' buffers at their contents and the output's at
    `xi2` come back untouched, the accumulator comes back with the pieces `LS0` written. -/
noncomputable def kernelRun_A (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    Σ' (L2 : List (View.Piece (Elt F) S1024x32 .f32)), { LS0 : List (View.Piece (Elt F) S1024x32 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__mm_kernel i arg2 harg2 arg3 harg3 arg4 harg4 arg5 harg5) K } := by
  refine ⟨[], ?_, fun xi2 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reg2

end
-- ==== Proof.Reg2RunC.lean ====
/-
  Region 2, the body at a point with j = 1: the accumulator, entered at what the point before left, receives the
  product of the block of `ws` with the last 4096 rows of `v` and is copied into the output block's buffer. The
  stores the run meets, as pieces, are its witness.
-/
import proofs.«148117_j28647431864612_2_alg».proof.Proof.Reg2RunA

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 1: the inputs' buffers come back untouched, the output's buffer
    with the pieces `L2` written and the accumulator, entered at `xs0`, with the pieces `LS0` written. -/
noncomputable def kernelRun_C (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    Σ' (L2 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__mm_kernel i arg2 harg2 arg3 harg3 arg4 harg4 arg5 harg5) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg2

end
-- ==== Proof.Reg2.lean ====
/-
  Region 2: what the accumulator and the output block hold after each point, by recursion on the point — at j = 0
  the accumulator is the first half-product over zero, at j = 1 the second half-product added to what j = 0 left, and
  the output block is that sum —, the invariant carrying the accumulator from a point to the next, the pipeline's
  proof data and the body's obligation at every point.
-/
import proofs.«148117_j28647431864612_2_alg».proof.Proof.Reg2RunC

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each branch leaves -/

/-- At j = 0 nothing is stored into the output block: a placeholder nothing consults. -/
def out_A_2 (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VO_2.read (Elt F) (VO_2.writes (Elt F) VO_2.junk (kernelRun_A c i arg2 harg2 arg3 harg3 arg4 harg4 arg5 harg5 hc0 hc1 x0 x1).1)

/-- At j = 0 the stores into the accumulator cover it. -/
theorem scover_A (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) (y : S1024x32.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x32.size (by sl_kernel_rfl) y

/-- What j = 0 leaves in the accumulator. -/
def sout_A (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VS.read (Elt F) (VS.writes (Elt F) VS.junk (kernelRun_A c i arg2 harg2 arg3 harg3 arg4 harg4 arg5 harg5 hc0 hc1 x0 x1).2.1)

/-- At j = 1 the store into the output block covers it. -/
theorem cover_C_2 (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x32.size (by sl_kernel_rfl) y

/-- What j = 1 leaves in the output block's buffer. -/
def out_C_2 (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VO_2.read (Elt F) (VO_2.writes (Elt F) VO_2.junk (kernelRun_C c i arg2 harg2 arg3 harg3 arg4 harg4 arg5 harg5 hc0 hc1 x0 x1 xs0).1)

/-- At j = 1 the store into the accumulator covers it. -/
theorem scover_C (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x32.size (by sl_kernel_rfl) y

/-- What j = 1 leaves in the accumulator. -/
def sout_C (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VS.read (Elt F) (VS.writes (Elt F) VS.junk (kernelRun_C c i arg2 harg2 arg3 harg3 arg4 harg4 arg5 harg5 hc0 hc1 x0 x1 xs0).2.1)

/-! ## What the output block and the accumulator hold after each point -/

/-- After the body at position `n`: (the output block's buffer, the accumulator). At an even position (j = 0) the
    accumulator starts afresh; at an odd one (j = 1) it continues from what the position before left. -/
def outsAt (c : Dev nD) : (n : ℕ) → n < cfg2.N → Vec F S1024x32 .f32 × Vec F S1024x32 .f32
  | 0, hn =>
    have h0 : (⟨0, hn⟩ : Fin cfg2.N).val % 2 = 0 := Nat.zero_mod _
    (out_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩),
     sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩))
  | n + 1, hn =>
    if h0 : (n + 1) % 2 = 0 then
      (out_A_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩),
       sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩))
    else
      (out_C_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2,
       sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2)

/-- `outsAt` at a point with j = 0. -/
theorem outsAt_A (c : Dev nD) (t : Fin cfg2.N) (h0 : t.val % 2 = 0) :
    outsAt V c t.val t.isLt = (out_A_2 c (grid2.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t),
      sout_A c (grid2.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t)) := by
  obtain ⟨n, hn⟩ := t
  cases n with
  | zero => exact rfl
  | succ n => exact (dif_pos h0).trans rfl

/-- `outsAt` at a point with j = 1: over what the point before left. -/
theorem outsAt_C (c : Dev nD) (t : Fin cfg2.N) (h0 : ¬t.val % 2 = 0) (h1 : t.val % 2 = 1) :
    outsAt V c t.val t.isLt = (out_C_2 c (grid2.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2,
      sout_C c (grid2.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant that carries the accumulator -/

/-- Before position `n`: at the start the class invariant; afterwards the accumulator at what the point before
    left, beside the rest of the class invariant. -/
def PhiS (c : Dev nD) : (n : ℕ) → n ≤ cfg2.N → sProp 𝕄
  | 0, _ => Pipeline.ΦA spec2 c
  | n + 1, hn => iprop(owns (c : Thread nD τ) scM fullShare ((outsAt V c n hn).2) ∗ Others (F := F) c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare ((outsAt V c n hn).2) ∗ Others (F := F) c) := rfl

theorem PhiS_pos (c : Dev nD) (n : ℕ) (h : n ≤ cfg2.N) (hz : n ≠ 0) :
    PhiS V c n h = iprop(owns (c : Thread nD τ) scM fullShare ((outsAt V c (n - 1) (by omega)).2) ∗ Others (F := F) c) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the parity of the point says which branch runs; the
    invariant hands the body the accumulator (at anything at the first point, at what the point before left later)
    and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · have h1 : ¬t.val % 2 = 1 := by omega
    rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS0, HR⟩
      iapply ((kernelRun_A c (grid2.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
    · rw [PhiS_castSucc V c t, PhiS_pos V c _ _ hz]
      iintro ⟨⟨HS0, HR⟩, Ho, ⟨%d0, H0⟩, ⟨%d1, H1⟩, ⟨%d2, H2⟩⟩
      iapply ((kernelRun_A c (grid2.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
  · have h1 : t.val % 2 = 1 := by omega
    rw [show (dat V c).leavesExact 2 t = owns (c : Thread nD τ) (ms_2 t) fullShare ((dat V c).after 2 t) from by
      unfold Dat.leavesExact; rw [liveAt_2_C t (fun h => h0 ((hcond_0 t).mp h)) ((hcond_1 t).mpr h1)], after_2]
    rw [outsAt_C V c t h0 h1]
    unfold out_C_2 sout_C; (try dsimp only)
    have hz : t.val ≠ 0 := by omega
    rw [PhiS_castSucc V c t, PhiS_pos V c _ _ hz]
    iintro ⟨⟨HS0, HR⟩, Ho, ⟨%d0, H0⟩, ⟨%d1, H1⟩, ⟨%d2, H2⟩⟩
    iapply ((kernelRun_C c (grid2.coords t) _ _ _ _ _ _ _ _ (fun h => h0 ((hcond_0 t).mp h)) ((hcond_1 t).mpr h1) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR]
    · isplitl [HS0]
      · unfold owns; iexists _; isplitr
        swap; · iexact HS0
        ipureintro; exact View.read_writes_of_cover _ _ _ _ _ (scover_C c _ _ _ _ _ _ _ _ _ _ _ _ _ _)
      iexact HR
    isplitl [Ho]; · iexact Ho
    isplitl [H0]; · iexact H0
    isplitl [H1]; · iexact H1
    unfold owns; iexists _; isplitr
    swap; · iexact H2
    ipureintro; exact View.read_writes_of_cover _ _ _ _ _ (cover_C_2 c _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht]
  iintro ⟨HS0, HR⟩
  iapply (PhiA_join (F := F) c)
  isplitl [HS0]
  · iexists _; iexact HS0
  iexact HR

theorem hout (c : Dev nD) : (dat V c).Φ (Fin.last cfg2.N) ⊢ Pipeline.ΦA spec2 c :=
  Phi_out V c _ (by rw [Fin.val_last]; have : cfg2.N = 16 := N_2; omega)

end Cert.KernelIdeal.Reg2

end
-- ==== Proof.Run.lean ====
/-
  The whole run of the program: its three regions, each the tiled product `ws · v`, and the host operations between
  and after them, chained from the launch to the return. Between two items every unscoped buffer is held at a named
  valuation: the launch contents, then each region's output written (`X1`, `X3`, `X5`), then each stretch of host
  operations applied (`X2`, `X4`, `X6`). The run ends with every unscoped buffer at `X6`.
-/
import proofs.«148117_j28647431864612_2_alg».proof.Proof.Reg0
import proofs.«148117_j28647431864612_2_alg».proof.Proof.Reg1
import proofs.«148117_j28647431864612_2_alg».proof.Proof.Reg2
import proofs.«148117_j28647431864612_2_alg».proof.Proof.Gen.KernelIdeal.Regions
import Idealize.ShloMosaic.Lib.Pipeline.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev X0 (c : Dev nD) : Valuation τ sig (Elt F) := fun b => m (c, b)
/-- The same read at the TensorCore's references: what region 0 is entered with. -/
abbrev Ve0 (c : Dev nD) (b : Ref sig .tc) : Buf (Elt F) ((c : Thread nD τ).loc b) := X0 m c b
/-- What region 0 leaves in its output array. -/
def o1 (c : Dev nD) : Buf (Elt F) ((c : Thread nD τ).loc main_v0) := (Reg0.dat (Ve0 m) c).arrAt 2 cfg0.N
/-- After region 0. -/
def X1 (c : Dev nD) : Valuation τ sig (Elt F) := Function.update (X0 m c) main_v0 (o1 m c)
/-- After the first stretch of host operations. -/
def X2 (c : Dev nD) : Valuation τ sig (Elt F) := StableHlo.after hostOps1 (X1 m c)
abbrev Ve1 (c : Dev nD) (b : Ref sig .tc) : Buf (Elt F) ((c : Thread nD τ).loc b) := X2 m c b
/-- What region 1 leaves in its output array. -/
def o3 (c : Dev nD) : Buf (Elt F) ((c : Thread nD τ).loc main_v8) := (Reg1.dat (Ve1 m) c).arrAt 2 cfg1.N
/-- After region 1. -/
def X3 (c : Dev nD) : Valuation τ sig (Elt F) := Function.update (X2 m c) main_v8 (o3 m c)
/-- After the second stretch of host operations. -/
def X4 (c : Dev nD) : Valuation τ sig (Elt F) := StableHlo.after hostOps2 (X3 m c)
abbrev Ve2 (c : Dev nD) (b : Ref sig .tc) : Buf (Elt F) ((c : Thread nD τ).loc b) := X4 m c b
/-- What region 2 leaves in its output array. -/
def o5 (c : Dev nD) : Buf (Elt F) ((c : Thread nD τ).loc main_v16) := (Reg2.dat (Ve2 m) c).arrAt 2 cfg2.N
/-- After region 2. -/
def X5 (c : Dev nD) : Valuation τ sig (Elt F) := Function.update (X4 m c) main_v16 (o5 m c)
/-- After the last stretch of host operations: the contents at the return. -/
def X6 (c : Dev nD) : Valuation τ sig (Elt F) := StableHlo.after hostOps3 (X5 m c)

/-- The regions' outputs as the family the conditional valuations `Gen.V1 … Gen.V6` are written over. -/
def outs : Gen.Outs (F := F) := fun J r c =>
  match J with
  | 1 => X1 m c r
  | 3 => X3 m c r
  | 5 => X5 m c r
  | _ => X0 m c r

theorem outs1 (c : Dev nD) : outs m 1 main_v0 c = o1 m c := by
  show X1 m c main_v0 = _; unfold X1; exact Function.update_self ..
theorem outs3 (c : Dev nD) : outs m 3 main_v8 c = o3 m c := by
  show X3 m c main_v8 = _; unfold X3; exact Function.update_self ..
theorem outs5 (c : Dev nD) : outs m 5 main_v16 c = o5 m c := by
  show X5 m c main_v16 = _; unfold X5; exact Function.update_self ..

theorem V1_eq (c : Dev nD) : Gen.V1 m (outs m) c = X1 m c := by
  show Function.update (X0 m c) main_v0 (outs m 1 main_v0 c) = _; rw [outs1]; rfl
theorem V2_eq (c : Dev nD) : Gen.V2 m (outs m) c = X2 m c := by
  show StableHlo.after hostOps1 (Gen.V1 m (outs m) c) = _; rw [V1_eq]; rfl
theorem V3_eq (c : Dev nD) : Gen.V3 m (outs m) c = X3 m c := by
  show Function.update (Gen.V2 m (outs m) c) main_v8 (outs m 3 main_v8 c) = _; rw [outs3, V2_eq]; rfl
theorem V4_eq (c : Dev nD) : Gen.V4 m (outs m) c = X4 m c := by
  show StableHlo.after hostOps2 (Gen.V3 m (outs m) c) = _; rw [V3_eq]; rfl
theorem V5_eq (c : Dev nD) : Gen.V5 m (outs m) c = X5 m c := by
  show Function.update (Gen.V4 m (outs m) c) main_v16 (outs m 5 main_v16 c) = _; rw [outs5, V4_eq]; rfl
theorem V6_eq (c : Dev nD) : Gen.V6 m (outs m) c = X6 m c := by
  show StableHlo.after hostOps3 (Gen.V5 m (outs m) c) = _; rw [V5_eq]; rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (Ve0 m) c
  | ⟨1, _⟩ => fun c => Reg1.dat (Ve1 m) c
  | ⟨2, _⟩ => fun c => Reg2.dat (Ve2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    `owes`, at nothing. -/
abbrev R (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = X1 m c (Pipeline.arrRef spec0 w) := by
  match w with
  | ⟨0, _⟩ => exact ((Reg0.dat (Ve0 m) c).arrAt_in 0 rfl _).trans ((Reg0.A_eq (Ve0 m) c 0).trans (by unfold X1; exact (Function.update_of_ne (StableHlo.devRef_ne_of_ne (by decide)) _ _).symm))
  | ⟨1, _⟩ => exact ((Reg0.dat (Ve0 m) c).arrAt_in 1 rfl _).trans ((Reg0.A_eq (Ve0 m) c 1).trans (by unfold X1; exact (Function.update_of_ne (StableHlo.devRef_ne_of_ne (by decide)) _ _).symm))
  | ⟨2, _⟩ => exact (by unfold X1; show _ = Function.update (X0 m c) (Proc.devRef .tc main_v0) (o1 m c) (Proc.devRef .tc main_v0); rw [Function.update_self]; rfl)
theorem hrest0 (c : Dev nD) : ∀ b : Ref sig .tc, b ∉ Finset.univ.image (Pipeline.arrRef spec0) → X1 m c b = Ve0 m c b := fun b hb => by
  unfold X1; exact Function.update_of_ne (StableHlo.devRef_ne_of_ne fun e => hb (Finset.mem_image.mpr ⟨2, Finset.mem_univ _, e.symm⟩)) _ _

theorem hF1 (c : Dev nD) (w : Fin cfg1.W) : (pdats m 1 c).arrAt w cfg1.N = X3 m c (Pipeline.arrRef spec1 w) := by
  match w with
  | ⟨0, _⟩ => exact ((Reg1.dat (Ve1 m) c).arrAt_in 0 rfl _).trans ((Reg1.A_eq (Ve1 m) c 0).trans (by unfold X3; exact (Function.update_of_ne (StableHlo.devRef_ne_of_ne (by decide)) _ _).symm))
  | ⟨1, _⟩ => exact ((Reg1.dat (Ve1 m) c).arrAt_in 1 rfl _).trans ((Reg1.A_eq (Ve1 m) c 1).trans (by unfold X3; exact (Function.update_of_ne (StableHlo.devRef_ne_of_ne (by decide)) _ _).symm))
  | ⟨2, _⟩ => exact (by unfold X3; show _ = Function.update (X2 m c) (Proc.devRef .tc main_v8) (o3 m c) (Proc.devRef .tc main_v8); rw [Function.update_self]; rfl)
theorem hrest1 (c : Dev nD) : ∀ b : Ref sig .tc, b ∉ Finset.univ.image (Pipeline.arrRef spec1) → X3 m c b = Ve1 m c b := fun b hb => by
  unfold X3; exact Function.update_of_ne (StableHlo.devRef_ne_of_ne fun e => hb (Finset.mem_image.mpr ⟨2, Finset.mem_univ _, e.symm⟩)) _ _

theorem hF2 (c : Dev nD) (w : Fin cfg2.W) : (pdats m 2 c).arrAt w cfg2.N = X5 m c (Pipeline.arrRef spec2 w) := by
  match w with
  | ⟨0, _⟩ => exact ((Reg2.dat (Ve2 m) c).arrAt_in 0 rfl _).trans ((Reg2.A_eq (Ve2 m) c 0).trans (by unfold X5; exact (Function.update_of_ne (StableHlo.devRef_ne_of_ne (by decide)) _ _).symm))
  | ⟨1, _⟩ => exact ((Reg2.dat (Ve2 m) c).arrAt_in 1 rfl _).trans ((Reg2.A_eq (Ve2 m) c 1).trans (by unfold X5; exact (Function.update_of_ne (StableHlo.devRef_ne_of_ne (by decide)) _ _).symm))
  | ⟨2, _⟩ => exact (by unfold X5; show _ = Function.update (X4 m c) (Proc.devRef .tc main_v16) (o5 m c) (Proc.devRef .tc main_v16); rw [Function.update_self]; rfl)
theorem hrest2 (c : Dev nD) : ∀ b : Ref sig .tc, b ∉ Finset.univ.image (Pipeline.arrRef spec2) → X5 m c b = Ve2 m c b := fun b hb => by
  unfold X5; exact Function.update_of_ne (StableHlo.devRef_ne_of_ne fun e => hb (Finset.mem_image.mpr ⟨2, Finset.mem_univ _, e.symm⟩)) _ _

/-! ## The regions as segments -/

-- unification against the pinned configuration unfolds plain definitions in a metavariable's type
set_option backward.isDefEq.respectTransparency.types false in
/-- Region 0 over the thread state: entered from every unscoped buffer at `X0`, left at `X1`; its
    arrays split out of the unscoped buffers and put back at the exit contents; the generator register into the
    class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Ve0 m) c).loose
  hwaits := Pipeline.hwaits_of_owed_zero _ _ _ _ L lv 0 fun _ _ => rfl
  pre c := iprop(StableHlo.held (c : Thread nD τ) (Pipeline.ucRefs τ sig) (X0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (Ve0 m) c)
    unfold Pipeline.ΦA
    iintro ⟨Hp, -, Hr⟩
    isplitl [Hr]; · iexact Hr
    iexact Hp
  hout c := by
    refine (Reg0.hout (Ve0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => X1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration unfolds plain definitions in a metavariable's type
set_option backward.isDefEq.respectTransparency.types false in
/-- Region 1 over the thread state: entered from every unscoped buffer at `X2`, left at `X3`; its
    arrays split out of the unscoped buffers and put back at the exit contents; the generator register into the
    class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Ve1 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (Ve1 m) c)
    unfold Pipeline.ΦA
    iintro ⟨Hp, -, Hr⟩
    isplitl [Hr]; · iexact Hr
    iexact Hp
  hout c := by
    refine (Reg1.hout (Ve1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => X3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration unfolds plain definitions in a metavariable's type
set_option backward.isDefEq.respectTransparency.types false in
/-- Region 2 over the thread state: entered from every unscoped buffer at `X4`, left at `X5`; its
    arrays split out of the unscoped buffers and put back at the exit contents; the generator register into the
    class invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Ve2 m) c).loose
  hwaits := Pipeline.hwaits_of_owed_zero _ _ _ _ L lv 2 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg2.hin (Ve2 m) c)
    unfold Pipeline.ΦA
    iintro ⟨Hp, -, Hr⟩
    isplitl [Hr]; · iexact Hr
    iexact Hp
  hout c := by
    refine (Reg2.hout (Ve2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (fun b => X5 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last boundary's contents, the generator
    register at some state. -/
abbrev Tₙ (c : Dev nD) : sProp 𝕄 := iprop(StableHlo.held (c : Thread nD τ) (Pipeline.ucRefs τ sig) (X6 m c) ∗ ∃ r, prngReg c r)

/-- @main's six items in order. -/
abbrev segs : List (Pipeline.Seg (pcfgs (F := F)) adm (pdats m) () defs₀ 𝒱₀ L lv) :=
  [ .region (reg0 m),
    .host (hseg hostOps1 hostOps1_sub hostOps1_fresh (X1 m)),
    .region (reg1 m),
    .host (hseg hostOps2 hostOps2_sub hostOps2_fresh (X3 m)),
    .region (reg2 m),
    .host (hseg hostOps3 hostOps3_sub hostOps3_fresh (X5 m)) ]

/-- @main IS the run of the segments. -/
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one
set_option backward.isDefEq.respectTransparency.types false in
/-- THE RUN: from any memory with zero counters every weakly fair execution of @main on the TensorCores terminates,
    nothing faulting, and every final state has every unscoped buffer at `X6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (X5 m c)) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := fun s h c => h c)

/-! ## The arguments end as launched -/

theorem X6_main_arg0 (c : Dev nD) : X6 m c main_arg0 = m ((c : Thread nD τ).loc main_arg0) :=
  (congrFun (V6_eq m c) _).symm.trans (Gen.V6_main_arg0 m (outs m) c)
theorem X6_main_arg1 (c : Dev nD) : X6 m c main_arg1 = m ((c : Thread nD τ).loc main_arg1) :=
  (congrFun (V6_eq m c) _).symm.trans (Gen.V6_main_arg1 m (outs m) c)
theorem X6_main_arg2 (c : Dev nD) : X6 m c main_arg2 = m ((c : Thread nD τ).loc main_arg2) :=
  (congrFun (V6_eq m c) _).symm.trans (Gen.V6_main_arg2 m (outs m) c)
theorem X6_main_arg3 (c : Dev nD) : X6 m c main_arg3 = m ((c : Thread nD τ).loc main_arg3) :=
  (congrFun (V6_eq m c) _).symm.trans (Gen.V6_main_arg3 m (outs m) c)
theorem X6_main_arg4 (c : Dev nD) : X6 m c main_arg4 = m ((c : Thread nD τ).loc main_arg4) :=
  (congrFun (V6_eq m c) _).symm.trans (Gen.V6_main_arg4 m (outs m) c)

/-- The run, read at the result and the arguments: the result's buffer ends at `X6`'s entry, every argument as launched. -/
theorem run_result : θ_run defs (onTc (τ := τ) (main (F := F))) ⟨m, fun _ => 0, ρ⟩ (fun r => ∀ c : Dev nD,
      r.2.mem ((c.tc : Thread nD τ).loc main_v54) = X6 m c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v54 (by decide)),
     (h c _ (mem_uc main_arg0 (by decide))).trans (X6_main_arg0 m c),
     (h c _ (mem_uc main_arg1 (by decide))).trans (X6_main_arg1 m c),
     (h c _ (mem_uc main_arg2 (by decide))).trans (X6_main_arg2 m c),
     (h c _ (mem_uc main_arg3 (by decide))).trans (X6_main_arg3 m c),
     (h c _ (mem_uc main_arg4 (by decide))).trans (X6_main_arg4 m c)⟩) (run_all m ρ)

end Cert.KernelIdeal.Run

end
-- ==== Proof.WReg0Base.lean ====
/-
  Region 0 of the program: the tiled product `ws · v` on the grid (8, 2) — at a point (i, j) the body adds the
  product of block (i, j) of `ws` (1024 × 4096) with rows 4096 j … 4096 j + 4095 of `v` into a 1024 × 32 accumulator
  that it keeps between the two points of a row tile, clears at j = 0 and copies into the output block at j = 1.
  This module: the windows' blocks as the region finds them, the two branches of the body decided by the point,
  and the accumulator split off the region's scoped buffers.
-/
import proofs.«148117_j28647431864612_2_alg».proof.Proof.Gen.Kernel.Launch
import proofs.«148117_j28647431864612_2_alg».proof.Proof.Gen.Kernel.Skeleton
import proofs.«148117_j28647431864612_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `ws` is in its staging buffer at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of `v`, fetched once, is in its staging buffer at every point: its block index never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided by the point -/

/-- "This is the first reduction tile" (j = 0): the accumulator is cleared. -/
abbrev cond_0 (i : grid0.Coords) : Prop := (Scalar.cmpi .ne (Scalar.extui (Scalar.cmpi .eq (BitVec.ofNat 32 (i 1).val) 0#32)) 0#32) = 1#1
theorem hcond_0 : ∀ t : Fin cfg0.N, cond_0 (grid0.coords t) ↔ t.val % 2 = 0 :=
  (by decide +kernel : ∀ t : Fin grid0.N, cond_0 (grid0.coords t) ↔ t.val % 2 = 0)

/-- "This is the last reduction tile" (j = 1): the accumulator is copied to the output block. -/
abbrev cond_1 (i : grid0.Coords) : Prop := k0_cond2 i = 1#1
theorem hcond_1 : ∀ t : Fin cfg0.N, cond_1 (grid0.coords t) ↔ t.val % 2 = 1 :=
  (by decide +kernel : ∀ t : Fin grid0.N, cond_1 (grid0.coords t) ↔ t.val % 2 = 1)

theorem liveAt_0 : ∀ t : Fin cfg0.N, cfg0.idle 0 (grid0.coords t) = false := by decide +kernel
theorem liveAt_1 : ∀ t : Fin cfg0.N, cfg0.idle 1 (grid0.coords t) = false := by decide +kernel
/-- At j = 0 nothing is stored into the output block and it is not written back. -/
theorem idleAt_2_A : ∀ t : Fin cfg0.N, cond_0 (grid0.coords t) → ¬cond_1 (grid0.coords t) → cfg0.idle 2 (grid0.coords t) = true := by decide +kernel
theorem noFlush_2_A : ∀ t : Fin cfg0.N, cond_0 (grid0.coords t) → ¬cond_1 (grid0.coords t) → (cfg0.win 2).flush t = false := by decide +kernel
/-- At j = 1 the output block is stored. -/
theorem liveAt_2_C : ∀ t : Fin cfg0.N, ¬cond_0 (grid0.coords t) → cond_1 (grid0.coords t) → cfg0.idle 2 (grid0.coords t) = false := by decide +kernel

/-! ## The memrefs the body is called with -/

abbrev VO_2 : View sig .tc .vmem S1024x32 .f32 := (Memref.whole cc0_stg2_0 : Memref sig .tc .vmem S1024x32 .f32).view
abbrev ms_0 (t : Fin cfg0.N) : Memref sig .tc .vmem S1024x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8192x32 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x32 .f32 := win0_2.stage (cfg0.slots t 2)
abbrev hs_2 (t : Fin cfg0.N) : (ms_2 t).IsWhole := hstage0_2 ((cfg0.slots t 2).cast nbuf0_2)
/-- The accumulator: a whole scoped buffer of the kernel's own. -/
abbrev scM : Memref sig .tc .vmem S1024x32 .f32 := Memref.whole cc0_scratch0
abbrev VS : View sig .tc .vmem S1024x32 .f32 := scM.view

/-! ## The accumulator split off the region's scoped rest -/

/-- Everything of the region's class invariant but the accumulator: what gives the invariant back once the
    accumulator returns at any contents. -/
def Others (c : Dev nD) : sProp 𝕄 :=
  iprop((∃ d, owns (c : Thread nD τ) scM fullShare d) -∗ (Pipeline.ΦA spec0 c : sProp 𝕄))

/-- The class invariant hands out the accumulator at some contents, the rest staying behind. -/
theorem PhiA_split (c : Dev nD) :
    (Pipeline.ΦA spec0 c : sProp 𝕄) ⊢ iprop((∃ d, owns (c : Thread nD τ) scM fullShare d) ∗ Others (F := F) c) := by
  unfold Others Pipeline.ΦA; rw [scopedRest0_eq]; simp only [scM, owns_whole]
  iintro ⟨⟨HS, H1, H2, H3, H4, H5, H6, H7, H8, H9, H10, H11, H12⟩, Hg⟩
  isplitl [HS]; · iexact HS
  iintro HS
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- And takes it back at any contents. -/
theorem PhiA_join (c : Dev nD) :
    iprop((∃ d, owns (c : Thread nD τ) scM fullShare d) ∗ Others (F := F) c) ⊢ (Pipeline.ΦA spec0 c : sProp 𝕄) := by
  unfold Others
  iintro ⟨HS, HW⟩
  iapply HW
  iexact HS

end Cert.Kernel.Reg0

end
-- ==== Proof.WReg0RunA.lean ====
/-
  Region 0, the body at a point with j = 0: the accumulator, entered at any contents, is cleared and receives the
  product of the block of `ws` with the first 4096 rows of `v`; the output block's buffer is not touched. The
  stores the run meets, as pieces, are its witness.
-/
import proofs.«148117_j28647431864612_2_alg».proof.Proof.WReg0Base

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 0: the inputs' buffers at their contents and the output's at
    `xi2` come back untouched, the accumulator comes back with the pieces `LS0` written. -/
noncomputable def kernelRun_A (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    Σ' (L2 : List (View.Piece (Elt F) S1024x32 .f32)), { LS0 : List (View.Piece (Elt F) S1024x32 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨[], ?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reg0

end
-- ==== Proof.WReg0RunC.lean ====
/-
  Region 0, the body at a point with j = 1: the accumulator, entered at what the point before left, receives the
  product of the block of `ws` with the last 4096 rows of `v` and is copied into the output block's buffer. The
  stores the run meets, as pieces, are its witness.
-/
import proofs.«148117_j28647431864612_2_alg».proof.Proof.WReg0RunA

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 1: the inputs' buffers come back untouched, the output's buffer
    with the pieces `L2` written and the accumulator, entered at `xs0`, with the pieces `LS0` written. -/
noncomputable def kernelRun_C (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    Σ' (L2 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg0

end
-- ==== Proof.WReg0.lean ====
/-
  Region 0: what the accumulator and the output block hold after each point, by recursion on the point — at j = 0
  the accumulator is the first half-product over zero, at j = 1 the second half-product added to what j = 0 left, and
  the output block is that sum —, the invariant carrying the accumulator from a point to the next, the pipeline's
  proof data and the body's obligation at every point.
-/
import proofs.«148117_j28647431864612_2_alg».proof.Proof.WReg0RunC

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each branch leaves -/

/-- At j = 0 nothing is stored into the output block: a placeholder nothing consults. -/
def out_A_2 (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VO_2.read (Elt F) (VO_2.writes (Elt F) VO_2.junk (kernelRun_A c i arg2 harg2 arg3 harg3 arg4 harg4 arg5 harg5 hc0 hc1 x0 x1).1)

/-- At j = 0 the stores into the accumulator cover it. -/
theorem scover_A (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) (y : S1024x32.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x32.size (by sl_kernel_rfl) y

/-- What j = 0 leaves in the accumulator. -/
def sout_A (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VS.read (Elt F) (VS.writes (Elt F) VS.junk (kernelRun_A c i arg2 harg2 arg3 harg3 arg4 harg4 arg5 harg5 hc0 hc1 x0 x1).2.1)

/-- At j = 1 the store into the output block covers it. -/
theorem cover_C_2 (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x32.size (by sl_kernel_rfl) y

/-- What j = 1 leaves in the output block's buffer. -/
def out_C_2 (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VO_2.read (Elt F) (VO_2.writes (Elt F) VO_2.junk (kernelRun_C c i arg2 harg2 arg3 harg3 arg4 harg4 arg5 harg5 hc0 hc1 x0 x1 xs0).1)

/-- At j = 1 the store into the accumulator covers it. -/
theorem scover_C (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x32.size (by sl_kernel_rfl) y

/-- What j = 1 leaves in the accumulator. -/
def sout_C (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VS.read (Elt F) (VS.writes (Elt F) VS.junk (kernelRun_C c i arg2 harg2 arg3 harg3 arg4 harg4 arg5 harg5 hc0 hc1 x0 x1 xs0).2.1)

/-! ## What the output block and the accumulator hold after each point -/

/-- After the body at position `n`: (the output block's buffer, the accumulator). At an even position (j = 0) the
    accumulator starts afresh; at an odd one (j = 1) it continues from what the position before left. -/
def outsAt (c : Dev nD) : (n : ℕ) → n < cfg0.N → Vec F S1024x32 .f32 × Vec F S1024x32 .f32
  | 0, hn =>
    have h0 : (⟨0, hn⟩ : Fin cfg0.N).val % 2 = 0 := Nat.zero_mod _
    (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩),
     sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩))
  | n + 1, hn =>
    if h0 : (n + 1) % 2 = 0 then
      (out_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩),
       sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩))
    else
      (out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2,
       sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2)

/-- `outsAt` at a point with j = 0. -/
theorem outsAt_A (c : Dev nD) (t : Fin cfg0.N) (h0 : t.val % 2 = 0) :
    outsAt V c t.val t.isLt = (out_A_2 c (grid0.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t),
      sout_A c (grid0.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t)) := by
  obtain ⟨n, hn⟩ := t
  cases n with
  | zero => exact rfl
  | succ n => exact (dif_pos h0).trans rfl

/-- `outsAt` at a point with j = 1: over what the point before left. -/
theorem outsAt_C (c : Dev nD) (t : Fin cfg0.N) (h0 : ¬t.val % 2 = 0) (h1 : t.val % 2 = 1) :
    outsAt V c t.val t.isLt = (out_C_2 c (grid0.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2,
      sout_C c (grid0.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant that carries the accumulator -/

/-- Before position `n`: at the start the class invariant; afterwards the accumulator at what the point before
    left, beside the rest of the class invariant. -/
def PhiS (c : Dev nD) : (n : ℕ) → n ≤ cfg0.N → sProp 𝕄
  | 0, _ => Pipeline.ΦA spec0 c
  | n + 1, hn => iprop(owns (c : Thread nD τ) scM fullShare ((outsAt V c n hn).2) ∗ Others (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare ((outsAt V c n hn).2) ∗ Others (F := F) c) := rfl

theorem PhiS_pos (c : Dev nD) (n : ℕ) (h : n ≤ cfg0.N) (hz : n ≠ 0) :
    PhiS V c n h = iprop(owns (c : Thread nD τ) scM fullShare ((outsAt V c (n - 1) (by omega)).2) ∗ Others (F := F) c) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the parity of the point says which branch runs; the
    invariant hands the body the accumulator (at anything at the first point, at what the point before left later)
    and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · have h1 : ¬t.val % 2 = 1 := by omega
    rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS0, HR⟩
      iapply ((kernelRun_A c (grid0.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
    · rw [PhiS_castSucc V c t, PhiS_pos V c _ _ hz]
      iintro ⟨⟨HS0, HR⟩, Ho, ⟨%d0, H0⟩, ⟨%d1, H1⟩, ⟨%d2, H2⟩⟩
      iapply ((kernelRun_A c (grid0.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
  · have h1 : t.val % 2 = 1 := by omega
    rw [show (dat V c).leavesExact 2 t = owns (c : Thread nD τ) (ms_2 t) fullShare ((dat V c).after 2 t) from by
      unfold Dat.leavesExact; rw [liveAt_2_C t (fun h => h0 ((hcond_0 t).mp h)) ((hcond_1 t).mpr h1)], after_2]
    rw [outsAt_C V c t h0 h1]
    unfold out_C_2 sout_C; (try dsimp only)
    have hz : t.val ≠ 0 := by omega
    rw [PhiS_castSucc V c t, PhiS_pos V c _ _ hz]
    iintro ⟨⟨HS0, HR⟩, Ho, ⟨%d0, H0⟩, ⟨%d1, H1⟩, ⟨%d2, H2⟩⟩
    iapply ((kernelRun_C c (grid0.coords t) _ _ _ _ _ _ _ _ (fun h => h0 ((hcond_0 t).mp h)) ((hcond_1 t).mpr h1) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR]
    · isplitl [HS0]
      · unfold owns; iexists _; isplitr
        swap; · iexact HS0
        ipureintro; exact View.read_writes_of_cover _ _ _ _ _ (scover_C c _ _ _ _ _ _ _ _ _ _ _ _ _ _)
      iexact HR
    isplitl [Ho]; · iexact Ho
    isplitl [H0]; · iexact H0
    isplitl [H1]; · iexact H1
    unfold owns; iexists _; isplitr
    swap; · iexact H2
    ipureintro; exact View.read_writes_of_cover _ _ _ _ _ (cover_C_2 c _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht]
  iintro ⟨HS0, HR⟩
  iapply (PhiA_join (F := F) c)
  isplitl [HS0]
  · iexists _; iexact HS0
  iexact HR

theorem hout (c : Dev nD) : (dat V c).Φ (Fin.last cfg0.N) ⊢ Pipeline.ΦA spec0 c :=
  Phi_out V c _ (by rw [Fin.val_last]; have : cfg0.N = 16 := N_0; omega)

end Cert.Kernel.Reg0

end
-- ==== Proof.WReg1Base.lean ====
/-
  Region 1 of the program: the tiled product `ws · v` on the grid (8, 2) — at a point (i, j) the body adds the
  product of block (i, j) of `ws` (1024 × 4096) with rows 4096 j … 4096 j + 4095 of `v` into a 1024 × 32 accumulator
  that it keeps between the two points of a row tile, clears at j = 0 and copies into the output block at j = 1.
  This module: the windows' blocks as the region finds them, the two branches of the body decided by the point,
  and the accumulator split off the region's scoped buffers.
-/
import proofs.«148117_j28647431864612_2_alg».proof.Proof.Gen.Kernel.Launch
import proofs.«148117_j28647431864612_2_alg».proof.Proof.Gen.Kernel.Skeleton
import proofs.«148117_j28647431864612_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `ws` is in its staging buffer at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of `v`, fetched once, is in its staging buffer at every point: its block index never moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided by the point -/

/-- "This is the first reduction tile" (j = 0): the accumulator is cleared. -/
abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 2 = 0 :=
  (by decide +kernel : ∀ t : Fin grid1.N, cond_0 (grid1.coords t) ↔ t.val % 2 = 0)

/-- "This is the last reduction tile" (j = 1): the accumulator is copied to the output block. -/
abbrev cond_1 (i : grid1.Coords) : Prop := k1_cond2 i = 1#1
theorem hcond_1 : ∀ t : Fin cfg1.N, cond_1 (grid1.coords t) ↔ t.val % 2 = 1 :=
  (by decide +kernel : ∀ t : Fin grid1.N, cond_1 (grid1.coords t) ↔ t.val % 2 = 1)

theorem liveAt_0 : ∀ t : Fin cfg1.N, cfg1.idle 0 (grid1.coords t) = false := by decide +kernel
theorem liveAt_1 : ∀ t : Fin cfg1.N, cfg1.idle 1 (grid1.coords t) = false := by decide +kernel
/-- At j = 0 nothing is stored into the output block and it is not written back. -/
theorem idleAt_2_A : ∀ t : Fin cfg1.N, cond_0 (grid1.coords t) → ¬cond_1 (grid1.coords t) → cfg1.idle 2 (grid1.coords t) = true := by decide +kernel
theorem noFlush_2_A : ∀ t : Fin cfg1.N, cond_0 (grid1.coords t) → ¬cond_1 (grid1.coords t) → (cfg1.win 2).flush t = false := by decide +kernel
/-- At j = 1 the output block is stored. -/
theorem liveAt_2_C : ∀ t : Fin cfg1.N, ¬cond_0 (grid1.coords t) → cond_1 (grid1.coords t) → cfg1.idle 2 (grid1.coords t) = false := by decide +kernel

/-! ## The memrefs the body is called with -/

abbrev VO_2 : View sig .tc .vmem S1024x32 .f32 := (Memref.whole cc1_stg2_0 : Memref sig .tc .vmem S1024x32 .f32).view
abbrev ms_0 (t : Fin cfg1.N) : Memref sig .tc .vmem S1024x4096 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8192x32 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x32 .f32 := win1_2.stage (cfg1.slots t 2)
abbrev hs_2 (t : Fin cfg1.N) : (ms_2 t).IsWhole := hstage1_2 ((cfg1.slots t 2).cast nbuf1_2)
/-- The accumulator: a whole scoped buffer of the kernel's own. -/
abbrev scM : Memref sig .tc .vmem S1024x32 .f32 := Memref.whole cc1_scratch0
abbrev VS : View sig .tc .vmem S1024x32 .f32 := scM.view

/-! ## The accumulator split off the region's scoped rest -/

/-- Everything of the region's class invariant but the accumulator: what gives the invariant back once the
    accumulator returns at any contents. -/
def Others (c : Dev nD) : sProp 𝕄 :=
  iprop((∃ d, owns (c : Thread nD τ) scM fullShare d) -∗ (Pipeline.ΦA spec1 c : sProp 𝕄))

/-- The class invariant hands out the accumulator at some contents, the rest staying behind. -/
theorem PhiA_split (c : Dev nD) :
    (Pipeline.ΦA spec1 c : sProp 𝕄) ⊢ iprop((∃ d, owns (c : Thread nD τ) scM fullShare d) ∗ Others (F := F) c) := by
  unfold Others Pipeline.ΦA; rw [scopedRest1_eq]; simp only [scM, owns_whole]
  iintro ⟨⟨H0, H1, H2, H3, H4, H5, HS, H7, H8, H9, H10, H11, H12⟩, Hg⟩
  isplitl [HS]; · iexact HS
  iintro HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H7]; · iexact H7
  isplitl [H8]; · iexact H8
  isplitl [H9]; · iexact H9
  isplitl [H10]; · iexact H10
  isplitl [H11]; · iexact H11
  iexact H12

/-- And takes it back at any contents. -/
theorem PhiA_join (c : Dev nD) :
    iprop((∃ d, owns (c : Thread nD τ) scM fullShare d) ∗ Others (F := F) c) ⊢ (Pipeline.ΦA spec1 c : sProp 𝕄) := by
  unfold Others
  iintro ⟨HS, HW⟩
  iapply HW
  iexact HS

end Cert.Kernel.Reg1

end
-- ==== Proof.WReg1RunA.lean ====
/-
  Region 1, the body at a point with j = 0: the accumulator, entered at any contents, is cleared and receives the
  product of the block of `ws` with the first 4096 rows of `v`; the output block's buffer is not touched. The
  stores the run meets, as pieces, are its witness.
-/
import proofs.«148117_j28647431864612_2_alg».proof.Proof.WReg1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 0: the inputs' buffers at their contents and the output's at
    `xi2` come back untouched, the accumulator comes back with the pieces `LS0` written. -/
noncomputable def kernelRun_A (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    Σ' (L2 : List (View.Piece (Elt F) S1024x32 .f32)), { LS0 : List (View.Piece (Elt F) S1024x32 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reg1

end
-- ==== Proof.WReg1RunC.lean ====
/-
  Region 1, the body at a point with j = 1: the accumulator, entered at what the point before left, receives the
  product of the block of `ws` with the last 4096 rows of `v` and is copied into the output block's buffer. The
  stores the run meets, as pieces, are its witness.
-/
import proofs.«148117_j28647431864612_2_alg».proof.Proof.WReg1RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 1: the inputs' buffers come back untouched, the output's buffer
    with the pieces `L2` written and the accumulator, entered at `xs0`, with the pieces `LS0` written. -/
noncomputable def kernelRun_C (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    Σ' (L2 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg1

end
-- ==== Proof.WReg1.lean ====
/-
  Region 1: what the accumulator and the output block hold after each point, by recursion on the point — at j = 0
  the accumulator is the first half-product over zero, at j = 1 the second half-product added to what j = 0 left, and
  the output block is that sum —, the invariant carrying the accumulator from a point to the next, the pipeline's
  proof data and the body's obligation at every point.
-/
import proofs.«148117_j28647431864612_2_alg».proof.Proof.WReg1RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each branch leaves -/

/-- At j = 0 nothing is stored into the output block: a placeholder nothing consults. -/
def out_A_2 (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VO_2.read (Elt F) (VO_2.writes (Elt F) VO_2.junk (kernelRun_A c i arg2 harg2 arg3 harg3 arg4 harg4 arg5 harg5 hc0 hc1 x0 x1).1)

/-- At j = 0 the stores into the accumulator cover it. -/
theorem scover_A (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) (y : S1024x32.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x32.size (by sl_kernel_rfl) y

/-- What j = 0 leaves in the accumulator. -/
def sout_A (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VS.read (Elt F) (VS.writes (Elt F) VS.junk (kernelRun_A c i arg2 harg2 arg3 harg3 arg4 harg4 arg5 harg5 hc0 hc1 x0 x1).2.1)

/-- At j = 1 the store into the output block covers it. -/
theorem cover_C_2 (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x32.size (by sl_kernel_rfl) y

/-- What j = 1 leaves in the output block's buffer. -/
def out_C_2 (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VO_2.read (Elt F) (VO_2.writes (Elt F) VO_2.junk (kernelRun_C c i arg2 harg2 arg3 harg3 arg4 harg4 arg5 harg5 hc0 hc1 x0 x1 xs0).1)

/-- At j = 1 the store into the accumulator covers it. -/
theorem scover_C (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x32.size (by sl_kernel_rfl) y

/-- What j = 1 leaves in the accumulator. -/
def sout_C (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VS.read (Elt F) (VS.writes (Elt F) VS.junk (kernelRun_C c i arg2 harg2 arg3 harg3 arg4 harg4 arg5 harg5 hc0 hc1 x0 x1 xs0).2.1)

/-! ## What the output block and the accumulator hold after each point -/

/-- After the body at position `n`: (the output block's buffer, the accumulator). At an even position (j = 0) the
    accumulator starts afresh; at an odd one (j = 1) it continues from what the position before left. -/
def outsAt (c : Dev nD) : (n : ℕ) → n < cfg1.N → Vec F S1024x32 .f32 × Vec F S1024x32 .f32
  | 0, hn =>
    have h0 : (⟨0, hn⟩ : Fin cfg1.N).val % 2 = 0 := Nat.zero_mod _
    (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩),
     sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩))
  | n + 1, hn =>
    if h0 : (n + 1) % 2 = 0 then
      (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩),
       sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩))
    else
      (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2,
       sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2)

/-- `outsAt` at a point with j = 0. -/
theorem outsAt_A (c : Dev nD) (t : Fin cfg1.N) (h0 : t.val % 2 = 0) :
    outsAt V c t.val t.isLt = (out_A_2 c (grid1.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t),
      sout_A c (grid1.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t)) := by
  obtain ⟨n, hn⟩ := t
  cases n with
  | zero => exact rfl
  | succ n => exact (dif_pos h0).trans rfl

/-- `outsAt` at a point with j = 1: over what the point before left. -/
theorem outsAt_C (c : Dev nD) (t : Fin cfg1.N) (h0 : ¬t.val % 2 = 0) (h1 : t.val % 2 = 1) :
    outsAt V c t.val t.isLt = (out_C_2 c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2,
      sout_C c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant that carries the accumulator -/

/-- Before position `n`: at the start the class invariant; afterwards the accumulator at what the point before
    left, beside the rest of the class invariant. -/
def PhiS (c : Dev nD) : (n : ℕ) → n ≤ cfg1.N → sProp 𝕄
  | 0, _ => Pipeline.ΦA spec1 c
  | n + 1, hn => iprop(owns (c : Thread nD τ) scM fullShare ((outsAt V c n hn).2) ∗ Others (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt V c n hn).2) ∗ Others (F := F) c) := rfl

theorem PhiS_pos (c : Dev nD) (n : ℕ) (h : n ≤ cfg1.N) (hz : n ≠ 0) :
    PhiS V c n h = iprop(owns (c : Thread nD τ) scM fullShare ((outsAt V c (n - 1) (by omega)).2) ∗ Others (F := F) c) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the parity of the point says which branch runs; the
    invariant hands the body the accumulator (at anything at the first point, at what the point before left later)
    and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · have h1 : ¬t.val % 2 = 1 := by omega
    rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS0, HR⟩
      iapply ((kernelRun_A c (grid1.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
    · rw [PhiS_castSucc V c t, PhiS_pos V c _ _ hz]
      iintro ⟨⟨HS0, HR⟩, Ho, ⟨%d0, H0⟩, ⟨%d1, H1⟩, ⟨%d2, H2⟩⟩
      iapply ((kernelRun_A c (grid1.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
  · have h1 : t.val % 2 = 1 := by omega
    rw [show (dat V c).leavesExact 2 t = owns (c : Thread nD τ) (ms_2 t) fullShare ((dat V c).after 2 t) from by
      unfold Dat.leavesExact; rw [liveAt_2_C t (fun h => h0 ((hcond_0 t).mp h)) ((hcond_1 t).mpr h1)], after_2]
    rw [outsAt_C V c t h0 h1]
    unfold out_C_2 sout_C; (try dsimp only)
    have hz : t.val ≠ 0 := by omega
    rw [PhiS_castSucc V c t, PhiS_pos V c _ _ hz]
    iintro ⟨⟨HS0, HR⟩, Ho, ⟨%d0, H0⟩, ⟨%d1, H1⟩, ⟨%d2, H2⟩⟩
    iapply ((kernelRun_C c (grid1.coords t) _ _ _ _ _ _ _ _ (fun h => h0 ((hcond_0 t).mp h)) ((hcond_1 t).mpr h1) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR]
    · isplitl [HS0]
      · unfold owns; iexists _; isplitr
        swap; · iexact HS0
        ipureintro; exact View.read_writes_of_cover _ _ _ _ _ (scover_C c _ _ _ _ _ _ _ _ _ _ _ _ _ _)
      iexact HR
    isplitl [Ho]; · iexact Ho
    isplitl [H0]; · iexact H0
    isplitl [H1]; · iexact H1
    unfold owns; iexists _; isplitr
    swap; · iexact H2
    ipureintro; exact View.read_writes_of_cover _ _ _ _ _ (cover_C_2 c _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HS0, HR⟩
  iapply (PhiA_join (F := F) c)
  isplitl [HS0]
  · iexists _; iexact HS0
  iexact HR

theorem hout (c : Dev nD) : (dat V c).Φ (Fin.last cfg1.N) ⊢ Pipeline.ΦA spec1 c :=
  Phi_out V c _ (by rw [Fin.val_last]; have : cfg1.N = 16 := N_1; omega)

end Cert.Kernel.Reg1

end
-- ==== Proof.WReg2Base.lean ====
/-
  Region 2 of the program: the tiled product `ws · v` on the grid (8, 2) — at a point (i, j) the body adds the
  product of block (i, j) of `ws` (1024 × 4096) with rows 4096 j … 4096 j + 4095 of `v` into a 1024 × 32 accumulator
  that it keeps between the two points of a row tile, clears at j = 0 and copies into the output block at j = 1.
  This module: the windows' blocks as the region finds them, the two branches of the body decided by the point,
  and the accumulator split off the region's scoped buffers.
-/
import proofs.«148117_j28647431864612_2_alg».proof.Proof.Gen.Kernel.Launch
import proofs.«148117_j28647431864612_2_alg».proof.Proof.Gen.Kernel.Skeleton
import proofs.«148117_j28647431864612_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `ws` is in its staging buffer at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole of `v`, fetched once, is in its staging buffer at every point: its block index never moves. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided by the point -/

/-- "This is the first reduction tile" (j = 0): the accumulator is cleared. -/
abbrev cond_0 (i : grid2.Coords) : Prop := (Scalar.cmpi .ne (Scalar.extui (Scalar.cmpi .eq (BitVec.ofNat 32 (i 1).val) 0#32)) 0#32) = 1#1
theorem hcond_0 : ∀ t : Fin cfg2.N, cond_0 (grid2.coords t) ↔ t.val % 2 = 0 :=
  (by decide +kernel : ∀ t : Fin grid2.N, cond_0 (grid2.coords t) ↔ t.val % 2 = 0)

/-- "This is the last reduction tile" (j = 1): the accumulator is copied to the output block. -/
abbrev cond_1 (i : grid2.Coords) : Prop := k2_cond2 i = 1#1
theorem hcond_1 : ∀ t : Fin cfg2.N, cond_1 (grid2.coords t) ↔ t.val % 2 = 1 :=
  (by decide +kernel : ∀ t : Fin grid2.N, cond_1 (grid2.coords t) ↔ t.val % 2 = 1)

theorem liveAt_0 : ∀ t : Fin cfg2.N, cfg2.idle 0 (grid2.coords t) = false := by decide +kernel
theorem liveAt_1 : ∀ t : Fin cfg2.N, cfg2.idle 1 (grid2.coords t) = false := by decide +kernel
/-- At j = 0 nothing is stored into the output block and it is not written back. -/
theorem idleAt_2_A : ∀ t : Fin cfg2.N, cond_0 (grid2.coords t) → ¬cond_1 (grid2.coords t) → cfg2.idle 2 (grid2.coords t) = true := by decide +kernel
theorem noFlush_2_A : ∀ t : Fin cfg2.N, cond_0 (grid2.coords t) → ¬cond_1 (grid2.coords t) → (cfg2.win 2).flush t = false := by decide +kernel
/-- At j = 1 the output block is stored. -/
theorem liveAt_2_C : ∀ t : Fin cfg2.N, ¬cond_0 (grid2.coords t) → cond_1 (grid2.coords t) → cfg2.idle 2 (grid2.coords t) = false := by decide +kernel

/-! ## The memrefs the body is called with -/

abbrev VO_2 : View sig .tc .vmem S1024x32 .f32 := (Memref.whole cc2_stg2_0 : Memref sig .tc .vmem S1024x32 .f32).view
abbrev ms_0 (t : Fin cfg2.N) : Memref sig .tc .vmem S1024x4096 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S8192x32 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x32 .f32 := win2_2.stage (cfg2.slots t 2)
abbrev hs_2 (t : Fin cfg2.N) : (ms_2 t).IsWhole := hstage2_2 ((cfg2.slots t 2).cast nbuf2_2)
/-- The accumulator: a whole scoped buffer of the kernel's own. -/
abbrev scM : Memref sig .tc .vmem S1024x32 .f32 := Memref.whole cc2_scratch0
abbrev VS : View sig .tc .vmem S1024x32 .f32 := scM.view

/-! ## The accumulator split off the region's scoped rest -/

/-- Everything of the region's class invariant but the accumulator: what gives the invariant back once the
    accumulator returns at any contents. -/
def Others (c : Dev nD) : sProp 𝕄 :=
  iprop((∃ d, owns (c : Thread nD τ) scM fullShare d) -∗ (Pipeline.ΦA spec2 c : sProp 𝕄))

/-- The class invariant hands out the accumulator at some contents, the rest staying behind. -/
theorem PhiA_split (c : Dev nD) :
    (Pipeline.ΦA spec2 c : sProp 𝕄) ⊢ iprop((∃ d, owns (c : Thread nD τ) scM fullShare d) ∗ Others (F := F) c) := by
  unfold Others Pipeline.ΦA; rw [scopedRest2_eq]; simp only [scM, owns_whole]
  iintro ⟨⟨H0, H1, H2, H3, H4, H5, H6, H7, H8, H9, H10, H11, HS⟩, Hg⟩
  isplitl [HS]; · iexact HS
  iintro HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

/-- And takes it back at any contents. -/
theorem PhiA_join (c : Dev nD) :
    iprop((∃ d, owns (c : Thread nD τ) scM fullShare d) ∗ Others (F := F) c) ⊢ (Pipeline.ΦA spec2 c : sProp 𝕄) := by
  unfold Others
  iintro ⟨HS, HW⟩
  iapply HW
  iexact HS

end Cert.Kernel.Reg2

end
-- ==== Proof.WReg2RunA.lean ====
/-
  Region 2, the body at a point with j = 0: the accumulator, entered at any contents, is cleared and receives the
  product of the block of `ws` with the first 4096 rows of `v`; the output block's buffer is not touched. The
  stores the run meets, as pieces, are its witness.
-/
import proofs.«148117_j28647431864612_2_alg».proof.Proof.WReg2Base

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 0: the inputs' buffers at their contents and the output's at
    `xi2` come back untouched, the accumulator comes back with the pieces `LS0` written. -/
noncomputable def kernelRun_A (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    Σ' (L2 : List (View.Piece (Elt F) S1024x32 .f32)), { LS0 : List (View.Piece (Elt F) S1024x32 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__mm_kernel i arg2 harg2 arg3 harg3 arg4 harg4 arg5 harg5) K } := by
  refine ⟨[], ?_, fun xi2 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reg2

end
-- ==== Proof.WReg2RunC.lean ====
/-
  Region 2, the body at a point with j = 1: the accumulator, entered at what the point before left, receives the
  product of the block of `ws` with the last 4096 rows of `v` and is copied into the output block's buffer. The
  stores the run meets, as pieces, are its witness.
-/
import proofs.«148117_j28647431864612_2_alg».proof.Proof.WReg2RunA

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body on whole memrefs at a point with j = 1: the inputs' buffers come back untouched, the output's buffer
    with the pieces `L2` written and the accumulator, entered at `xs0`, with the pieces `LS0` written. -/
noncomputable def kernelRun_C (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    Σ' (L2 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__mm_kernel i arg2 harg2 arg3 harg3 arg4 harg4 arg5 harg5) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg2

end
-- ==== Proof.WReg2.lean ====
/-
  Region 2: what the accumulator and the output block hold after each point, by recursion on the point — at j = 0
  the accumulator is the first half-product over zero, at j = 1 the second half-product added to what j = 0 left, and
  the output block is that sum —, the invariant carrying the accumulator from a point to the next, the pipeline's
  proof data and the body's obligation at every point.
-/
import proofs.«148117_j28647431864612_2_alg».proof.Proof.WReg2RunC

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each branch leaves -/

/-- At j = 0 nothing is stored into the output block: a placeholder nothing consults. -/
def out_A_2 (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VO_2.read (Elt F) (VO_2.writes (Elt F) VO_2.junk (kernelRun_A c i arg2 harg2 arg3 harg3 arg4 harg4 arg5 harg5 hc0 hc1 x0 x1).1)

/-- At j = 0 the stores into the accumulator cover it. -/
theorem scover_A (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) (y : S1024x32.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1024x32.size (by sl_kernel_rfl) y

/-- What j = 0 leaves in the accumulator. -/
def sout_A (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) : Vec F S1024x32 .f32 :=
  VS.read (Elt F) (VS.writes (Elt F) VS.junk (kernelRun_A c i arg2 harg2 arg3 harg3 arg4 harg4 arg5 harg5 hc0 hc1 x0 x1).2.1)

/-- At j = 1 the store into the output block covers it. -/
theorem cover_C_2 (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1024x32.size (by sl_kernel_rfl) y

/-- What j = 1 leaves in the output block's buffer. -/
def out_C_2 (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VO_2.read (Elt F) (VO_2.writes (Elt F) VO_2.junk (kernelRun_C c i arg2 harg2 arg3 harg3 arg4 harg4 arg5 harg5 hc0 hc1 x0 x1 xs0).1)

/-- At j = 1 the store into the accumulator covers it. -/
theorem scover_C (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) (y : S1024x32.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S1024x32.size (by sl_kernel_rfl) y

/-- What j = 1 leaves in the accumulator. -/
def sout_C (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) : Vec F S1024x32 .f32 :=
  VS.read (Elt F) (VS.writes (Elt F) VS.junk (kernelRun_C c i arg2 harg2 arg3 harg3 arg4 harg4 arg5 harg5 hc0 hc1 x0 x1 xs0).2.1)

/-! ## What the output block and the accumulator hold after each point -/

/-- After the body at position `n`: (the output block's buffer, the accumulator). At an even position (j = 0) the
    accumulator starts afresh; at an odd one (j = 1) it continues from what the position before left. -/
def outsAt (c : Dev nD) : (n : ℕ) → n < cfg2.N → Vec F S1024x32 .f32 × Vec F S1024x32 .f32
  | 0, hn =>
    have h0 : (⟨0, hn⟩ : Fin cfg2.N).val % 2 = 0 := Nat.zero_mod _
    (out_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩),
     sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr h0) (fun h => absurd (show 0 % 2 = 1 from (hcond_1 ⟨0, hn⟩).mp h) (by omega)) (iblk V c 0 ⟨0, hn⟩) (iblk V c 1 ⟨0, hn⟩))
  | n + 1, hn =>
    if h0 : (n + 1) % 2 = 0 then
      (out_A_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩),
       sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => absurd (show (n + 1) % 2 = 1 from (hcond_1 ⟨n + 1, hn⟩).mp h) (by omega)) (iblk V c 0 ⟨n + 1, hn⟩) (iblk V c 1 ⟨n + 1, hn⟩))
    else
      (out_C_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2,
       sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr (show (n + 1) % 2 = 1 by omega)) (iblk V c 0 ⟨n + 1, hn⟩) (iblk V c 1 ⟨n + 1, hn⟩) (outsAt c n (Nat.lt_of_succ_lt hn)).2)

/-- `outsAt` at a point with j = 0. -/
theorem outsAt_A (c : Dev nD) (t : Fin cfg2.N) (h0 : t.val % 2 = 0) :
    outsAt V c t.val t.isLt = (out_A_2 c (grid2.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t),
      sout_A c (grid2.coords t) (ms_0 t) (hs_0 t) (ms_1 t) (hs_1 t) (ms_2 t) (hs_2 t) scM (Memref.isWhole_whole _) ((hcond_0 t).mpr h0) (fun h => (by have := (hcond_1 t).mp h; omega)) (iblk V c 0 t) (iblk V c 1 t)) := by
  obtain ⟨n, hn⟩ := t
  cases n with
  | zero => exact rfl
  | succ n => exact (dif_pos h0).trans rfl

/-- `outsAt` at a point with j = 1: over what the point before left. -/
theorem outsAt_C (c : Dev nD) (t : Fin cfg2.N) (h0 : ¬t.val % 2 = 0) (h1 : t.val % 2 = 1) :
    outsAt V c t.val t.isLt = (out_C_2 c (grid2.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2,
      sout_C c (grid2.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant that carries the accumulator -/

/-- Before position `n`: at the start the class invariant; afterwards the accumulator at what the point before
    left, beside the rest of the class invariant. -/
def PhiS (c : Dev nD) : (n : ℕ) → n ≤ cfg2.N → sProp 𝕄
  | 0, _ => Pipeline.ΦA spec2 c
  | n + 1, hn => iprop(owns (c : Thread nD τ) scM fullShare ((outsAt V c n hn).2) ∗ Others (F := F) c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare ((outsAt V c n hn).2) ∗ Others (F := F) c) := rfl

theorem PhiS_pos (c : Dev nD) (n : ℕ) (h : n ≤ cfg2.N) (hz : n ≠ 0) :
    PhiS V c n h = iprop(owns (c : Thread nD τ) scM fullShare ((outsAt V c (n - 1) (by omega)).2) ∗ Others (F := F) c) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the parity of the point says which branch runs; the
    invariant hands the body the accumulator (at anything at the first point, at what the point before left later)
    and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · have h1 : ¬t.val % 2 = 1 := by omega
    rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS0, HR⟩
      iapply ((kernelRun_A c (grid2.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
    · rw [PhiS_castSucc V c t, PhiS_pos V c _ _ hz]
      iintro ⟨⟨HS0, HR⟩, Ho, ⟨%d0, H0⟩, ⟨%d1, H1⟩, ⟨%d2, H2⟩⟩
      iapply ((kernelRun_A c (grid2.coords t) _ _ _ _ _ _ _ _ ((hcond_0 t).mpr h0) (fun h => h1 ((hcond_1 t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover_A c _ _ _ _ _ _ _ _ _ _ _ _ _)
        iexact HR
      isplitl [Ho]; · iexact Ho
      isplitl [H0]; · iexact H0
      isplitl [H1]; · iexact H1
      iexists _; iexact H2
  · have h1 : t.val % 2 = 1 := by omega
    rw [show (dat V c).leavesExact 2 t = owns (c : Thread nD τ) (ms_2 t) fullShare ((dat V c).after 2 t) from by
      unfold Dat.leavesExact; rw [liveAt_2_C t (fun h => h0 ((hcond_0 t).mp h)) ((hcond_1 t).mpr h1)], after_2]
    rw [outsAt_C V c t h0 h1]
    unfold out_C_2 sout_C; (try dsimp only)
    have hz : t.val ≠ 0 := by omega
    rw [PhiS_castSucc V c t, PhiS_pos V c _ _ hz]
    iintro ⟨⟨HS0, HR⟩, Ho, ⟨%d0, H0⟩, ⟨%d1, H1⟩, ⟨%d2, H2⟩⟩
    iapply ((kernelRun_C c (grid2.coords t) _ _ _ _ _ _ _ _ (fun h => h0 ((hcond_0 t).mp h)) ((hcond_1 t).mpr h1) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR]
    · isplitl [HS0]
      · unfold owns; iexists _; isplitr
        swap; · iexact HS0
        ipureintro; exact View.read_writes_of_cover _ _ _ _ _ (scover_C c _ _ _ _ _ _ _ _ _ _ _ _ _ _)
      iexact HR
    isplitl [Ho]; · iexact Ho
    isplitl [H0]; · iexact H0
    isplitl [H1]; · iexact H1
    unfold owns; iexists _; isplitr
    swap; · iexact H2
    ipureintro; exact View.read_writes_of_cover _ _ _ _ _ (cover_C_2 c _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht]
  iintro ⟨HS0, HR⟩
  iapply (PhiA_join (F := F) c)
  isplitl [HS0]
  · iexists _; iexact HS0
  iexact HR

theorem hout (c : Dev nD) : (dat V c).Φ (Fin.last cfg2.N) ⊢ Pipeline.ΦA spec2 c :=
  Phi_out V c _ (by rw [Fin.val_last]; have : cfg2.N = 16 := N_2; omega)

end Cert.Kernel.Reg2

end
-- ==== Proof.WRun.lean ====
/-
  The whole run of the program: its three regions, each the tiled product `ws · v`, and the host operations between
  and after them, chained from the launch to the return. Between two items every unscoped buffer is held at a named
  valuation: the launch contents, then each region's output written (`X1`, `X3`, `X5`), then each stretch of host
  operations applied (`X2`, `X4`, `X6`). The run ends with every unscoped buffer at `X6`.
-/
import proofs.«148117_j28647431864612_2_alg».proof.Proof.WReg0
import proofs.«148117_j28647431864612_2_alg».proof.Proof.WReg1
import proofs.«148117_j28647431864612_2_alg».proof.Proof.WReg2
import proofs.«148117_j28647431864612_2_alg».proof.Proof.Gen.Kernel.Regions
import Idealize.ShloMosaic.Lib.Pipeline.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev X0 (c : Dev nD) : Valuation τ sig (Elt F) := fun b => m (c, b)
/-- The same read at the TensorCore's references: what region 0 is entered with. -/
abbrev Ve0 (c : Dev nD) (b : Ref sig .tc) : Buf (Elt F) ((c : Thread nD τ).loc b) := X0 m c b
/-- What region 0 leaves in its output array. -/
def o1 (c : Dev nD) : Buf (Elt F) ((c : Thread nD τ).loc main_v0) := (Reg0.dat (Ve0 m) c).arrAt 2 cfg0.N
/-- After region 0. -/
def X1 (c : Dev nD) : Valuation τ sig (Elt F) := Function.update (X0 m c) main_v0 (o1 m c)
/-- After the first stretch of host operations. -/
def X2 (c : Dev nD) : Valuation τ sig (Elt F) := StableHlo.after hostOps1 (X1 m c)
abbrev Ve1 (c : Dev nD) (b : Ref sig .tc) : Buf (Elt F) ((c : Thread nD τ).loc b) := X2 m c b
/-- What region 1 leaves in its output array. -/
def o3 (c : Dev nD) : Buf (Elt F) ((c : Thread nD τ).loc main_v8) := (Reg1.dat (Ve1 m) c).arrAt 2 cfg1.N
/-- After region 1. -/
def X3 (c : Dev nD) : Valuation τ sig (Elt F) := Function.update (X2 m c) main_v8 (o3 m c)
/-- After the second stretch of host operations. -/
def X4 (c : Dev nD) : Valuation τ sig (Elt F) := StableHlo.after hostOps2 (X3 m c)
abbrev Ve2 (c : Dev nD) (b : Ref sig .tc) : Buf (Elt F) ((c : Thread nD τ).loc b) := X4 m c b
/-- What region 2 leaves in its output array. -/
def o5 (c : Dev nD) : Buf (Elt F) ((c : Thread nD τ).loc main_v16) := (Reg2.dat (Ve2 m) c).arrAt 2 cfg2.N
/-- After region 2. -/
def X5 (c : Dev nD) : Valuation τ sig (Elt F) := Function.update (X4 m c) main_v16 (o5 m c)
/-- After the last stretch of host operations: the contents at the return. -/
def X6 (c : Dev nD) : Valuation τ sig (Elt F) := StableHlo.after hostOps3 (X5 m c)

/-- The regions' outputs as the family the conditional valuations `Gen.V1 … Gen.V6` are written over. -/
def outs : Gen.Outs (F := F) := fun J r c =>
  match J with
  | 1 => X1 m c r
  | 3 => X3 m c r
  | 5 => X5 m c r
  | _ => X0 m c r

theorem outs1 (c : Dev nD) : outs m 1 main_v0 c = o1 m c := by
  show X1 m c main_v0 = _; unfold X1; exact Function.update_self ..
theorem outs3 (c : Dev nD) : outs m 3 main_v8 c = o3 m c := by
  show X3 m c main_v8 = _; unfold X3; exact Function.update_self ..
theorem outs5 (c : Dev nD) : outs m 5 main_v16 c = o5 m c := by
  show X5 m c main_v16 = _; unfold X5; exact Function.update_self ..

theorem V1_eq (c : Dev nD) : Gen.V1 m (outs m) c = X1 m c := by
  show Function.update (X0 m c) main_v0 (outs m 1 main_v0 c) = _; rw [outs1]; rfl
theorem V2_eq (c : Dev nD) : Gen.V2 m (outs m) c = X2 m c := by
  show StableHlo.after hostOps1 (Gen.V1 m (outs m) c) = _; rw [V1_eq]; rfl
theorem V3_eq (c : Dev nD) : Gen.V3 m (outs m) c = X3 m c := by
  show Function.update (Gen.V2 m (outs m) c) main_v8 (outs m 3 main_v8 c) = _; rw [outs3, V2_eq]; rfl
theorem V4_eq (c : Dev nD) : Gen.V4 m (outs m) c = X4 m c := by
  show StableHlo.after hostOps2 (Gen.V3 m (outs m) c) = _; rw [V3_eq]; rfl
theorem V5_eq (c : Dev nD) : Gen.V5 m (outs m) c = X5 m c := by
  show Function.update (Gen.V4 m (outs m) c) main_v16 (outs m 5 main_v16 c) = _; rw [outs5, V4_eq]; rfl
theorem V6_eq (c : Dev nD) : Gen.V6 m (outs m) c = X6 m c := by
  show StableHlo.after hostOps3 (Gen.V5 m (outs m) c) = _; rw [V5_eq]; rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (Ve0 m) c
  | ⟨1, _⟩ => fun c => Reg1.dat (Ve1 m) c
  | ⟨2, _⟩ => fun c => Reg2.dat (Ve2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    `owes`, at nothing. -/
abbrev R (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = X1 m c (Pipeline.arrRef spec0 w) := by
  match w with
  | ⟨0, _⟩ => exact ((Reg0.dat (Ve0 m) c).arrAt_in 0 rfl _).trans ((Reg0.A_eq (Ve0 m) c 0).trans (by unfold X1; exact (Function.update_of_ne (StableHlo.devRef_ne_of_ne (by decide)) _ _).symm))
  | ⟨1, _⟩ => exact ((Reg0.dat (Ve0 m) c).arrAt_in 1 rfl _).trans ((Reg0.A_eq (Ve0 m) c 1).trans (by unfold X1; exact (Function.update_of_ne (StableHlo.devRef_ne_of_ne (by decide)) _ _).symm))
  | ⟨2, _⟩ => exact (by unfold X1; show _ = Function.update (X0 m c) (Proc.devRef .tc main_v0) (o1 m c) (Proc.devRef .tc main_v0); rw [Function.update_self]; rfl)
theorem hrest0 (c : Dev nD) : ∀ b : Ref sig .tc, b ∉ Finset.univ.image (Pipeline.arrRef spec0) → X1 m c b = Ve0 m c b := fun b hb => by
  unfold X1; exact Function.update_of_ne (StableHlo.devRef_ne_of_ne fun e => hb (Finset.mem_image.mpr ⟨2, Finset.mem_univ _, e.symm⟩)) _ _

theorem hF1 (c : Dev nD) (w : Fin cfg1.W) : (pdats m 1 c).arrAt w cfg1.N = X3 m c (Pipeline.arrRef spec1 w) := by
  match w with
  | ⟨0, _⟩ => exact ((Reg1.dat (Ve1 m) c).arrAt_in 0 rfl _).trans ((Reg1.A_eq (Ve1 m) c 0).trans (by unfold X3; exact (Function.update_of_ne (StableHlo.devRef_ne_of_ne (by decide)) _ _).symm))
  | ⟨1, _⟩ => exact ((Reg1.dat (Ve1 m) c).arrAt_in 1 rfl _).trans ((Reg1.A_eq (Ve1 m) c 1).trans (by unfold X3; exact (Function.update_of_ne (StableHlo.devRef_ne_of_ne (by decide)) _ _).symm))
  | ⟨2, _⟩ => exact (by unfold X3; show _ = Function.update (X2 m c) (Proc.devRef .tc main_v8) (o3 m c) (Proc.devRef .tc main_v8); rw [Function.update_self]; rfl)
theorem hrest1 (c : Dev nD) : ∀ b : Ref sig .tc, b ∉ Finset.univ.image (Pipeline.arrRef spec1) → X3 m c b = Ve1 m c b := fun b hb => by
  unfold X3; exact Function.update_of_ne (StableHlo.devRef_ne_of_ne fun e => hb (Finset.mem_image.mpr ⟨2, Finset.mem_univ _, e.symm⟩)) _ _

theorem hF2 (c : Dev nD) (w : Fin cfg2.W) : (pdats m 2 c).arrAt w cfg2.N = X5 m c (Pipeline.arrRef spec2 w) := by
  match w with
  | ⟨0, _⟩ => exact ((Reg2.dat (Ve2 m) c).arrAt_in 0 rfl _).trans ((Reg2.A_eq (Ve2 m) c 0).trans (by unfold X5; exact (Function.update_of_ne (StableHlo.devRef_ne_of_ne (by decide)) _ _).symm))
  | ⟨1, _⟩ => exact ((Reg2.dat (Ve2 m) c).arrAt_in 1 rfl _).trans ((Reg2.A_eq (Ve2 m) c 1).trans (by unfold X5; exact (Function.update_of_ne (StableHlo.devRef_ne_of_ne (by decide)) _ _).symm))
  | ⟨2, _⟩ => exact (by unfold X5; show _ = Function.update (X4 m c) (Proc.devRef .tc main_v16) (o5 m c) (Proc.devRef .tc main_v16); rw [Function.update_self]; rfl)
theorem hrest2 (c : Dev nD) : ∀ b : Ref sig .tc, b ∉ Finset.univ.image (Pipeline.arrRef spec2) → X5 m c b = Ve2 m c b := fun b hb => by
  unfold X5; exact Function.update_of_ne (StableHlo.devRef_ne_of_ne fun e => hb (Finset.mem_image.mpr ⟨2, Finset.mem_univ _, e.symm⟩)) _ _

/-! ## The regions as segments -/

-- unification against the pinned configuration unfolds plain definitions in a metavariable's type
set_option backward.isDefEq.respectTransparency.types false in
/-- Region 0 over the thread state: entered from every unscoped buffer at `X0`, left at `X1`; its
    arrays split out of the unscoped buffers and put back at the exit contents; the generator register into the
    class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Ve0 m) c).loose
  hwaits := Pipeline.hwaits_of_owed_zero _ _ _ _ L lv 0 fun _ _ => rfl
  pre c := iprop(StableHlo.held (c : Thread nD τ) (Pipeline.ucRefs τ sig) (X0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (Ve0 m) c)
    unfold Pipeline.ΦA
    iintro ⟨Hp, -, Hr⟩
    isplitl [Hr]; · iexact Hr
    iexact Hp
  hout c := by
    refine (Reg0.hout (Ve0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => X1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration unfolds plain definitions in a metavariable's type
set_option backward.isDefEq.respectTransparency.types false in
/-- Region 1 over the thread state: entered from every unscoped buffer at `X2`, left at `X3`; its
    arrays split out of the unscoped buffers and put back at the exit contents; the generator register into the
    class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Ve1 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (Ve1 m) c)
    unfold Pipeline.ΦA
    iintro ⟨Hp, -, Hr⟩
    isplitl [Hr]; · iexact Hr
    iexact Hp
  hout c := by
    refine (Reg1.hout (Ve1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => X3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration unfolds plain definitions in a metavariable's type
set_option backward.isDefEq.respectTransparency.types false in
/-- Region 2 over the thread state: entered from every unscoped buffer at `X4`, left at `X5`; its
    arrays split out of the unscoped buffers and put back at the exit contents; the generator register into the
    class invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Ve2 m) c).loose
  hwaits := Pipeline.hwaits_of_owed_zero _ _ _ _ L lv 2 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg2.hin (Ve2 m) c)
    unfold Pipeline.ΦA
    iintro ⟨Hp, -, Hr⟩
    isplitl [Hr]; · iexact Hr
    iexact Hp
  hout c := by
    refine (Reg2.hout (Ve2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (fun b => X5 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last boundary's contents, the generator
    register at some state. -/
abbrev Tₙ (c : Dev nD) : sProp 𝕄 := iprop(StableHlo.held (c : Thread nD τ) (Pipeline.ucRefs τ sig) (X6 m c) ∗ ∃ r, prngReg c r)

/-- @main's six items in order. -/
abbrev segs : List (Pipeline.Seg (pcfgs (F := F)) adm (pdats m) () defs₀ 𝒱₀ L lv) :=
  [ .region (reg0 m),
    .host (hseg hostOps1 hostOps1_sub hostOps1_fresh (X1 m)),
    .region (reg1 m),
    .host (hseg hostOps2 hostOps2_sub hostOps2_fresh (X3 m)),
    .region (reg2 m),
    .host (hseg hostOps3 hostOps3_sub hostOps3_fresh (X5 m)) ]

/-- @main IS the run of the segments. -/
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one
set_option backward.isDefEq.respectTransparency.types false in
/-- THE RUN: from any memory with zero counters every weakly fair execution of @main on the TensorCores terminates,
    nothing faulting, and every final state has every unscoped buffer at `X6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (X5 m c)) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := fun s h c => h c)

/-! ## The arguments end as launched -/

theorem X6_main_arg0 (c : Dev nD) : X6 m c main_arg0 = m ((c : Thread nD τ).loc main_arg0) :=
  (congrFun (V6_eq m c) _).symm.trans (Gen.V6_main_arg0 m (outs m) c)
theorem X6_main_arg1 (c : Dev nD) : X6 m c main_arg1 = m ((c : Thread nD τ).loc main_arg1) :=
  (congrFun (V6_eq m c) _).symm.trans (Gen.V6_main_arg1 m (outs m) c)
theorem X6_main_arg2 (c : Dev nD) : X6 m c main_arg2 = m ((c : Thread nD τ).loc main_arg2) :=
  (congrFun (V6_eq m c) _).symm.trans (Gen.V6_main_arg2 m (outs m) c)
theorem X6_main_arg3 (c : Dev nD) : X6 m c main_arg3 = m ((c : Thread nD τ).loc main_arg3) :=
  (congrFun (V6_eq m c) _).symm.trans (Gen.V6_main_arg3 m (outs m) c)
theorem X6_main_arg4 (c : Dev nD) : X6 m c main_arg4 = m ((c : Thread nD τ).loc main_arg4) :=
  (congrFun (V6_eq m c) _).symm.trans (Gen.V6_main_arg4 m (outs m) c)

/-- The run, read at the result and the arguments: the result's buffer ends at `X6`'s entry, every argument as launched. -/
theorem run_result : θ_run defs (onTc (τ := τ) (main (F := F))) ⟨m, fun _ => 0, ρ⟩ (fun r => ∀ c : Dev nD,
      r.2.mem ((c.tc : Thread nD τ).loc main_v54) = X6 m c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v54 (by decide)),
     (h c _ (mem_uc main_arg0 (by decide))).trans (X6_main_arg0 m c),
     (h c _ (mem_uc main_arg1 (by decide))).trans (X6_main_arg1 m c),
     (h c _ (mem_uc main_arg2 (by decide))).trans (X6_main_arg2 m c),
     (h c _ (mem_uc main_arg3 (by decide))).trans (X6_main_arg3 m c),
     (h c _ (mem_uc main_arg4 (by decide))).trans (X6_main_arg4 m c)⟩) (run_all m ρ)

end Cert.Kernel.Run

end
-- ==== Proof.Frames.lean ====
/-
  The three frames: each program runs to the end, nothing faulting, with its arguments unchanged — the two kernel
  programs by the run through their three regions and the host operations around them, the reference by its run as
  a list of host operations. The ideal pass rewrote nothing, so nothing is owed for the idealization.
-/
import proofs.«148117_j28647431864612_2_alg».proof.Defs
import proofs.«148117_j28647431864612_2_alg».proof.Proof.Run
import proofs.«148117_j28647431864612_2_alg».proof.Proof.WRun
import proofs.«148117_j28647431864612_2_alg».proof.Proof.Gen.ReferenceIdeal.Run
import proofs.«148117_j28647431864612_2_alg».proof.Proof.Gen.Pre_finite_inputs

noncomputable section

namespace Cert.Proof.Frames

open Idealize.ShloMosaic Idealize.ShloMosaic.TcCoe Idealize.SL.Sem

theorem frame_p : Cert.frame_Kernel := fun m ρ _ =>
  (θ_run Cert.Kernel.defs _ _).mono (fun _ h c => (h c).2) (Cert.Kernel.Run.run_result (F := Bits) m ρ)

theorem frame_pi : Cert.frame_KernelIdeal := fun m ρ _ =>
  (θ_run Cert.KernelIdeal.defs _ _).mono (fun _ h c => (h c).2) (Cert.KernelIdeal.Run.run_result (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Frames

end
-- ==== Proof.Spec.lean ====
/-
  The mathematics of the claim, over real matrices (Mathlib's `Matrix`): the Chebyshev recurrence of the static
  operator `ws` and of the dynamic operator `wd = x · wp · xᵀ`, the latter applied in two arrangements —
  `x · (wp · (xᵀ · v))` (three small products) and `((x · wp) · xᵀ) · v` (through the N × N matrix) — which
  associativity of the matrix product identifies.
-/
import Mathlib.Data.Matrix.Basic
import Mathlib.Data.Matrix.Mul
import Mathlib.Data.Real.Basic

noncomputable section

namespace Cert.Spec

open Matrix

/-- Real `a × b` matrices. -/
abbrev M (a b : ℕ) : Type := Matrix (Fin a) (Fin b) ℝ

variable (x : M 8192 32) (ws : M 8192 8192) (wp : M 32 32) (ts td : Fin 4 → M 32 32)

/-- One Chebyshev step: `2 · (A v) - u`. -/
def step (ap : M 8192 32 → M 8192 32) (v u : M 8192 32) : M 8192 32 := (2 : ℝ) • ap v - u

/-- The order-3 Chebyshev expansion of an operator `ap` applied to `x`, its terms weighted by `t 0 … t 3`:
    `((x t₀ + p₁ t₁) + p₂ t₂) + p₃ t₃` with `p₁ = ap x`, `p₂ = 2 ap p₁ - x`, `p₃ = 2 ap p₂ - p₁`. -/
def cheb (ap : M 8192 32 → M 8192 32) (t : Fin 4 → M 32 32) : M 8192 32 :=
  x * t 0 + ap x * t 1 + step ap (ap x) x * t 2 + step ap (step ap (ap x) x) (ap x) * t 3

/-- The static operator: `v ↦ ws · v`. -/
def apS (v : M 8192 32) : M 8192 32 := ws * v
/-- The dynamic operator through three small products: `v ↦ x · (wp · (xᵀ · v))`. -/
def apK (v : M 8192 32) : M 8192 32 := x * (wp * (xᵀ * v))
/-- The dynamic operator through the `N × N` matrix: `v ↦ ((x · wp) · xᵀ) · v`. -/
def apR (v : M 8192 32) : M 8192 32 := ((x * wp) * xᵀ) * v

/-- The two arrangements of the dynamic operator agree: associativity of the matrix product. -/
theorem apK_eq_apR : apK x wp = apR x wp := by
  funext v
  simp only [apK, apR, Matrix.mul_assoc]

/-- The result with the dynamic operator applied through small products. -/
def outK : M 8192 32 := cheb x (apS ws) ts + cheb x (apK x wp) (fun k => if k = 0 then ts 0 else td k)
/-- The result with the dynamic operator applied through the `N × N` matrix. -/
def outR : M 8192 32 := cheb x (apS ws) ts + cheb x (apR x wp) (fun k => if k = 0 then ts 0 else td k)

theorem outK_eq_outR : outK x ws wp ts td = outR x ws wp ts td := by
  unfold outK outR; rw [apK_eq_apR]

end Cert.Spec

end
-- ==== Proof.LibRealLift.lean ====
/-
  Arrays of extended reals whose entries are all real numbers, written as the entrywise coercion of a real
  matrix, and the exact float operations on them: on such arrays a sum of products is the coercion of the
  matrix product's entry, and sums, differences and products entry by entry are the coercions of the real ones.
-/
import Mathlib.Data.Matrix.Basic
import Mathlib.Data.Matrix.Mul
import Mathlib.Data.EReal.Basic
import Mathlib.Data.EReal.Operations
import Idealize.ShloMosaic.PureOps.Ideal
import Idealize.ShloMosaic.PureOps.Ideal.Laws

noncomputable section

namespace Cert.Lift

open Idealize.ShloMosaic Matrix

/-- The two-axis array `[a, b]` whose entry `(p, q)` is the real number `A p q`. -/
def arr2 {a b : ℕ} (A : Matrix (Fin a) (Fin b) ℝ) : (⟨2, ![a, b]⟩ : Shape).Idx → EReal :=
  fun i => ((A (i 0) (i 1) : ℝ) : EReal)

/-- The three-axis array `[n, a, b]` whose entry `(k, p, q)` is the real number `T k p q`. -/
def arr3 {n a b : ℕ} (T : Fin n → Matrix (Fin a) (Fin b) ℝ) : (⟨3, ![n, a, b]⟩ : Shape).Idx → EReal :=
  fun i => ((T (i 0) (i 1) (i 2) : ℝ) : EReal)

theorem arr2_apply {a b : ℕ} (A : Matrix (Fin a) (Fin b) ℝ) (i : (⟨2, ![a, b]⟩ : Shape).Idx) :
    arr2 A i = ((A (i 0) (i 1) : ℝ) : EReal) := rfl

theorem arr3_apply {n a b : ℕ} (T : Fin n → Matrix (Fin a) (Fin b) ℝ) (i : (⟨3, ![n, a, b]⟩ : Shape).Idx) :
    arr3 T i = ((T (i 0) (i 1) (i 2) : ℝ) : EReal) := rfl

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of real entries is the matrix product's entry. -/
theorem dot_real {a n b : ℕ} (A : Matrix (Fin a) (Fin n) ℝ) (B : Matrix (Fin n) (Fin b) ℝ) (p : Fin a) (q : Fin b) :
    ∑ k : Fin n, ((A p k : ℝ) : EReal) * ((B k q : ℝ) : EReal) = (((A * B) p q : ℝ) : EReal) := by
  rw [Matrix.mul_apply, coe_sum]
  exact Finset.sum_congr rfl fun k _ => (EReal.coe_mul _ _).symm

/-- The f32 pattern of `2.0` is the real number two. -/
theorem ofBits_two : Ideal.ofBits .f32 0x40000000#32 = ((2 : ℝ) : EReal) := by
  simp [Ideal.ofBits, Ideal.ieee, -EReal.coe_mul]; norm_num

/-- The entrywise sum of two arrays of reals is the array of the matrix sum. -/
theorem arr2_add {a b : ℕ} (A B : Matrix (Fin a) (Fin b) ℝ) (i : (⟨2, ![a, b]⟩ : Shape).Idx) :
    arr2 A i + arr2 B i = arr2 (A + B) i :=
  (EReal.coe_add (A (i 0) (i 1)) (B (i 0) (i 1))).symm

/-- The entrywise difference of two arrays of reals is the array of the matrix difference. -/
theorem arr2_sub {a b : ℕ} (A B : Matrix (Fin a) (Fin b) ℝ) (i : (⟨2, ![a, b]⟩ : Shape).Idx) :
    arr2 A i - arr2 B i = arr2 (A - B) i :=
  (EReal.coe_sub (A (i 0) (i 1)) (B (i 0) (i 1))).symm

/-- Twice an array of reals, entry by entry, is the array of the matrix scaled by two. -/
theorem arr2_two_mul {a b : ℕ} (A : Matrix (Fin a) (Fin b) ℝ) (i : (⟨2, ![a, b]⟩ : Shape).Idx) :
    ((2 : ℝ) : EReal) * arr2 A i = arr2 ((2 : ℝ) • A) i :=
  (EReal.coe_mul (2 : ℝ) (A (i 0) (i 1))).symm

/-- A sum over 8192 terms is the sum over its first 4096 terms plus the sum over its last 4096 terms. -/
theorem sum_two_blocks (f : Fin 8192 → EReal) :
    (∑ k : Fin 4096, f ⟨k.val, by omega⟩) + (∑ k : Fin 4096, f ⟨4096 + k.val, by omega⟩) = ∑ k : Fin 8192, f k :=
  (Fin.sum_univ_add (M := EReal) (a := 4096) (b := 4096) f).symm

end Cert.Lift

end
-- ==== Proof.KerHostOps.lean ====
/-
  The operations of the program outside its three matrix-product regions — contraction of two arrays, entrywise sum,
  difference and doubling, transposition, and taking one matrix out of a stack of four — applied to arrays whose
  entries are real numbers: each yields the array of the corresponding real matrix operation.
-/
import proofs.«148117_j28647431864612_2_alg».proof.Proof.Gen.KernelIdeal.Regions
import proofs.«148117_j28647431864612_2_alg».proof.Proof.Spec
import proofs.«148117_j28647431864612_2_alg».proof.Proof.LibRealLift
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KerHost

open Cert.Spec Cert.Lift Cert.KernelIdeal Idealize.ShloMosaic Idealize.ShloMosaic.TcCoe Idealize.SL.Sem
open Matrix

/-! ## Arrays of reals under the exact operations

Each lemma says that one operation of the program, applied to arrays that are entrywise coercions of real
matrices, yields the entrywise coercion of the corresponding real matrix operation. -/

/-- An array of reals read at an index whose coordinates are known. -/
theorem arr2_at {a b : ℕ} (A : Matrix (Fin a) (Fin b) ℝ) (j : (⟨2, ![a, b]⟩ : Shape).Idx) (p : Fin a) (q : Fin b)
    (hp : (j 0).val = p.val) (hq : (j 1).val = q.val) : arr2 A j = ((A p q : ℝ) : EReal) := by
  have e0 : (j 0 : Fin a) = p := Fin.ext hp
  have e1 : (j 1 : Fin b) = q := Fin.ext hq
  show ((A (j 0) (j 1) : ℝ) : EReal) = _
  rw [e0, e1]

/-- The same for three axes. -/
theorem arr3_at {n a b : ℕ} (T : Fin n → Matrix (Fin a) (Fin b) ℝ) (j : (⟨3, ![n, a, b]⟩ : Shape).Idx) (k : Fin n) (p : Fin a) (q : Fin b)
    (hk : (j 0).val = k.val) (hp : (j 1).val = p.val) (hq : (j 2).val = q.val) : arr3 T j = ((T k p q : ℝ) : EReal) := by
  have e0 : (j 0 : Fin n) = k := Fin.ext hk
  have e1 : (j 1 : Fin a) = p := Fin.ext hp
  have e2 : (j 2 : Fin b) = q := Fin.ext hq
  show ((T (j 0) (j 1) (j 2) : ℝ) : EReal) = _
  rw [e0, e1, e2]

/-- A plain matrix contraction (rows × inner, inner × columns) of two arrays of reals is the array of the matrix
    product: the sum over the contraction index is re-indexed to the inner extent and is the product's entry. -/
theorem dot_lift {a n b : ℕ} (D : DotDims ⟨2, ![a, n]⟩ ⟨2, ![n, b]⟩ ⟨2, ![a, b]⟩) (hr : D.contr.rank = 1)
    (hs : D.contr.size ⟨0, by omega⟩ = n)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (A : Matrix (Fin a) (Fin n) ℝ) (B : Matrix (Fin n) (Fin b) ℝ) :
    Host.dotGeneral (F := Ideal) (φ₁ := .f32) (φ₂ := .f32) D none (arr2 A) (arr2 B) = arr2 (A * B) := by
  funext i
  simp only [Host.dotGeneral]
  rw [Ideal.dotGeneral_apply, ← Equiv.sum_comp (ValueIdx.contrEquiv1 D n hr hs).symm]
  refine Eq.trans (Finset.sum_congr rfl fun k _ => ?_) (dot_real A B (i 0) (i 1))
  have hk := ValueIdx.contrEquiv1_symm_val D n hr hs k
  rw [arr2_at A _ (i 0) k (hl0 _ _) ((hl1 _ _).trans hk), arr2_at B _ k (i 1) ((hr0 _ _).trans hk) (hr1 _ _)]

theorem add_lift {a b : ℕ} (A B : Matrix (Fin a) (Fin b) ℝ) :
    addf (F := Ideal) (φ := .f32) (arr2 A) (arr2 B) = arr2 (A + B) := by
  funext i
  exact (EReal.coe_add (A (i 0) (i 1)) (B (i 0) (i 1))).symm

theorem sub_lift {a b : ℕ} (A B : Matrix (Fin a) (Fin b) ℝ) :
    subf (F := Ideal) (φ := .f32) (arr2 A) (arr2 B) = arr2 (A - B) := by
  funext i
  exact (EReal.coe_sub (A (i 0) (i 1)) (B (i 0) (i 1))).symm

/-- The product, entry by entry, with the array that holds the constant two everywhere. -/
theorem two_mul_lift {a b : ℕ} (h : (⟨0, ![]⟩ : Shape).BroadcastsInDim ⟨2, ![a, b]⟩ (![] : Fin 0 → Fin 2)) (A : Matrix (Fin a) (Fin b) ℝ) :
    mulf (F := Ideal) (φ := .f32) (broadcastInDim ⟨2, ![a, b]⟩ ![] h (constant (F := Ideal) ⟨0, ![]⟩ .f32 0x40000000#32)) (arr2 A)
      = arr2 ((2 : ℝ) • A) := by
  funext i
  show Ideal.ofBits .f32 0x40000000#32 * ((A (i 0) (i 1) : ℝ) : EReal) = ((((2 : ℝ) • A) (i 0) (i 1) : ℝ) : EReal)
  rw [ofBits_two]
  exact (EReal.coe_mul (2 : ℝ) (A (i 0) (i 1))).symm

/-- The transpose of an array of reals is the array of the transposed matrix. -/
theorem transpose_lift {a b : ℕ} (h : (⟨2, ![a, b]⟩ : Shape).Transposes [1, 0] ⟨2, ![b, a]⟩) (A : Matrix (Fin a) (Fin b) ℝ) :
    transpose ⟨2, ![b, a]⟩ [1, 0] (arr2 A) h = arr2 Aᵀ := by
  funext i
  rw [transpose_apply [1, 0] (arr2 A) h i (ValueIdx.ix2 (n0 := a) (n1 := b) (i 1) (i 0))
    (fun c => match c with | ⟨0, _⟩ => rfl | ⟨1, _⟩ => rfl)]
  rfl

/-- Slice `o` of a stack of four 32 × 32 matrices, with its unit leading axis dropped, is the array of matrix `o`. -/
theorem slice_lift (T : Fin 4 → M 32 32) (o : ℕ) (ho : o < 4) (hS : S4x32x32.Slices ![o, 0, 0] S1x32x32)
    (hC : S1x32x32.ShapeCasts S32x32) :
    shapeCast S32x32 (extractStridedSlice S1x32x32 ![o, 0, 0] (arr3 T) hS) hC = arr2 (T ⟨o, ho⟩) := by
  funext i
  have h0 : (i 0).val < 32 := (i 0).isLt
  have h1 : (i 1).val < 32 := (i 1).isLt
  rw [shapeCast_apply _ hC i (ValueIdx.ix3 (n0 := 1) (n1 := 32) (n2 := 32) 0 (i 0) (i 1))
    (by rewrite [Shape.rowMajor_val_three, Shape.rowMajor_val_two]
        show (0 * 32 + (i 0).val) * 32 + (i 1).val = (i 0).val * 32 + (i 1).val
        omega)]
  rw [extractStridedSlice_apply ![o, 0, 0] (arr3 T) hS _ (ValueIdx.ix3 (n0 := 4) (n1 := 32) (n2 := 32) ⟨o, ho⟩ (i 0) (i 1))
    (fun c => match c with
      | ⟨0, _⟩ => by show o = o + 0; omega
      | ⟨1, _⟩ => by show (i 0).val = 0 + (i 0).val; omega
      | ⟨2, _⟩ => by show (i 1).val = 0 + (i 1).val; omega)]
  rfl

/-! ## The program's three contractions -/

theorem dotA (A : M 8192 32) (B : M 32 32) :
    Host.dotGeneral (F := Ideal) (φ₁ := .f32) (φ₂ := .f32) dot_S8192x32_S32x32_S8192x32_1_0_0_1_n_n none (arr2 A) (arr2 B) = arr2 (A * B) :=
  dot_lift dot_S8192x32_S32x32_S8192x32_1_0_0_1_n_n rfl rfl
    (fun i q => by
      unfold DotDims.lhsIdx
      rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
      rfl)
    (fun i q => dot_S8192x32_S32x32_S8192x32_1_0_0_1_n_n.lhsIdx_val_of_single rfl i q)
    (fun i q => dot_S8192x32_S32x32_S8192x32_1_0_0_1_n_n.rhsIdx_val_of_single rfl i q)
    (fun i q => by
      unfold DotDims.rhsIdx
      rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
      rfl)
    A B

theorem dotB (A : M 32 8192) (B : M 8192 32) :
    Host.dotGeneral (F := Ideal) (φ₁ := .f32) (φ₂ := .f32) dot_S32x8192_S8192x32_S32x32_1_0_0_1_n_n none (arr2 A) (arr2 B) = arr2 (A * B) :=
  dot_lift dot_S32x8192_S8192x32_S32x32_1_0_0_1_n_n rfl rfl
    (fun i q => by
      unfold DotDims.lhsIdx
      rw [dif_neg (show ¬(0 : Fin S32x8192.rank) ∈ dot_S32x8192_S8192x32_S32x32_1_0_0_1_n_n.lhsBatch by decide), dif_pos (show (0 : Fin S32x8192.rank) ∈ dot_S32x8192_S8192x32_S32x32_1_0_0_1_n_n.lhsNonContracting by decide)]
      rfl)
    (fun i q => dot_S32x8192_S8192x32_S32x32_1_0_0_1_n_n.lhsIdx_val_of_single rfl i q)
    (fun i q => dot_S32x8192_S8192x32_S32x32_1_0_0_1_n_n.rhsIdx_val_of_single rfl i q)
    (fun i q => by
      unfold DotDims.rhsIdx
      rw [dif_neg (show ¬(1 : Fin S8192x32.rank) ∈ dot_S32x8192_S8192x32_S32x32_1_0_0_1_n_n.rhsBatch by decide), dif_pos (show (1 : Fin S8192x32.rank) ∈ dot_S32x8192_S8192x32_S32x32_1_0_0_1_n_n.rhsNonContracting by decide)]
      rfl)
    A B

theorem dotC (A : M 32 32) (B : M 32 32) :
    Host.dotGeneral (F := Ideal) (φ₁ := .f32) (φ₂ := .f32) dot_S32x32_S32x32_S32x32_1_0_0_1_n_n none (arr2 A) (arr2 B) = arr2 (A * B) :=
  dot_lift dot_S32x32_S32x32_S32x32_1_0_0_1_n_n rfl rfl
    (fun i q => by
      unfold DotDims.lhsIdx
      rw [dif_neg (show ¬(0 : Fin S32x32.rank) ∈ dot_S32x32_S32x32_S32x32_1_0_0_1_n_n.lhsBatch by decide), dif_pos (show (0 : Fin S32x32.rank) ∈ dot_S32x32_S32x32_S32x32_1_0_0_1_n_n.lhsNonContracting by decide)]
      rfl)
    (fun i q => dot_S32x32_S32x32_S32x32_1_0_0_1_n_n.lhsIdx_val_of_single rfl i q)
    (fun i q => dot_S32x32_S32x32_S32x32_1_0_0_1_n_n.rhsIdx_val_of_single rfl i q)
    (fun i q => by
      unfold DotDims.rhsIdx
      rw [dif_neg (show ¬(1 : Fin S32x32.rank) ∈ dot_S32x32_S32x32_S32x32_1_0_0_1_n_n.rhsBatch by decide), dif_pos (show (1 : Fin S32x32.rank) ∈ dot_S32x32_S32x32_S32x32_1_0_0_1_n_n.rhsNonContracting by decide)]
      rfl)
    A B

end Cert.KernelIdeal.KerHost

end
-- ==== Proof.KerHost.lean ====
/-
  What the operations between and after the program's three matrix-product regions leave in its buffers, when the
  inputs are arrays of real numbers and each region has left the array of `ws · v` for the `v` it was given: every
  buffer then holds the array of a real matrix. The operations are followed in program order, a few at a time: the
  Chebyshev iterates `p₁ = ws · x`, `p₂ = 2 · (ws · p₁) − x`, `p₃ = 2 · (ws · p₂) − p₁` of the static operator and
  their weighted sum; then the iterates `q₁, q₂, q₃` of the dynamic operator `v ↦ x · (wp · (xᵀ · v))` and theirs;
  the last buffer is the sum of the two, `Cert.Spec.outK`.
-/
import proofs.«148117_j28647431864612_2_alg».proof.Proof.KerHostOps

noncomputable section

namespace Cert.KernelIdeal.KerHost

open Cert.Spec Cert.Lift Cert.KernelIdeal Idealize.ShloMosaic Idealize.ShloMosaic.TcCoe Idealize.SL.Sem
open Matrix

variable (m : (ℓ : Loc nD τ sig) → Buf (Elt Ideal) ℓ) (outs : Gen.Outs (F := Ideal)) (c : Dev nD)
  (x : M 8192 32) (ws : M 8192 8192) (wp : M 32 32) (ts td : Fin 4 → M 32 32)

/-! ## The buffers after the first stretch of operations -/

theorem V1_v0 (ho1 : outs 1 main_v0 c = arr2 (apS ws x)) : Gen.V1 m outs c main_v0 = arr2 (apS ws x) := by
  show Function.update (Gen.V0 m c) (Proc.devRef .tc main_v0) (outs 1 main_v0 c) (Proc.devRef .tc main_v0) = _
  rw [Function.update_self]; exact ho1
theorem V1_arg0 (h0 : m ((c : Thread nD τ).loc main_arg0) = arr2 x) : Gen.V1 m outs c main_arg0 = arr2 x :=
  (Gen.V1_of m outs c main_arg0 (by decide)).trans h0
theorem V1_arg3 (h3 : m ((c : Thread nD τ).loc main_arg3) = arr3 ts) : Gen.V1 m outs c main_arg3 = arr3 ts :=
  (Gen.V1_of m outs c main_arg3 (by decide)).trans h3

/-- After the first stretch the first region's result is still in place. -/
theorem V2_main_v0 (ho1 : outs 1 main_v0 c = arr2 (apS ws x)) : Gen.V2 m outs c main_v0 = arr2 (apS ws x) :=
  (Gen.V2_of m outs c main_v0 (by decide)).trans (V1_v0 m outs c x ws ho1)
theorem V2_arg0 (h0 : m ((c : Thread nD τ).loc main_arg0) = arr2 x) : Gen.V2 m outs c main_arg0 = arr2 x :=
  (Gen.V2_of m outs c main_arg0 (by decide)).trans (V1_arg0 m outs c x h0)
theorem V2_arg3 (h3 : m ((c : Thread nD τ).loc main_arg3) = arr3 ts) : Gen.V2 m outs c main_arg3 = arr3 ts :=
  (Gen.V2_of m outs c main_arg3 (by decide)).trans (V1_arg3 m outs c ts h3)

/-- `x · t₀`. -/
theorem V2_v3 (h0 : m ((c : Thread nD τ).loc main_arg0) = arr2 x) (h3 : m ((c : Thread nD τ).loc main_arg3) = arr3 ts) : Gen.V2 m outs c main_v3 = arr2 (x * ts 0) := by
  show StableHlo.after Gen.hostOps1 (Gen.V1 m outs c) (Proc.devRef .tc main_v3) = _
  after_results
  show (Host.dotGeneral (F := Ideal) (φ₁ := .f32) (φ₂ := .f32) dot_S8192x32_S32x32_S8192x32_1_0_0_1_n_n none (Gen.V1 m outs c main_arg0) (shapeCast S32x32 (extractStridedSlice S1x32x32 ![0, 0, 0] (Gen.V1 m outs c main_arg3) _) _)) = _
  rw [V1_arg0 m outs c x h0, V1_arg3 m outs c ts h3]
  simp only [slice_lift ts 0 (by decide), dotA, dotB, dotC, sub_lift, add_lift]
  rfl

/-- `x · t₀ + p₁ · t₁`. -/
theorem V2_v7 (h0 : m ((c : Thread nD τ).loc main_arg0) = arr2 x) (h3 : m ((c : Thread nD τ).loc main_arg3) = arr3 ts) (ho1 : outs 1 main_v0 c = arr2 (apS ws x)) : Gen.V2 m outs c main_v7 = arr2 (x * ts 0 + (apS ws x) * ts 1) := by
  show StableHlo.after Gen.hostOps1 (Gen.V1 m outs c) (Proc.devRef .tc main_v7) = _
  after_results
  show (addf (F := Ideal) (s := S8192x32) (φ := .f32) (Host.dotGeneral (F := Ideal) (φ₁ := .f32) (φ₂ := .f32) dot_S8192x32_S32x32_S8192x32_1_0_0_1_n_n none (Gen.V1 m outs c main_arg0) (shapeCast S32x32 (extractStridedSlice S1x32x32 ![0, 0, 0] (Gen.V1 m outs c main_arg3) _) _)) (Host.dotGeneral (F := Ideal) (φ₁ := .f32) (φ₂ := .f32) dot_S8192x32_S32x32_S8192x32_1_0_0_1_n_n none (Gen.V1 m outs c main_v0) (shapeCast S32x32 (extractStridedSlice S1x32x32 ![1, 0, 0] (Gen.V1 m outs c main_arg3) _) _))) = _
  rw [V1_arg0 m outs c x h0, V1_arg3 m outs c ts h3, V1_v0 m outs c x ws ho1]
  simp only [slice_lift ts 0 (by decide), slice_lift ts 1 (by decide), dotA, dotB, dotC, sub_lift, add_lift]
  rfl

/-! ## The buffers after the second stretch -/

theorem V3_v8 (ho3 : outs 3 main_v8 c = arr2 (apS ws (apS ws x))) : Gen.V3 m outs c main_v8 = arr2 (apS ws (apS ws x)) := by
  show Function.update (Gen.V2 m outs c) (Proc.devRef .tc main_v8) (outs 3 main_v8 c) (Proc.devRef .tc main_v8) = _
  rw [Function.update_self]; exact ho3
theorem V3_arg0 (h0 : m ((c : Thread nD τ).loc main_arg0) = arr2 x) : Gen.V3 m outs c main_arg0 = arr2 x :=
  (Gen.V3_of m outs c main_arg0 (by decide)).trans (V2_arg0 m outs c x h0)
theorem V3_arg3 (h3 : m ((c : Thread nD τ).loc main_arg3) = arr3 ts) : Gen.V3 m outs c main_arg3 = arr3 ts :=
  (Gen.V3_of m outs c main_arg3 (by decide)).trans (V2_arg3 m outs c ts h3)
theorem V3_v7 (h0 : m ((c : Thread nD τ).loc main_arg0) = arr2 x) (h3 : m ((c : Thread nD τ).loc main_arg3) = arr3 ts) (ho1 : outs 1 main_v0 c = arr2 (apS ws x)) : Gen.V3 m outs c main_v7 = arr2 (x * ts 0 + (apS ws x) * ts 1) :=
  (Gen.V3_of m outs c main_v7 (by decide)).trans (V2_v7 m outs c x ws ts h0 h3 ho1)

/-- The second Chebyshev iterate of the static operator: `2 · (ws · p₁) − x`. -/
theorem V4_main_v11 (h0 : m ((c : Thread nD τ).loc main_arg0) = arr2 x) (ho1 : outs 1 main_v0 c = arr2 (apS ws x)) (ho3 : outs 3 main_v8 c = arr2 (apS ws (apS ws x))) : Gen.V4 m outs c main_v11 = arr2 (step (apS ws) (apS ws x) x) := by
  show StableHlo.after Gen.hostOps2 (Gen.V3 m outs c) (Proc.devRef .tc main_v11) = _
  after_results
  show (subf (F := Ideal) (s := S8192x32) (φ := .f32) (mulf (F := Ideal) (s := S8192x32) (φ := .f32) (broadcastInDim S8192x32 ![] _ (constant (F := Ideal) S_ .f32 0x40000000#32)) (Gen.V3 m outs c main_v8)) (Gen.V3 m outs c main_arg0)) = _
  rw [V3_v8 m outs c x ws ho3, V3_arg0 m outs c x h0, two_mul_lift, sub_lift]
  rfl

/-- `x · t₀ + p₁ · t₁ + p₂ · t₂`. -/
theorem V4_v15 (h0 : m ((c : Thread nD τ).loc main_arg0) = arr2 x) (h3 : m ((c : Thread nD τ).loc main_arg3) = arr3 ts) (ho1 : outs 1 main_v0 c = arr2 (apS ws x)) (ho3 : outs 3 main_v8 c = arr2 (apS ws (apS ws x))) :
    Gen.V4 m outs c main_v15 = arr2 (x * ts 0 + (apS ws x) * ts 1 + (step (apS ws) (apS ws x) x) * ts 2) := by
  show StableHlo.after Gen.hostOps2 (Gen.V3 m outs c) (Proc.devRef .tc main_v15) = _
  after_results
  show (addf (F := Ideal) (s := S8192x32) (φ := .f32) (Gen.V3 m outs c main_v7) (Host.dotGeneral (F := Ideal) (φ₁ := .f32) (φ₂ := .f32) dot_S8192x32_S32x32_S8192x32_1_0_0_1_n_n none (subf (F := Ideal) (s := S8192x32) (φ := .f32) (mulf (F := Ideal) (s := S8192x32) (φ := .f32) (broadcastInDim S8192x32 ![] _ (constant (F := Ideal) S_ .f32 0x40000000#32)) (Gen.V3 m outs c main_v8)) (Gen.V3 m outs c main_arg0)) (shapeCast S32x32 (extractStridedSlice S1x32x32 ![2, 0, 0] (Gen.V3 m outs c main_arg3) _) _))) = _
  rw [V3_v8 m outs c x ws ho3, V3_arg0 m outs c x h0, V3_arg3 m outs c ts h3, V3_v7 m outs c x ws ts h0 h3 ho1, two_mul_lift]
  simp only [slice_lift ts 2 (by decide), dotA, dotB, dotC, sub_lift, add_lift]
  rfl

/-! ## The third stretch, cut into four runs of operations -/

/-- The third stretch's first eight operations (the static operator's last term), -/
abbrev opsA : List (HloOp τ sig (Elt Ideal)) := (Gen.hostOps3 (F := Ideal)).take 8
/-- its next eight (the dynamic operator's first two terms), -/
abbrev opsB : List (HloOp τ sig (Elt Ideal)) := ((Gen.hostOps3 (F := Ideal)).drop 8).take 8
/-- its next twelve (the dynamic operator's third term), -/
abbrev opsC : List (HloOp τ sig (Elt Ideal)) := ((Gen.hostOps3 (F := Ideal)).drop 16).take 12
/-- and its last thirteen (the dynamic operator's fourth term and the total). -/
abbrev opsD : List (HloOp τ sig (Elt Ideal)) := (Gen.hostOps3 (F := Ideal)).drop 28

/-- The buffers after the first run, -/
def UA : Valuation τ sig (Elt Ideal) := StableHlo.after opsA (Gen.V5 m outs c)
/-- after the second, -/
def UB : Valuation τ sig (Elt Ideal) := StableHlo.after opsB (UA m outs c)
/-- and after the third. -/
def UC : Valuation τ sig (Elt Ideal) := StableHlo.after opsC (UB m outs c)

/-- The four runs in order are the whole stretch. -/
theorem V6_eq : Gen.V6 m outs c = StableHlo.after opsD (UC m outs c) := by
  show StableHlo.after (Gen.hostOps3 (F := Ideal)) (Gen.V5 m outs c) = StableHlo.after opsD (StableHlo.after opsC (StableHlo.after opsB (StableHlo.after opsA (Gen.V5 m outs c))))
  rw [← StableHlo.after_append, ← StableHlo.after_append, ← StableHlo.after_append]
  rfl

/-- A buffer the third stretch never writes is unchanged by any part of it. -/
theorem part_of (L : List (HloOp τ sig (Elt Ideal))) (hL : ∀ op ∈ L, op ∈ (Gen.hostOps3 (F := Ideal))) (W : Valuation τ sig (Elt Ideal))
    (r : Ref sig .tc) (hr : r ∉ Gen.hostOps3_W) : StableHlo.after L W (Proc.devRef .tc r) = W (Proc.devRef .tc r) :=
  StableHlo.after_of_writes_sub L W
    (List.forall_iff_forall_mem.mpr fun op h => (List.forall_iff_forall_mem.mp Gen.hostOps3_writes) op (hL op h)) hr

theorem UA_of (r : Ref sig .tc) (hr : r ∉ Gen.hostOps3_W) : UA m outs c r = Gen.V5 m outs c r :=
  part_of opsA (fun op h => List.mem_of_mem_take h) _ r hr
theorem UB_of (r : Ref sig .tc) (hr : r ∉ Gen.hostOps3_W) : UB m outs c r = Gen.V5 m outs c r :=
  (part_of opsB (fun op h => List.mem_of_mem_drop (List.mem_of_mem_take h)) _ r hr).trans (UA_of m outs c r hr)
theorem UC_of (r : Ref sig .tc) (hr : r ∉ Gen.hostOps3_W) : UC m outs c r = Gen.V5 m outs c r :=
  (part_of opsC (fun op h => List.mem_of_mem_drop (List.mem_of_mem_take h)) _ r hr).trans (UB_of m outs c r hr)

/-! ### What the third stretch starts from -/

theorem V5_v16 (ho5 : outs 5 main_v16 c = arr2 (apS ws (step (apS ws) (apS ws x) x))) : Gen.V5 m outs c main_v16 = arr2 (apS ws (step (apS ws) (apS ws x) x)) := by
  show Function.update (Gen.V4 m outs c) (Proc.devRef .tc main_v16) (outs 5 main_v16 c) (Proc.devRef .tc main_v16) = _
  rw [Function.update_self]; exact ho5
theorem V5_arg0 (h0 : m ((c : Thread nD τ).loc main_arg0) = arr2 x) : Gen.V5 m outs c main_arg0 = arr2 x :=
  (Gen.V5_of m outs c main_arg0 (by decide)).trans <| (Gen.V4_of m outs c main_arg0 (by decide)).trans (V3_arg0 m outs c x h0)
theorem V5_arg3 (h3 : m ((c : Thread nD τ).loc main_arg3) = arr3 ts) : Gen.V5 m outs c main_arg3 = arr3 ts :=
  (Gen.V5_of m outs c main_arg3 (by decide)).trans <| (Gen.V4_of m outs c main_arg3 (by decide)).trans (V3_arg3 m outs c ts h3)
theorem V5_arg2 (h2 : m ((c : Thread nD τ).loc main_arg2) = arr2 wp) : Gen.V5 m outs c main_arg2 = arr2 wp :=
  (Gen.V5_of m outs c main_arg2 (by decide)).trans <| (Gen.V4_of m outs c main_arg2 (by decide)).trans <|
    (Gen.V3_of m outs c main_arg2 (by decide)).trans <| (Gen.V2_of m outs c main_arg2 (by decide)).trans <|
    (Gen.V1_of m outs c main_arg2 (by decide)).trans h2
theorem V5_arg4 (h4 : m ((c : Thread nD τ).loc main_arg4) = arr3 td) : Gen.V5 m outs c main_arg4 = arr3 td :=
  (Gen.V5_of m outs c main_arg4 (by decide)).trans <| (Gen.V4_of m outs c main_arg4 (by decide)).trans <|
    (Gen.V3_of m outs c main_arg4 (by decide)).trans <| (Gen.V2_of m outs c main_arg4 (by decide)).trans <|
    (Gen.V1_of m outs c main_arg4 (by decide)).trans h4
theorem V5_v0 (ho1 : outs 1 main_v0 c = arr2 (apS ws x)) : Gen.V5 m outs c main_v0 = arr2 (apS ws x) :=
  (Gen.V5_of m outs c main_v0 (by decide)).trans <| (Gen.V4_of m outs c main_v0 (by decide)).trans <|
    (Gen.V3_of m outs c main_v0 (by decide)).trans (V2_main_v0 m outs c x ws ho1)
theorem V5_v3 (h0 : m ((c : Thread nD τ).loc main_arg0) = arr2 x) (h3 : m ((c : Thread nD τ).loc main_arg3) = arr3 ts) : Gen.V5 m outs c main_v3 = arr2 (x * ts 0) :=
  (Gen.V5_of m outs c main_v3 (by decide)).trans <| (Gen.V4_of m outs c main_v3 (by decide)).trans <|
    (Gen.V3_of m outs c main_v3 (by decide)).trans (V2_v3 m outs c x ts h0 h3)
theorem V5_v15 (h0 : m ((c : Thread nD τ).loc main_arg0) = arr2 x) (h3 : m ((c : Thread nD τ).loc main_arg3) = arr3 ts) (ho1 : outs 1 main_v0 c = arr2 (apS ws x)) (ho3 : outs 3 main_v8 c = arr2 (apS ws (apS ws x))) :
    Gen.V5 m outs c main_v15 = arr2 (x * ts 0 + (apS ws x) * ts 1 + (step (apS ws) (apS ws x) x) * ts 2) :=
  (Gen.V5_of m outs c main_v15 (by decide)).trans (V4_v15 m outs c x ws ts h0 h3 ho1 ho3)

/-! ### The first run: the static operator's expansion -/

/-- `x · t₀ + p₁ · t₁ + p₂ · t₂ + p₃ · t₃`, with `p₃ = 2 · (ws · p₂) − p₁`. -/
theorem UA_v23 (h0 : m ((c : Thread nD τ).loc main_arg0) = arr2 x) (h3 : m ((c : Thread nD τ).loc main_arg3) = arr3 ts) (ho1 : outs 1 main_v0 c = arr2 (apS ws x)) (ho3 : outs 3 main_v8 c = arr2 (apS ws (apS ws x))) (ho5 : outs 5 main_v16 c = arr2 (apS ws (step (apS ws) (apS ws x) x))) :
    UA m outs c main_v23 = arr2 (x * ts 0 + (apS ws x) * ts 1 + (step (apS ws) (apS ws x) x) * ts 2 + (step (apS ws) (step (apS ws) (apS ws x) x) (apS ws x)) * ts 3) := by
  show StableHlo.after opsA (Gen.V5 m outs c) (Proc.devRef .tc main_v23) = _
  simp only [opsA, opsB, opsC, opsD, Gen.hostOps3, List.take_succ_cons, List.take_zero, List.drop_succ_cons, List.drop_zero]
  after_results
  show (addf (F := Ideal) (s := S8192x32) (φ := .f32) (Gen.V5 m outs c main_v15) (Host.dotGeneral (F := Ideal) (φ₁ := .f32) (φ₂ := .f32) dot_S8192x32_S32x32_S8192x32_1_0_0_1_n_n none (subf (F := Ideal) (s := S8192x32) (φ := .f32) (mulf (F := Ideal) (s := S8192x32) (φ := .f32) (broadcastInDim S8192x32 ![] _ (constant (F := Ideal) S_ .f32 0x40000000#32)) (Gen.V5 m outs c main_v16)) (Gen.V5 m outs c main_v0)) (shapeCast S32x32 (extractStridedSlice S1x32x32 ![3, 0, 0] (Gen.V5 m outs c main_arg3) _) _))) = _
  rw [V5_v15 m outs c x ws ts h0 h3 ho1 ho3, V5_v16 m outs c x ws ho5, V5_v0 m outs c x ws ho1, V5_arg3 m outs c ts h3, two_mul_lift]
  simp only [slice_lift ts 3 (by decide), dotA, dotB, dotC, sub_lift, add_lift]
  rfl

/-! ### The second run: the dynamic operator's first two terms -/

theorem UA_arg0 (h0 : m ((c : Thread nD τ).loc main_arg0) = arr2 x) : UA m outs c main_arg0 = arr2 x :=
  (UA_of m outs c main_arg0 (by decide)).trans (V5_arg0 m outs c x h0)
theorem UA_arg2 (h2 : m ((c : Thread nD τ).loc main_arg2) = arr2 wp) : UA m outs c main_arg2 = arr2 wp :=
  (UA_of m outs c main_arg2 (by decide)).trans (V5_arg2 m outs c wp h2)
theorem UA_arg4 (h4 : m ((c : Thread nD τ).loc main_arg4) = arr3 td) : UA m outs c main_arg4 = arr3 td :=
  (UA_of m outs c main_arg4 (by decide)).trans (V5_arg4 m outs c td h4)
theorem UA_v3 (h0 : m ((c : Thread nD τ).loc main_arg0) = arr2 x) (h3 : m ((c : Thread nD τ).loc main_arg3) = arr3 ts) : UA m outs c main_v3 = arr2 (x * ts 0) :=
  (UA_of m outs c main_v3 (by decide)).trans (V5_v3 m outs c x ts h0 h3)

/-- The dynamic operator applied to `x`: `q₁ = x · (wp · (xᵀ · x))`. -/
theorem UB_v27 (h0 : m ((c : Thread nD τ).loc main_arg0) = arr2 x) (h2 : m ((c : Thread nD τ).loc main_arg2) = arr2 wp) : UB m outs c main_v27 = arr2 (apK x wp x) := by
  show StableHlo.after opsB (UA m outs c) (Proc.devRef .tc main_v27) = _
  simp only [opsA, opsB, opsC, opsD, Gen.hostOps3, List.take_succ_cons, List.take_zero, List.drop_succ_cons, List.drop_zero]
  after_results
  show (Host.dotGeneral (F := Ideal) (φ₁ := .f32) (φ₂ := .f32) dot_S8192x32_S32x32_S8192x32_1_0_0_1_n_n none (UA m outs c main_arg0) (Host.dotGeneral (F := Ideal) (φ₁ := .f32) (φ₂ := .f32) dot_S32x32_S32x32_S32x32_1_0_0_1_n_n none (UA m outs c main_arg2) (Host.dotGeneral (F := Ideal) (φ₁ := .f32) (φ₂ := .f32) dot_S32x8192_S8192x32_S32x32_1_0_0_1_n_n none (transpose S32x8192 [1, 0] (UA m outs c main_arg0) _) (UA m outs c main_arg0)))) = _
  rw [UA_arg0 m outs c x h0, UA_arg2 m outs c wp h2, transpose_lift]
  simp only [dotA, dotB, dotC, sub_lift, add_lift]
  rfl

/-- `x · t₀ + q₁ · d₁`. -/
theorem UB_v31 (h0 : m ((c : Thread nD τ).loc main_arg0) = arr2 x) (h2 : m ((c : Thread nD τ).loc main_arg2) = arr2 wp) (h3 : m ((c : Thread nD τ).loc main_arg3) = arr3 ts) (h4 : m ((c : Thread nD τ).loc main_arg4) = arr3 td) : UB m outs c main_v31 = arr2 (x * ts 0 + (apK x wp x) * td 1) := by
  show StableHlo.after opsB (UA m outs c) (Proc.devRef .tc main_v31) = _
  simp only [opsA, opsB, opsC, opsD, Gen.hostOps3, List.take_succ_cons, List.take_zero, List.drop_succ_cons, List.drop_zero]
  after_results
  show (addf (F := Ideal) (s := S8192x32) (φ := .f32) (UA m outs c main_v3) (Host.dotGeneral (F := Ideal) (φ₁ := .f32) (φ₂ := .f32) dot_S8192x32_S32x32_S8192x32_1_0_0_1_n_n none (Host.dotGeneral (F := Ideal) (φ₁ := .f32) (φ₂ := .f32) dot_S8192x32_S32x32_S8192x32_1_0_0_1_n_n none (UA m outs c main_arg0) (Host.dotGeneral (F := Ideal) (φ₁ := .f32) (φ₂ := .f32) dot_S32x32_S32x32_S32x32_1_0_0_1_n_n none (UA m outs c main_arg2) (Host.dotGeneral (F := Ideal) (φ₁ := .f32) (φ₂ := .f32) dot_S32x8192_S8192x32_S32x32_1_0_0_1_n_n none (transpose S32x8192 [1, 0] (UA m outs c main_arg0) _) (UA m outs c main_arg0)))) (shapeCast S32x32 (extractStridedSlice S1x32x32 ![1, 0, 0] (UA m outs c main_arg4) _) _))) = _
  rw [UA_arg0 m outs c x h0, UA_arg2 m outs c wp h2, UA_arg4 m outs c td h4, UA_v3 m outs c x ts h0 h3, transpose_lift]
  simp only [slice_lift td 1 (by decide), dotA, dotB, dotC, sub_lift, add_lift]
  rfl

/-- The static operator's expansion is not touched by the second run. -/
theorem UB_v23 (h0 : m ((c : Thread nD τ).loc main_arg0) = arr2 x) (h3 : m ((c : Thread nD τ).loc main_arg3) = arr3 ts) (ho1 : outs 1 main_v0 c = arr2 (apS ws x)) (ho3 : outs 3 main_v8 c = arr2 (apS ws (apS ws x))) (ho5 : outs 5 main_v16 c = arr2 (apS ws (step (apS ws) (apS ws x) x))) : UB m outs c main_v23 = arr2 (x * ts 0 + (apS ws x) * ts 1 + (step (apS ws) (apS ws x) x) * ts 2 + (step (apS ws) (step (apS ws) (apS ws x) x) (apS ws x)) * ts 3) := by
  refine Eq.trans ?_ (UA_v23 m outs c x ws ts h0 h3 ho1 ho3 ho5)
  show StableHlo.after opsB (UA m outs c) (Proc.devRef .tc main_v23) = _
  simp only [opsA, opsB, opsC, opsD, Gen.hostOps3, List.take_succ_cons, List.take_zero, List.drop_succ_cons, List.drop_zero]
  after_results

/-! ### The third run: the dynamic operator's third term -/

theorem UB_arg0 (h0 : m ((c : Thread nD τ).loc main_arg0) = arr2 x) : UB m outs c main_arg0 = arr2 x :=
  (UB_of m outs c main_arg0 (by decide)).trans (V5_arg0 m outs c x h0)
theorem UB_arg2 (h2 : m ((c : Thread nD τ).loc main_arg2) = arr2 wp) : UB m outs c main_arg2 = arr2 wp :=
  (UB_of m outs c main_arg2 (by decide)).trans (V5_arg2 m outs c wp h2)
theorem UB_arg4 (h4 : m ((c : Thread nD τ).loc main_arg4) = arr3 td) : UB m outs c main_arg4 = arr3 td :=
  (UB_of m outs c main_arg4 (by decide)).trans (V5_arg4 m outs c td h4)

/-- `q₂ = 2 · (x · (wp · (xᵀ · q₁))) − x`. -/
theorem UC_v38 (h0 : m ((c : Thread nD τ).loc main_arg0) = arr2 x) (h2 : m ((c : Thread nD τ).loc main_arg2) = arr2 wp) : UC m outs c main_v38 = arr2 (step (apK x wp) (apK x wp x) x) := by
  show StableHlo.after opsC (UB m outs c) (Proc.devRef .tc main_v38) = _
  simp only [opsA, opsB, opsC, opsD, Gen.hostOps3, List.take_succ_cons, List.take_zero, List.drop_succ_cons, List.drop_zero]
  after_results_simp
  show (subf (F := Ideal) (s := S8192x32) (φ := .f32) (mulf (F := Ideal) (s := S8192x32) (φ := .f32) (broadcastInDim S8192x32 ![] _ (constant (F := Ideal) S_ .f32 0x40000000#32)) (Host.dotGeneral (F := Ideal) (φ₁ := .f32) (φ₂ := .f32) dot_S8192x32_S32x32_S8192x32_1_0_0_1_n_n none (UB m outs c main_arg0) (Host.dotGeneral (F := Ideal) (φ₁ := .f32) (φ₂ := .f32) dot_S32x32_S32x32_S32x32_1_0_0_1_n_n none (UB m outs c main_arg2) (Host.dotGeneral (F := Ideal) (φ₁ := .f32) (φ₂ := .f32) dot_S32x8192_S8192x32_S32x32_1_0_0_1_n_n none (transpose S32x8192 [1, 0] (UB m outs c main_arg0) _) (UB m outs c main_v27))))) (UB m outs c main_arg0)) = _
  rw [UB_arg0 m outs c x h0, UB_arg2 m outs c wp h2, UB_v27 m outs c x wp h0 h2, transpose_lift]
  simp only [dotA, dotB, dotC, sub_lift, add_lift]
  rw [two_mul_lift, sub_lift]
  rfl

/-- `x · t₀ + q₁ · d₁ + q₂ · d₂`. -/
theorem UC_v42 (h0 : m ((c : Thread nD τ).loc main_arg0) = arr2 x) (h2 : m ((c : Thread nD τ).loc main_arg2) = arr2 wp) (h3 : m ((c : Thread nD τ).loc main_arg3) = arr3 ts) (h4 : m ((c : Thread nD τ).loc main_arg4) = arr3 td) :
    UC m outs c main_v42 = arr2 (x * ts 0 + (apK x wp x) * td 1 + (step (apK x wp) (apK x wp x) x) * td 2) := by
  show StableHlo.after opsC (UB m outs c) (Proc.devRef .tc main_v42) = _
  simp only [opsA, opsB, opsC, opsD, Gen.hostOps3, List.take_succ_cons, List.take_zero, List.drop_succ_cons, List.drop_zero]
  after_results_simp
  show (addf (F := Ideal) (s := S8192x32) (φ := .f32) (UB m outs c main_v31) (Host.dotGeneral (F := Ideal) (φ₁ := .f32) (φ₂ := .f32) dot_S8192x32_S32x32_S8192x32_1_0_0_1_n_n none (subf (F := Ideal) (s := S8192x32) (φ := .f32) (mulf (F := Ideal) (s := S8192x32) (φ := .f32) (broadcastInDim S8192x32 ![] _ (constant (F := Ideal) S_ .f32 0x40000000#32)) (Host.dotGeneral (F := Ideal) (φ₁ := .f32) (φ₂ := .f32) dot_S8192x32_S32x32_S8192x32_1_0_0_1_n_n none (UB m outs c main_arg0) (Host.dotGeneral (F := Ideal) (φ₁ := .f32) (φ₂ := .f32) dot_S32x32_S32x32_S32x32_1_0_0_1_n_n none (UB m outs c main_arg2) (Host.dotGeneral (F := Ideal) (φ₁ := .f32) (φ₂ := .f32) dot_S32x8192_S8192x32_S32x32_1_0_0_1_n_n none (transpose S32x8192 [1, 0] (UB m outs c main_arg0) _) (UB m outs c main_v27))))) (UB m outs c main_arg0)) (shapeCast S32x32 (extractStridedSlice S1x32x32 ![2, 0, 0] (UB m outs c main_arg4) _) _))) = _
  rw [UB_arg0 m outs c x h0, UB_arg2 m outs c wp h2, UB_arg4 m outs c td h4, UB_v27 m outs c x wp h0 h2,
    UB_v31 m outs c x wp ts td h0 h2 h3 h4, transpose_lift]
  simp only [slice_lift td 2 (by decide), dotA, dotB, dotC, sub_lift, add_lift]
  rw [two_mul_lift]
  simp only [dotA, dotB, dotC, sub_lift, add_lift]
  rfl

/-- The earlier results the last run reads are not touched by the third run. -/
theorem UC_v23 (h0 : m ((c : Thread nD τ).loc main_arg0) = arr2 x) (h3 : m ((c : Thread nD τ).loc main_arg3) = arr3 ts) (ho1 : outs 1 main_v0 c = arr2 (apS ws x)) (ho3 : outs 3 main_v8 c = arr2 (apS ws (apS ws x))) (ho5 : outs 5 main_v16 c = arr2 (apS ws (step (apS ws) (apS ws x) x))) : UC m outs c main_v23 = arr2 (x * ts 0 + (apS ws x) * ts 1 + (step (apS ws) (apS ws x) x) * ts 2 + (step (apS ws) (step (apS ws) (apS ws x) x) (apS ws x)) * ts 3) := by
  refine Eq.trans ?_ (UB_v23 m outs c x ws ts h0 h3 ho1 ho3 ho5)
  show StableHlo.after opsC (UB m outs c) (Proc.devRef .tc main_v23) = _
  simp only [opsA, opsB, opsC, opsD, Gen.hostOps3, List.take_succ_cons, List.take_zero, List.drop_succ_cons, List.drop_zero]
  after_results_simp
theorem UC_v27 (h0 : m ((c : Thread nD τ).loc main_arg0) = arr2 x) (h2 : m ((c : Thread nD τ).loc main_arg2) = arr2 wp) : UC m outs c main_v27 = arr2 (apK x wp x) := by
  refine Eq.trans ?_ (UB_v27 m outs c x wp h0 h2)
  show StableHlo.after opsC (UB m outs c) (Proc.devRef .tc main_v27) = _
  simp only [opsA, opsB, opsC, opsD, Gen.hostOps3, List.take_succ_cons, List.take_zero, List.drop_succ_cons, List.drop_zero]
  after_results_simp

/-! ### The last run: the dynamic operator's fourth term and the total -/

theorem UC_arg0 (h0 : m ((c : Thread nD τ).loc main_arg0) = arr2 x) : UC m outs c main_arg0 = arr2 x :=
  (UC_of m outs c main_arg0 (by decide)).trans (V5_arg0 m outs c x h0)
theorem UC_arg2 (h2 : m ((c : Thread nD τ).loc main_arg2) = arr2 wp) : UC m outs c main_arg2 = arr2 wp :=
  (UC_of m outs c main_arg2 (by decide)).trans (V5_arg2 m outs c wp h2)
theorem UC_arg4 (h4 : m ((c : Thread nD τ).loc main_arg4) = arr3 td) : UC m outs c main_arg4 = arr3 td :=
  (UC_of m outs c main_arg4 (by decide)).trans (V5_arg4 m outs c td h4)

/-- The result with the dynamic operator applied through small products, term by term. -/
theorem outK_terms : outK x ws wp ts td = (x * ts 0 + (apS ws x) * ts 1 + (step (apS ws) (apS ws x) x) * ts 2 + (step (apS ws) (step (apS ws) (apS ws x) x) (apS ws x)) * ts 3) + (x * ts 0 + (apK x wp x) * td 1 + (step (apK x wp) (apK x wp x) x) * td 2 + (step (apK x wp) (step (apK x wp) (apK x wp x) x) (apK x wp x)) * td 3) := by
  unfold outK cheb
  rfl

/-- The program's result. -/
theorem V6_main_v54 (h0 : m ((c : Thread nD τ).loc main_arg0) = arr2 x) (h1 : m ((c : Thread nD τ).loc main_arg1) = arr2 ws) (h2 : m ((c : Thread nD τ).loc main_arg2) = arr2 wp) (h3 : m ((c : Thread nD τ).loc main_arg3) = arr3 ts) (h4 : m ((c : Thread nD τ).loc main_arg4) = arr3 td) (ho1 : outs 1 main_v0 c = arr2 (apS ws x)) (ho3 : outs 3 main_v8 c = arr2 (apS ws (apS ws x))) (ho5 : outs 5 main_v16 c = arr2 (apS ws (step (apS ws) (apS ws x) x))) :
    Gen.V6 m outs c main_v54 = arr2 (outK x ws wp ts td) := by
  rw [outK_terms, V6_eq]
  show StableHlo.after opsD (UC m outs c) (Proc.devRef .tc main_v54) = _
  simp only [opsA, opsB, opsC, opsD, Gen.hostOps3, List.take_succ_cons, List.take_zero, List.drop_succ_cons, List.drop_zero]
  after_results_simp
  show (addf (F := Ideal) (s := S8192x32) (φ := .f32) (UC m outs c main_v23) (addf (F := Ideal) (s := S8192x32) (φ := .f32) (UC m outs c main_v42) (Host.dotGeneral (F := Ideal) (φ₁ := .f32) (φ₂ := .f32) dot_S8192x32_S32x32_S8192x32_1_0_0_1_n_n none (subf (F := Ideal) (s := S8192x32) (φ := .f32) (mulf (F := Ideal) (s := S8192x32) (φ := .f32) (broadcastInDim S8192x32 ![] _ (constant (F := Ideal) S_ .f32 0x40000000#32)) (Host.dotGeneral (F := Ideal) (φ₁ := .f32) (φ₂ := .f32) dot_S8192x32_S32x32_S8192x32_1_0_0_1_n_n none (UC m outs c main_arg0) (Host.dotGeneral (F := Ideal) (φ₁ := .f32) (φ₂ := .f32) dot_S32x32_S32x32_S32x32_1_0_0_1_n_n none (UC m outs c main_arg2) (Host.dotGeneral (F := Ideal) (φ₁ := .f32) (φ₂ := .f32) dot_S32x8192_S8192x32_S32x32_1_0_0_1_n_n none (transpose S32x8192 [1, 0] (UC m outs c main_arg0) _) (UC m outs c main_v38))))) (UC m outs c main_v27)) (shapeCast S32x32 (extractStridedSlice S1x32x32 ![3, 0, 0] (UC m outs c main_arg4) _) _)))) = _
  rw [UC_arg0 m outs c x h0, UC_arg2 m outs c wp h2, UC_arg4 m outs c td h4, UC_v27 m outs c x wp h0 h2,
    UC_v38 m outs c x wp h0 h2, UC_v42 m outs c x wp ts td h0 h2 h3 h4, UC_v23 m outs c x ws ts h0 h3 ho1 ho3 ho5, transpose_lift]
  simp only [slice_lift td 3 (by decide), dotA, dotB, dotC, sub_lift, add_lift]
  rw [two_mul_lift]
  simp only [dotA, dotB, dotC, sub_lift, add_lift]
  rfl

end Cert.KernelIdeal.KerHost

end
-- ==== Proof.KernelValue.lean ====
/-
  The kernel program's result on real arguments, GIVEN what each region leaves in its output array: region 0 is
  entered with `ws` and `x`, region 1 with `ws` and region 0's output, region 2 with `ws` and `2 ws (ws x) - x`; if
  each leaves the product of its two operands, the host operations around them end at the coercion of `Spec.outK`.
-/
import proofs.«148117_j28647431864612_2_alg».proof.Defs
import proofs.«148117_j28647431864612_2_alg».proof.Proof.Run
import proofs.«148117_j28647431864612_2_alg».proof.Proof.KerHost
import proofs.«148117_j28647431864612_2_alg».proof.Proof.Spec
import proofs.«148117_j28647431864612_2_alg».proof.Proof.LibRealLift

noncomputable section

namespace Cert.Proof.KernelValue

open Idealize.ShloMosaic Idealize.ShloMosaic.TcCoe Idealize.SL.Sem
open Cert.Spec Cert.Lift Cert.KernelIdeal

variable (m : (ℓ : Loc nD τ sig) → Buf (Elt Ideal) ℓ) (c : Dev nD)
  (x : M 8192 32) (ws : M 8192 8192) (wp : M 32 32) (ts td : Fin 4 → M 32 32)

/-- A region entered with the arrays of `ws` and `v` leaves the array of `ws · v`. -/
abbrev Leaves0 : Prop := ∀ (v : M 8192 32), Run.Ve0 m c (Pipeline.arrRef spec0 0) = arr2 ws → Run.Ve0 m c (Pipeline.arrRef spec0 1) = arr2 v →
  (Reg0.dat (Run.Ve0 m) c).arrAt 2 cfg0.N = arr2 (ws * v)
abbrev Leaves1 : Prop := ∀ (v : M 8192 32), Run.Ve1 m c (Pipeline.arrRef spec1 0) = arr2 ws → Run.Ve1 m c (Pipeline.arrRef spec1 1) = arr2 v →
  (Reg1.dat (Run.Ve1 m) c).arrAt 2 cfg1.N = arr2 (ws * v)
abbrev Leaves2 : Prop := ∀ (v : M 8192 32), Run.Ve2 m c (Pipeline.arrRef spec2 0) = arr2 ws → Run.Ve2 m c (Pipeline.arrRef spec2 1) = arr2 v →
  (Reg2.dat (Run.Ve2 m) c).arrAt 2 cfg2.N = arr2 (ws * v)

/-- What the kernel program's result buffer holds at the return, on real arguments. -/
theorem result_of (L0 : Leaves0 m c ws) (L1 : Leaves1 m c ws) (L2 : Leaves2 m c ws)
    (h0 : m ((c.tc : Thread nD τ).loc main_arg0) = arr2 x) (h1 : m ((c.tc : Thread nD τ).loc main_arg1) = arr2 ws)
    (h2 : m ((c.tc : Thread nD τ).loc main_arg2) = arr2 wp) (h3 : m ((c.tc : Thread nD τ).loc main_arg3) = arr3 ts)
    (h4 : m ((c.tc : Thread nD τ).loc main_arg4) = arr3 td) :
    Run.X6 m c main_v54 = arr2 (outK x ws wp ts td) := by
  -- region 0: ws · x
  have ho1 : Run.outs m 1 main_v0 c = arr2 (apS ws x) := by
    rw [Run.outs1]
    exact L0 x h1 h0
  -- region 1: ws · (ws · x), entered after the first stretch of host operations
  have e2 : ∀ b, Run.X2 m c b = Gen.V2 m (Run.outs m) c b := fun b => (congrFun (Run.V2_eq m c) b).symm
  have hv1 : Run.Ve1 m c main_v0 = arr2 (apS ws x) := (e2 _).trans (KerHost.V2_main_v0 m (Run.outs m) c x ws ho1)
  have hw1 : Run.Ve1 m c main_arg1 = arr2 ws :=
    (e2 _).trans (((Gen.V2_of m (Run.outs m) c main_arg1 (by decide)).trans (Gen.V1_of m (Run.outs m) c main_arg1 (by decide))).trans h1)
  have ho3 : Run.outs m 3 main_v8 c = arr2 (apS ws (apS ws x)) := by
    rw [Run.outs3]
    exact L1 (apS ws x) hw1 hv1
  -- region 2: ws · (2 ws (ws x) - x), entered after the second stretch
  have e4 : ∀ b, Run.X4 m c b = Gen.V4 m (Run.outs m) c b := fun b => (congrFun (Run.V4_eq m c) b).symm
  have hv2 : Run.Ve2 m c main_v11 = arr2 (step (apS ws) (apS ws x) x) :=
    (e4 _).trans (KerHost.V4_main_v11 m (Run.outs m) c x ws h0 ho1 ho3)
  have hw2 : Run.Ve2 m c main_arg1 = arr2 ws :=
    (e4 _).trans (((Gen.V4_of m (Run.outs m) c main_arg1 (by decide)).trans <| (Gen.V3_of m (Run.outs m) c main_arg1 (by decide)).trans <|
      (Gen.V2_of m (Run.outs m) c main_arg1 (by decide)).trans (Gen.V1_of m (Run.outs m) c main_arg1 (by decide))).trans h1)
  have ho5 : Run.outs m 5 main_v16 c = arr2 (apS ws (step (apS ws) (apS ws x) x)) := by
    rw [Run.outs5]
    exact L2 (step (apS ws) (apS ws x) x) hw2 hv2
  exact ((congrFun (Run.V6_eq m c) _).symm).trans (KerHost.V6_main_v54 m (Run.outs m) c x ws wp ts td h0 h1 h2 h3 h4 ho1 ho3 ho5)

end Cert.Proof.KernelValue

end
-- ==== Proof.Reg0Pieces.lean ====
/-
  Region 0, the values the body leaves, generic in the float instance. At a point with j = 0 the accumulator is
  left at the product of the block of the first operand with the loaded rows of the second, added to the zero block;
  at a point with j = 1 it is left at that product added to what it held on entry, and the output block's buffer
  receives the same value.
-/
import proofs.«148117_j28647431864612_2_alg».proof.Proof.Reg0
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- The rows of the second operand the body loads at a point: 4096 rows starting at row `4096 j`. -/
abbrev rows (i : grid0.Coords) (x1 : Vec F S8192x32 .f32) : Vec F S4096x32 .f32 :=
  View.ld x1 (Rect.unit (s := S8192x32) (k0_off1 i) S4096x32.size (k0_off1_inb i))

/-- At j = 0 the accumulator is left at the zero block plus the product of the block of the first operand with the
    loaded rows of the second: the zero block is stored, read back, and the sum stored over it. -/
theorem sout_A_eq (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    sout_A c i arg2 harg2 arg3 harg3 arg4 harg4 arg5 harg5 hc0 hc1 x0 x1 = k0_pay2 x0 (rows i x1) k0_pay1 := by
  unfold sout_A
  rw [View.read_writes_eq_canon _ _ _ (scover_A c i arg2 harg2 arg3 harg3 arg4 harg4 arg5 harg5 hc0 hc1 x0 x1)]
  unfold kernelRun_A
  dsimp only
  sl_unfold_words
  rw [View.canon_cons_unit_zero (S := S1024x32) hz, View.readCov_unit_zero (S := S1024x32) _ hz]
  simp only [View.readAt_eq_ld, harg2.read_unread, harg3.read_unread, View.ld_unit_zero (S := S1024x4096) hz]
  rfl

/-- At j = 1 the accumulator, entered at `xs0`, is left at `xs0` plus the product of the block of the first operand
    with the loaded rows of the second. -/
theorem sout_C_eq (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    sout_C c i arg2 harg2 arg3 harg3 arg4 harg4 arg5 harg5 hc0 hc1 x0 x1 xs0 = k0_pay2 x0 (rows i x1) xs0 := by
  unfold sout_C
  rw [View.read_writes_eq_canon _ _ _ (scover_C c i arg2 harg2 arg3 harg3 arg4 harg4 arg5 harg5 hc0 hc1 x0 x1 xs0)]
  unfold kernelRun_C
  dsimp only
  sl_unfold_words
  rw [View.canon_unit_zero (S := S1024x32) hz]
  simp only [View.readAt_eq_ld, harg2.read_unread, harg3.read_unread, harg5.read_unread,
    View.ld_unit_zero (S := S1024x4096) hz, View.ld_unit_zero (S := S1024x32) hz]
  rfl

/-- At j = 1 the output block's buffer receives the accumulator's new value: the accumulator is read back after its
    store and copied. -/
theorem out_C_2_eq (c : Dev nD) (i : grid0.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    out_C_2 c i arg2 harg2 arg3 harg3 arg4 harg4 arg5 harg5 hc0 hc1 x0 x1 xs0 = k0_pay2 x0 (rows i x1) xs0 := by
  unfold out_C_2
  rw [View.read_writes_eq_canon _ _ _ (cover_C_2 c i arg2 harg2 arg3 harg3 arg4 harg4 arg5 harg5 hc0 hc1 x0 x1 xs0)]
  unfold kernelRun_C
  dsimp only
  sl_unfold_words
  rw [View.canon_unit_zero (S := S1024x32) hz, View.readCov_unit_zero (S := S1024x32) _ hz]
  simp only [View.readAt_eq_ld, harg2.read_unread, harg3.read_unread, harg5.read_unread,
    View.ld_unit_zero (S := S1024x4096) hz, View.ld_unit_zero (S := S1024x32) hz]
  rfl

end Cert.KernelIdeal.Reg0

end
-- ==== Proof.RegMath.lean ====
/-
  The arithmetic of the kernel's row-block products: each region's stored values read at an index — the zero that
  opens an accumulation, and an accumulator plus the sum over 4096 contraction indices of the products of the two
  operands' entries —, and the two half sums of a row of `ws` against a column of `v` adding up to the entry of the
  matrix product `ws · v`.
-/
import proofs.«148117_j28647431864612_2_alg».proof.Proof.Gen.KernelIdeal.Skeleton
import proofs.«148117_j28647431864612_2_alg».proof.Proof.Spec
import proofs.«148117_j28647431864612_2_alg».proof.Proof.LibRealLift
import Idealize.ShloMosaic.Lib.Pipeline.Value
import Idealize.ShloMosaic.Lib.ValueIdx
import Idealize.ShloMosaic.PureOps.Ideal.Laws

noncomputable section

namespace Cert.KernelIdeal.RegMath

open Cert.KernelIdeal Cert.KernelIdeal.Gen Cert.Spec Cert.Lift
open Idealize.ShloMosaic Idealize.ShloMosaic.ValueIdx Idealize.SL.Sem

/-- The left operand's row coordinate at output index `i` is `i`'s row. -/
theorem lhs_0 (i : S1024x32.Idx) (q : dot_S1024x4096_S4096x32_S1024x32_1_0_0_1_n_n.contr.Idx) :
    (dot_S1024x4096_S4096x32_S1024x32_1_0_0_1_n_n.lhsIdx i q 0).val = (i 0).val := by
  unfold DotDims.lhsIdx
  rw [dif_neg (show ¬(0 : Fin S1024x4096.rank) ∈ dot_S1024x4096_S4096x32_S1024x32_1_0_0_1_n_n.lhsBatch by decide), dif_pos (show (0 : Fin S1024x4096.rank) ∈ dot_S1024x4096_S4096x32_S1024x32_1_0_0_1_n_n.lhsNonContracting by decide)]
  rfl
/-- The left operand's column coordinate is the contraction index. -/
theorem lhs_1 (i : S1024x32.Idx) (q : dot_S1024x4096_S4096x32_S1024x32_1_0_0_1_n_n.contr.Idx) :
    (dot_S1024x4096_S4096x32_S1024x32_1_0_0_1_n_n.lhsIdx i q 1).val = (q ⟨0, by decide⟩).val :=
  dot_S1024x4096_S4096x32_S1024x32_1_0_0_1_n_n.lhsIdx_val_of_single rfl i q
/-- The right operand's row coordinate is the contraction index. -/
theorem rhs_0 (i : S1024x32.Idx) (q : dot_S1024x4096_S4096x32_S1024x32_1_0_0_1_n_n.contr.Idx) :
    (dot_S1024x4096_S4096x32_S1024x32_1_0_0_1_n_n.rhsIdx i q 0).val = (q ⟨0, by decide⟩).val :=
  dot_S1024x4096_S4096x32_S1024x32_1_0_0_1_n_n.rhsIdx_val_of_single rfl i q
/-- The right operand's column coordinate at output index `i` is `i`'s column. -/
theorem rhs_1 (i : S1024x32.Idx) (q : dot_S1024x4096_S4096x32_S1024x32_1_0_0_1_n_n.contr.Idx) :
    (dot_S1024x4096_S4096x32_S1024x32_1_0_0_1_n_n.rhsIdx i q 1).val = (i 1).val := by
  unfold DotDims.rhsIdx
  rw [dif_neg (show ¬(1 : Fin S4096x32.rank) ∈ dot_S1024x4096_S4096x32_S1024x32_1_0_0_1_n_n.rhsBatch by decide), dif_pos (show (1 : Fin S4096x32.rank) ∈ dot_S1024x4096_S4096x32_S1024x32_1_0_0_1_n_n.rhsNonContracting by decide)]
  rfl

/-- The product into a zero accumulator, read at `(p, q)`: the sum over the 4096 contraction indices of the left
    operand's entry `(p, k)` times the right operand's entry `(k, q)`. -/
theorem matmul_ix (l : Vec Ideal S1024x4096 .f32) (r : Vec Ideal S4096x32 .f32) (p : Fin 1024) (q : Fin 32) :
    matmul (F := Ideal) (φ₁ := .f32) (φ₂ := .f32) dot_S1024x4096_S4096x32_S1024x32_1_0_0_1_n_n (some .fp32) l r (constant (F := Ideal) S1024x32 .f32 0x00000000#32) (ix2 p q)
      = ∑ k : Fin 4096, l (ix2 p k) * r (ix2 k q) := by
  refine (Ideal.matmul_constant_zero_apply dot_S1024x4096_S4096x32_S1024x32_1_0_0_1_n_n (some .fp32) l r (ix2 p q)).trans ?_
  rw [← Equiv.sum_comp (contrEquiv1 dot_S1024x4096_S4096x32_S1024x32_1_0_0_1_n_n 4096 rfl rfl).symm]
  refine Finset.sum_congr rfl fun k _ => ?_
  have hk := contrEquiv1_symm_val dot_S1024x4096_S4096x32_S1024x32_1_0_0_1_n_n 4096 rfl rfl k
  have el : dot_S1024x4096_S4096x32_S1024x32_1_0_0_1_n_n.lhsIdx (ix2 p q) ((contrEquiv1 dot_S1024x4096_S4096x32_S1024x32_1_0_0_1_n_n 4096 rfl rfl).symm k) = ix2 p k := funext fun a => Fin.ext (by
    match a with
    | ⟨0, _⟩ => exact lhs_0 _ _
    | ⟨1, _⟩ => exact (lhs_1 _ _).trans hk)
  have er : dot_S1024x4096_S4096x32_S1024x32_1_0_0_1_n_n.rhsIdx (ix2 p q) ((contrEquiv1 dot_S1024x4096_S4096x32_S1024x32_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-- Region 0's opening store is zero everywhere. -/
theorem k0_pay1_apply (j : S1024x32.Idx) : Gen.k0_pay1 (F := Ideal) j = 0 := by
  unfold Gen.k0_pay1
  refine (congrFun (shapeCast_self _ _) j).trans ?_
  exact Ideal.ofBits_zero_f32

/-- Region 0's accumulating store at `(p, q)`: the accumulator's entry plus the row-by-column sum of products. -/
theorem k0_pay2_apply (x0 : Vec Ideal S1024x4096 .f32) (v7 : Vec Ideal S4096x32 .f32) (acc : Vec Ideal S1024x32 .f32) (p : Fin 1024) (q : Fin 32) :
    Gen.k0_pay2 (F := Ideal) x0 v7 acc (ix2 p q) = acc (ix2 p q) + ∑ k : Fin 4096, x0 (ix2 p k) * v7 (ix2 k q) := by
  unfold Gen.k0_pay2
  refine (congrFun (shapeCast_self _ _) (ix2 p q)).trans ?_
  exact congrArg (acc (ix2 p q) + ·) (matmul_ix x0 v7 p q)

/-- Region 1's opening store is zero everywhere. -/
theorem k1_pay1_apply (j : S1024x32.Idx) : Gen.k1_pay1 (F := Ideal) j = 0 := by
  unfold Gen.k1_pay1
  refine (congrFun (shapeCast_self _ _) j).trans ?_
  exact Ideal.ofBits_zero_f32

/-- Region 1's accumulating store at `(p, q)`: the accumulator's entry plus the row-by-column sum of products (the
    right operand passes through a cast to its own shape, which changes nothing). -/
theorem k1_pay2_apply (x0 : Vec Ideal S1024x4096 .f32) (v7 : Vec Ideal S4096x32 .f32) (acc : Vec Ideal S1024x32 .f32) (p : Fin 1024) (q : Fin 32) :
    Gen.k1_pay2 (F := Ideal) x0 v7 acc (ix2 p q) = acc (ix2 p q) + ∑ k : Fin 4096, x0 (ix2 p k) * v7 (ix2 k q) := by
  unfold Gen.k1_pay2
  refine (congrFun (shapeCast_self _ _) (ix2 p q)).trans ?_
  refine (congrArg (acc (ix2 p q) + ·) (matmul_ix x0 (shapeCast S4096x32 v7 shapeCasts_S4096x32_S4096x32) p q)).trans ?_
  exact congrArg (fun w : Vec Ideal S4096x32 .f32 => acc (ix2 p q) + ∑ k : Fin 4096, x0 (ix2 p k) * w (ix2 k q))
    (shapeCast_self v7 shapeCasts_S4096x32_S4096x32)

/-- Region 2's opening store is zero everywhere. -/
theorem k2_pay1_apply (j : S1024x32.Idx) : Gen.k2_pay1 (F := Ideal) j = 0 := by
  unfold Gen.k2_pay1
  refine (congrFun (shapeCast_self _ _) j).trans ?_
  exact Ideal.ofBits_zero_f32

/-- Region 2's accumulating store at `(p, q)`: the accumulator's entry plus the row-by-column sum of products (the
    right operand passes through a cast to its own shape, which changes nothing). -/
theorem k2_pay2_apply (x0 : Vec Ideal S1024x4096 .f32) (v7 : Vec Ideal S4096x32 .f32) (acc : Vec Ideal S1024x32 .f32) (p : Fin 1024) (q : Fin 32) :
    Gen.k2_pay2 (F := Ideal) x0 v7 acc (ix2 p q) = acc (ix2 p q) + ∑ k : Fin 4096, x0 (ix2 p k) * v7 (ix2 k q) := by
  unfold Gen.k2_pay2
  refine (congrFun (shapeCast_self _ _) (ix2 p q)).trans ?_
  refine (congrArg (acc (ix2 p q) + ·) (matmul_ix x0 (shapeCast S4096x32 v7 shapeCasts_S4096x32_S4096x32) p q)).trans ?_
  exact congrArg (fun w : Vec Ideal S4096x32 .f32 => acc (ix2 p q) + ∑ k : Fin 4096, x0 (ix2 p k) * w (ix2 k q))
    (shapeCast_self v7 shapeCasts_S4096x32_S4096x32)

/-- A row of `ws` against a column of `v`, summed over the first 4096 and over the last 4096 contraction indices
    from zero, is the entry of the matrix product. -/
theorem half_sums (ws : M 8192 8192) (v : M 8192 32) (r : Fin 8192) (q : Fin 32) :
    (0 : EReal) + (∑ k : Fin 4096, ((ws r ⟨k.val, by omega⟩ : ℝ) : EReal) * ((v ⟨k.val, by omega⟩ q : ℝ) : EReal))
      + (∑ k : Fin 4096, ((ws r ⟨4096 + k.val, by omega⟩ : ℝ) : EReal) * ((v ⟨4096 + k.val, by omega⟩ q : ℝ) : EReal)) = (((ws * v) r q : ℝ) : EReal) := by
  rw [zero_add]
  exact (sum_two_blocks (fun k => ((ws r k : ℝ) : EReal) * ((v k q : ℝ) : EReal))).trans (dot_real ws v r q)

end Cert.KernelIdeal.RegMath

end
-- ==== Proof.Reg0Reads.lean ====
/-
  Region 0 at the extended reals, the reads at a point. When the two operand arrays hold real matrices `ws` and `v`,
  the block of `ws` at point `t` read at `(p, k)` is the entry `(1024 ⌊t/2⌋ + p, 4096 (t mod 2) + k)` of `ws`, the one
  block of `v` read at `(k, q)` is the entry `(k, q)` of `v`, and the rows the body loads are rows `4096 (t mod 2) …`.
  Two accumulation steps from zero over the two halves of the contraction leave the entries of the product `ws · v`.
-/
import proofs.«148117_j28647431864612_2_alg».proof.Proof.Reg0Pieces
import proofs.«148117_j28647431864612_2_alg».proof.Proof.Spec
import proofs.«148117_j28647431864612_2_alg».proof.Proof.LibRealLift
import proofs.«148117_j28647431864612_2_alg».proof.Proof.RegMath
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Cert.KernelIdeal.RegMath Cert.Spec Cert.Lift
open Idealize.ShloMosaic Idealize.ShloMosaic.TcCoe Idealize.ShloMosaic.ValueIdx
open Idealize.SL Idealize.SL.Sem
open Idealize.ShloMosaic.Pipeline (Dat Cfg Window)

/-- An array of reals read at an index whose coordinates are known. -/
theorem arr2_at {a b : ℕ} (A : Matrix (Fin a) (Fin b) ℝ) (i : (⟨2, ![a, b]⟩ : Shape).Idx) (r : Fin a) (s : Fin b)
    (h0 : (i 0).val = r.val) (h1 : (i 1).val = s.val) : arr2 A i = ((A r s : ℝ) : EReal) := by
  rw [arr2_apply]
  exact congrArg₂ (fun u v => ((A u v : ℝ) : EReal)) (Fin.ext h0) (Fin.ext h1)

theorem idx_facts : ∀ t : Fin cfg0.N, win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = t.val / 2 ∧ win0_2.index t (1 : Fin 2) = 0 :=
  (by decide +kernel : ∀ t : Fin grid0.N, _)

theorem off_facts : ∀ t : Fin cfg0.N, k0_off1 (grid0.coords t) (0 : Fin 2) = 4096 * (t.val % 2) ∧ k0_off1 (grid0.coords t) (1 : Fin 2) = 0 :=
  (by decide +kernel : ∀ t : Fin grid0.N, _)

variable (V : (c : Dev nD) → (b : Ref sig .tc) → Buf (Elt Ideal) ((c : Thread nD τ).loc b))

theorem iblk0_apply (c : Dev nD) (ws : M 8192 8192) (hws : V c (Pipeline.arrRef spec0 0) = arr2 ws) (t : Fin cfg0.N)
    (p : Fin 1024) (k : Fin 4096) (hr : 1024 * (t.val / 2) + p.val < 8192) (hk : 4096 * (t.val % 2) + k.val < 8192) :
    (iblk V c 0 t : Vec Ideal S1024x4096 .f32) (ix2 p k) = ((ws ⟨1024 * (t.val / 2) + p.val, hr⟩ ⟨4096 * (t.val % 2) + k.val, hk⟩ : ℝ) : EReal) := by
  obtain ⟨e0, e1, -⟩ := idx_facts t
  show V c (Pipeline.arrRef spec0 0) (((cfg0.win 0).blk t).view.emb (ix2 p k)) = _
  rw [hws]
  refine arr2_at ws _ _ _ ?_ ?_
  · show win0_0.index t (0 : Fin 2) * 1024 + 1 * p.val = 1024 * (t.val / 2) + p.val; rw [e0]; omega
  · show win0_0.index t (1 : Fin 2) * 4096 + 1 * k.val = 4096 * (t.val % 2) + k.val; rw [e1]; omega

theorem iblk1_apply (c : Dev nD) (v : M 8192 32) (hv : V c (Pipeline.arrRef spec0 1) = arr2 v) (t : Fin cfg0.N)
    (k : Fin 8192) (q : Fin 32) :
    (iblk V c 1 t : Vec Ideal S8192x32 .f32) (ix2 k q) = ((v k q : ℝ) : EReal) := by
  obtain ⟨-, -, e0, e1, -⟩ := idx_facts t
  show V c (Pipeline.arrRef spec0 1) (((cfg0.win 1).blk t).view.emb (ix2 k q)) = _
  rw [hv]
  refine arr2_at v _ _ _ ?_ ?_
  · show win0_1.index t (0 : Fin 2) * 8192 + 1 * k.val = k.val; rw [e0]; omega
  · show win0_1.index t (1 : Fin 2) * 32 + 1 * q.val = q.val; rw [e1]; omega

/-- The rows the body loads at point `t` are rows `4096 (t mod 2) …` of the second operand. -/
theorem rows_apply {F : FTy → Type} [FloatOps F] (t : Fin cfg0.N) (x1 : Vec F S8192x32 .f32) (k : Fin 4096) (q : Fin 32)
    (hk : 4096 * (t.val % 2) + k.val < 8192) :
    rows (grid0.coords t) x1 (ix2 k q) = x1 (ix2 ⟨4096 * (t.val % 2) + k.val, hk⟩ q) := by
  obtain ⟨e0, e1⟩ := off_facts t
  show x1 ((Rect.unit (s := S8192x32) (k0_off1 (grid0.coords t)) S4096x32.size (k0_off1_inb (grid0.coords t))).idx (ix2 k q)) = _
  congr 1
  funext a
  apply Fin.ext
  match a with
  | ⟨0, _⟩ => show k0_off1 (grid0.coords t) (0 : Fin 2) + 1 * k.val = 4096 * (t.val % 2) + k.val; rw [e0]; omega
  | ⟨1, _⟩ => show k0_off1 (grid0.coords t) (1 : Fin 2) + 1 * q.val = q.val; rw [e1]; omega

/-- Two accumulation steps from the zero block: the first over the first 4096 contraction indices, the second over
    the last 4096, of rows `R …` of `ws` against `v`, leave the entries of the product `ws · v` in those rows. -/
theorem two_steps (ws : M 8192 8192) (v : M 8192 32) (R : ℕ) (hR : R + 1024 ≤ 8192)
    (xa xb : Vec Ideal S1024x4096 .f32) (ra rb : Vec Ideal S4096x32 .f32)
    (hxa : ∀ (p : Fin 1024) (k : Fin 4096), xa (ix2 p k) = ((ws ⟨R + p.val, by omega⟩ ⟨k.val, by omega⟩ : ℝ) : EReal))
    (hxb : ∀ (p : Fin 1024) (k : Fin 4096), xb (ix2 p k) = ((ws ⟨R + p.val, by omega⟩ ⟨4096 + k.val, by omega⟩ : ℝ) : EReal))
    (hra : ∀ (k : Fin 4096) (q : Fin 32), ra (ix2 k q) = ((v ⟨k.val, by omega⟩ q : ℝ) : EReal))
    (hrb : ∀ (k : Fin 4096) (q : Fin 32), rb (ix2 k q) = ((v ⟨4096 + k.val, by omega⟩ q : ℝ) : EReal))
    (p : Fin 1024) (q : Fin 32) :
    k0_pay2 (F := Ideal) xb rb (k0_pay2 (F := Ideal) xa ra (k0_pay1 (F := Ideal))) (ix2 p q)
      = (((ws * v) ⟨R + p.val, by omega⟩ q : ℝ) : EReal) := by
  rw [k0_pay2_apply, k0_pay2_apply, k0_pay1_apply]
  simp only [hxa, hxb, hra, hrb]
  exact half_sums ws v ⟨R + p.val, by omega⟩ q

end Cert.KernelIdeal.Reg0

end
-- ==== Proof.Reg0Value.lean ====
/-
  Region 0 at the extended reals, the value. Entered with the operand arrays at real matrices `ws` and `v`, the
  region's output array ends at the product `ws · v`. After the two points of a row tile the accumulator has gone
  from zero through the half-sum over the first 4096 contraction indices to the full sum, which is the product's
  entry; the second point copies it into the output block, which is then written back as rows `1024 i …` of the array;
  the eight row tiles' blocks cover the array.
-/
import proofs.«148117_j28647431864612_2_alg».proof.Proof.Reg0Reads
import proofs.«148117_j28647431864612_2_alg».proof.Proof.Reg0Pieces
import proofs.«148117_j28647431864612_2_alg».proof.Proof.Spec
import proofs.«148117_j28647431864612_2_alg».proof.Proof.LibRealLift
import proofs.«148117_j28647431864612_2_alg».proof.Proof.RegMath
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Cert.KernelIdeal.RegMath Cert.Spec Cert.Lift
open Idealize.ShloMosaic Idealize.ShloMosaic.TcCoe Idealize.ShloMosaic.ValueIdx
open Idealize.SL Idealize.SL.Sem
open Idealize.ShloMosaic.Pipeline (Dat Cfg Window)

theorem fst_of_eq {α β : Type} {p : α × β} {a : α} {b : β} (h : p = (a, b)) : p.1 = a := by rw [h]
theorem snd_of_eq {α β : Type} {p : α × β} {a : α} {b : β} (h : p = (a, b)) : p.2 = b := by rw [h]

/-- Equal coordinates give equal entries. -/
theorem coe_congr {a b : ℕ} (A : Matrix (Fin a) (Fin b) ℝ) {r r' : Fin a} {s s' : Fin b} (hr : r.val = r'.val) (hs : s.val = s'.val) :
    ((A r s : ℝ) : EReal) = ((A r' s' : ℝ) : EReal) := by rw [Fin.ext hr, Fin.ext hs]

/-- After a point with j = 1 the output block's buffer holds the accumulator's new value: what the point before
    left plus this point's product. -/
theorem outsAt_odd_fst (V : (c : Dev nD) → (b : Ref sig .tc) → Buf (Elt Ideal) ((c : Thread nD τ).loc b)) (c : Dev nD) (t : Fin cfg0.N) (h1 : t.val % 2 = 1) (h0 : ¬ t.val % 2 = 0) (ht' : t.val - 1 < cfg0.N) :
    (outsAt V c t.val t.isLt).1 = k0_pay2 (F := Ideal) (iblk V c 0 t) (rows (grid0.coords t) (iblk V c 1 t)) (outsAt V c (t.val - 1) ht').2 :=
  (fst_of_eq (outsAt_C V c t h0 h1)).trans (out_C_2_eq _ _ _ _ _ _ _ _ _ _ _ _ _ _ _)

/-- After a point with j = 0 the accumulator holds this point's product over zero. -/
theorem outsAt_even_snd (V : (c : Dev nD) → (b : Ref sig .tc) → Buf (Elt Ideal) ((c : Thread nD τ).loc b)) (c : Dev nD) (n : ℕ) (hn : n < cfg0.N) (h0 : n % 2 = 0) :
    (outsAt V c n hn).2 = k0_pay2 (F := Ideal) (iblk V c 0 ⟨n, hn⟩) (rows (grid0.coords ⟨n, hn⟩) (iblk V c 1 ⟨n, hn⟩)) (k0_pay1 (F := Ideal)) :=
  (snd_of_eq (outsAt_A V c ⟨n, hn⟩ h0)).trans (sout_A_eq _ _ _ _ _ _ _ _ _ _ _ _ _ _)

/-- After a point with j = 1 the output block's buffer holds rows `1024 ⌊t/2⌋ …` of the product `ws · v`. -/
theorem out_odd (V : (c : Dev nD) → (b : Ref sig .tc) → Buf (Elt Ideal) ((c : Thread nD τ).loc b)) (c : Dev nD) (ws : M 8192 8192) (v : M 8192 32)
    (hws : V c (Pipeline.arrRef spec0 0) = arr2 ws) (hv : V c (Pipeline.arrRef spec0 1) = arr2 v)
    (t : Fin cfg0.N) (h1 : t.val % 2 = 1) (p : Fin 1024) (q : Fin 32) (hy : 1024 * (t.val / 2) + p.val < 8192) :
    (outsAt V c t.val t.isLt).1 (ix2 p q) = (((ws * v) ⟨1024 * (t.val / 2) + p.val, hy⟩ q : ℝ) : EReal) := by
  have hN : t.val < 16 := lt_of_lt_of_eq t.isLt N_0
  have h0 : ¬ t.val % 2 = 0 := by omega
  have ht' : t.val - 1 < cfg0.N := Nat.lt_of_le_of_lt (Nat.sub_le _ _) t.isLt
  rw [outsAt_odd_fst V c t h1 h0 ht', outsAt_even_snd V c (t.val - 1) ht' (by omega)]
  refine two_steps ws v (1024 * (t.val / 2)) (by omega) (iblk V c 0 ⟨t.val - 1, ht'⟩) (iblk V c 0 t)
    (rows (grid0.coords ⟨t.val - 1, ht'⟩) (iblk V c 1 ⟨t.val - 1, ht'⟩)) (rows (grid0.coords t) (iblk V c 1 t)) ?_ ?_ ?_ ?_ p q
  · intro p k
    exact (iblk0_apply V c ws hws ⟨t.val - 1, ht'⟩ p k (by show 1024 * ((t.val - 1) / 2) + p.val < 8192; omega) (by show 4096 * ((t.val - 1) % 2) + k.val < 8192; omega)).trans
      (coe_congr ws (by show 1024 * ((t.val - 1) / 2) + p.val = 1024 * (t.val / 2) + p.val; omega) (by show 4096 * ((t.val - 1) % 2) + k.val = k.val; omega))
  · intro p k
    exact (iblk0_apply V c ws hws t p k (by omega) (by omega)).trans
      (coe_congr ws rfl (by show 4096 * (t.val % 2) + k.val = 4096 + k.val; omega))
  · intro k q
    exact (rows_apply ⟨t.val - 1, ht'⟩ (iblk V c 1 ⟨t.val - 1, ht'⟩) k q (by show 4096 * ((t.val - 1) % 2) + k.val < 8192; omega)).trans
      ((iblk1_apply V c v hv ⟨t.val - 1, ht'⟩ _ q).trans (coe_congr v (by show 4096 * ((t.val - 1) % 2) + k.val = k.val; omega) rfl))
  · intro k q
    exact (rows_apply t (iblk V c 1 t) k q (by omega)).trans
      ((iblk1_apply V c v hv t _ q).trans (coe_congr v (by show 4096 * (t.val % 2) + k.val = 4096 + k.val; omega) rfl))

/-- What a point with j = 1 writes back is its block of the product `ws · v`. -/
theorem flushed_eq (V : (c : Dev nD) → (b : Ref sig .tc) → Buf (Elt Ideal) ((c : Thread nD τ).loc b)) (c : Dev nD) (ws : M 8192 8192) (v : M 8192 32)
    (hws : V c (Pipeline.arrRef spec0 0) = arr2 ws) (hv : V c (Pipeline.arrRef spec0 1) = arr2 v)
    (t : Fin cfg0.N) (hf : (cfg0.win 2).flush t = true) :
    (dat V c).flushed 2 t = ((cfg0.win 2).blk t).view.read (Elt Ideal) (arr2 (ws * v)) := by
  have h1 : t.val % 2 = 1 := (flush0_2 t).mp hf
  have hN : t.val < 16 := lt_of_lt_of_eq t.isLt N_0
  obtain ⟨-, -, -, -, e0, e1⟩ := idx_facts t
  show (cfg0.win 2).cut (grid0.coords t) ((dat V c).after 2 t) = _
  rw [after_2]
  funext j
  obtain ⟨p, q, rfl⟩ : ∃ (p : Fin 1024) (q : Fin 32), j = ix2 p q := ⟨j 0, j 1, eq_ix2 j⟩
  show (outsAt V c t.val t.isLt).1 (ix2 p q) = arr2 (ws * v) (((cfg0.win 2).blk t).view.emb (ix2 p q))
  rw [out_odd V c ws v hws hv t h1 p q (by omega)]
  refine (arr2_at (ws * v) _ _ _ ?_ ?_).symm
  · show win0_2.index t (0 : Fin 2) * 1024 + 1 * p.val = 1024 * (t.val / 2) + p.val; rw [e0]; omega
  · show win0_2.index t (1 : Fin 2) * 32 + 1 * q.val = q.val; rw [e1]; omega

/-- Every row of the output array is in the block of the j = 1 point of its row tile. -/
theorem cover (i : S8192x32.Idx) :
    ∃ t : Fin cfg0.N, (cfg0.win 2).flush t = true ∧ i ∈ ((cfg0.win 2).blk t).view.set := by
  have hi0 : (i 0).val < 8192 := idx2_lt0 i
  have hi1 : (i 1).val < 32 := idx2_lt1 i
  have hN : cfg0.N = 16 := N_0
  have ht : 2 * ((i 0).val / 1024) + 1 < cfg0.N := by omega
  obtain ⟨-, -, -, -, e0, e1⟩ := idx_facts ⟨2 * ((i 0).val / 1024) + 1, ht⟩
  refine ⟨⟨2 * ((i 0).val / 1024) + 1, ht⟩, (flush0_2 _).mpr (by show (2 * ((i 0).val / 1024) + 1) % 2 = 1; omega), ?_⟩
  show i ∈ ((View.whole main_v0).slice (win0_2.rect ⟨2 * ((i 0).val / 1024) + 1, ht⟩)).set
  rw [View.set_slice_whole, Rect.mem_set_unit]
  intro a
  match a with
  | ⟨0, _⟩ =>
    show win0_2.index ⟨2 * ((i 0).val / 1024) + 1, ht⟩ (0 : Fin 2) * 1024 ≤ (i 0).val ∧ (i 0).val < win0_2.index ⟨2 * ((i 0).val / 1024) + 1, ht⟩ (0 : Fin 2) * 1024 + 1024
    rw [e0]; show (2 * ((i 0).val / 1024) + 1) / 2 * 1024 ≤ (i 0).val ∧ (i 0).val < (2 * ((i 0).val / 1024) + 1) / 2 * 1024 + 1024; omega
  | ⟨1, _⟩ =>
    show win0_2.index ⟨2 * ((i 0).val / 1024) + 1, ht⟩ (1 : Fin 2) * 32 ≤ (i 1).val ∧ (i 1).val < win0_2.index ⟨2 * ((i 0).val / 1024) + 1, ht⟩ (1 : Fin 2) * 32 + 32
    rw [e1]; omega

/-- The region's output array, entered with the operand arrays at real matrices `ws` and `v`, ends at the product
    `ws · v`: every row tile's block is written back once, after its second point, holding that tile's rows. -/
theorem arrAt_real (V : (c : Dev nD) → (b : Ref sig .tc) → Buf (Elt Ideal) ((c : Thread nD τ).loc b)) (c : Dev nD) (ws : M 8192 8192) (v : M 8192 32)
    (hws : V c (Pipeline.arrRef spec0 0) = arr2 ws) (hv : V c (Pipeline.arrRef spec0 1) = arr2 v) :
    (dat V c).arrAt 2 cfg0.N = arr2 (ws * v) :=
  (dat V c).arrAt_eq_of_cover 2 (arr2 (ws * v)) (flushed_eq V c ws v hws hv) cover

end Cert.KernelIdeal.Reg0

end
-- ==== Proof.Reg1Pieces.lean ====
/-
  Region 1, the values the body leaves, generic in the float instance. At a point with j = 0 the accumulator is
  left at the product of the block of the first operand with the loaded rows of the second, added to the zero block;
  at a point with j = 1 it is left at that product added to what it held on entry, and the output block's buffer
  receives the same value.
-/
import proofs.«148117_j28647431864612_2_alg».proof.Proof.Reg1
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- The rows of the second operand the body loads at a point: 4096 rows starting at row `4096 j`. -/
abbrev rows (i : grid1.Coords) (x1 : Vec F S8192x32 .f32) : Vec F S4096x32 .f32 :=
  View.ld x1 (Rect.unit (s := S8192x32) (k1_off1 i) S4096x32.size (k1_off1_inb i))

/-- At j = 0 the accumulator is left at the zero block plus the product of the block of the first operand with the
    loaded rows of the second: the zero block is stored, read back, and the sum stored over it. -/
theorem sout_A_eq (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    sout_A c i arg2 harg2 arg3 harg3 arg4 harg4 arg5 harg5 hc0 hc1 x0 x1 = k1_pay2 x0 (rows i x1) k1_pay1 := by
  unfold sout_A
  rw [View.read_writes_eq_canon _ _ _ (scover_A c i arg2 harg2 arg3 harg3 arg4 harg4 arg5 harg5 hc0 hc1 x0 x1)]
  unfold kernelRun_A
  dsimp only
  sl_unfold_words
  rw [View.canon_cons_unit_zero (S := S1024x32) hz, View.readCov_unit_zero (S := S1024x32) _ hz]
  simp only [View.readAt_eq_ld, harg2.read_unread, harg3.read_unread, View.ld_unit_zero (S := S1024x4096) hz]
  rfl

/-- At j = 1 the accumulator, entered at `xs0`, is left at `xs0` plus the product of the block of the first operand
    with the loaded rows of the second. -/
theorem sout_C_eq (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    sout_C c i arg2 harg2 arg3 harg3 arg4 harg4 arg5 harg5 hc0 hc1 x0 x1 xs0 = k1_pay2 x0 (rows i x1) xs0 := by
  unfold sout_C
  rw [View.read_writes_eq_canon _ _ _ (scover_C c i arg2 harg2 arg3 harg3 arg4 harg4 arg5 harg5 hc0 hc1 x0 x1 xs0)]
  unfold kernelRun_C
  dsimp only
  sl_unfold_words
  rw [View.canon_unit_zero (S := S1024x32) hz]
  simp only [View.readAt_eq_ld, harg2.read_unread, harg3.read_unread, harg5.read_unread,
    View.ld_unit_zero (S := S1024x4096) hz, View.ld_unit_zero (S := S1024x32) hz]
  rfl

/-- At j = 1 the output block's buffer receives the accumulator's new value: the accumulator is read back after its
    store and copied. -/
theorem out_C_2_eq (c : Dev nD) (i : grid1.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    out_C_2 c i arg2 harg2 arg3 harg3 arg4 harg4 arg5 harg5 hc0 hc1 x0 x1 xs0 = k1_pay2 x0 (rows i x1) xs0 := by
  unfold out_C_2
  rw [View.read_writes_eq_canon _ _ _ (cover_C_2 c i arg2 harg2 arg3 harg3 arg4 harg4 arg5 harg5 hc0 hc1 x0 x1 xs0)]
  unfold kernelRun_C
  dsimp only
  sl_unfold_words
  rw [View.canon_unit_zero (S := S1024x32) hz, View.readCov_unit_zero (S := S1024x32) _ hz]
  simp only [View.readAt_eq_ld, harg2.read_unread, harg3.read_unread, harg5.read_unread,
    View.ld_unit_zero (S := S1024x4096) hz, View.ld_unit_zero (S := S1024x32) hz]
  rfl

end Cert.KernelIdeal.Reg1

end
-- ==== Proof.Reg1Reads.lean ====
/-
  Region 1 at the extended reals, the reads at a point. When the two operand arrays hold real matrices `ws` and `v`,
  the block of `ws` at point `t` read at `(p, k)` is the entry `(1024 ⌊t/2⌋ + p, 4096 (t mod 2) + k)` of `ws`, the one
  block of `v` read at `(k, q)` is the entry `(k, q)` of `v`, and the rows the body loads are rows `4096 (t mod 2) …`.
  Two accumulation steps from zero over the two halves of the contraction leave the entries of the product `ws · v`.
-/
import proofs.«148117_j28647431864612_2_alg».proof.Proof.Reg1Pieces
import proofs.«148117_j28647431864612_2_alg».proof.Proof.Spec
import proofs.«148117_j28647431864612_2_alg».proof.Proof.LibRealLift
import proofs.«148117_j28647431864612_2_alg».proof.Proof.RegMath
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen Cert.KernelIdeal.RegMath Cert.Spec Cert.Lift
open Idealize.ShloMosaic Idealize.ShloMosaic.TcCoe Idealize.ShloMosaic.ValueIdx
open Idealize.SL Idealize.SL.Sem
open Idealize.ShloMosaic.Pipeline (Dat Cfg Window)

/-- An array of reals read at an index whose coordinates are known. -/
theorem arr2_at {a b : ℕ} (A : Matrix (Fin a) (Fin b) ℝ) (i : (⟨2, ![a, b]⟩ : Shape).Idx) (r : Fin a) (s : Fin b)
    (h0 : (i 0).val = r.val) (h1 : (i 1).val = s.val) : arr2 A i = ((A r s : ℝ) : EReal) := by
  rw [arr2_apply]
  exact congrArg₂ (fun u v => ((A u v : ℝ) : EReal)) (Fin.ext h0) (Fin.ext h1)

theorem idx_facts : ∀ t : Fin cfg1.N, win1_0.index t (0 : Fin 2) = t.val / 2 ∧ win1_0.index t (1 : Fin 2) = t.val % 2
    ∧ win1_1.index t (0 : Fin 2) = 0 ∧ win1_1.index t (1 : Fin 2) = 0
    ∧ win1_2.index t (0 : Fin 2) = t.val / 2 ∧ win1_2.index t (1 : Fin 2) = 0 :=
  (by decide +kernel : ∀ t : Fin grid1.N, _)

theorem off_facts : ∀ t : Fin cfg1.N, k1_off1 (grid1.coords t) (0 : Fin 2) = 4096 * (t.val % 2) ∧ k1_off1 (grid1.coords t) (1 : Fin 2) = 0 :=
  (by decide +kernel : ∀ t : Fin grid1.N, _)

variable (V : (c : Dev nD) → (b : Ref sig .tc) → Buf (Elt Ideal) ((c : Thread nD τ).loc b))

theorem iblk0_apply (c : Dev nD) (ws : M 8192 8192) (hws : V c (Pipeline.arrRef spec1 0) = arr2 ws) (t : Fin cfg1.N)
    (p : Fin 1024) (k : Fin 4096) (hr : 1024 * (t.val / 2) + p.val < 8192) (hk : 4096 * (t.val % 2) + k.val < 8192) :
    (iblk V c 0 t : Vec Ideal S1024x4096 .f32) (ix2 p k) = ((ws ⟨1024 * (t.val / 2) + p.val, hr⟩ ⟨4096 * (t.val % 2) + k.val, hk⟩ : ℝ) : EReal) := by
  obtain ⟨e0, e1, -⟩ := idx_facts t
  show V c (Pipeline.arrRef spec1 0) (((cfg1.win 0).blk t).view.emb (ix2 p k)) = _
  rw [hws]
  refine arr2_at ws _ _ _ ?_ ?_
  · show win1_0.index t (0 : Fin 2) * 1024 + 1 * p.val = 1024 * (t.val / 2) + p.val; rw [e0]; omega
  · show win1_0.index t (1 : Fin 2) * 4096 + 1 * k.val = 4096 * (t.val % 2) + k.val; rw [e1]; omega

theorem iblk1_apply (c : Dev nD) (v : M 8192 32) (hv : V c (Pipeline.arrRef spec1 1) = arr2 v) (t : Fin cfg1.N)
    (k : Fin 8192) (q : Fin 32) :
    (iblk V c 1 t : Vec Ideal S8192x32 .f32) (ix2 k q) = ((v k q : ℝ) : EReal) := by
  obtain ⟨-, -, e0, e1, -⟩ := idx_facts t
  show V c (Pipeline.arrRef spec1 1) (((cfg1.win 1).blk t).view.emb (ix2 k q)) = _
  rw [hv]
  refine arr2_at v _ _ _ ?_ ?_
  · show win1_1.index t (0 : Fin 2) * 8192 + 1 * k.val = k.val; rw [e0]; omega
  · show win1_1.index t (1 : Fin 2) * 32 + 1 * q.val = q.val; rw [e1]; omega

/-- The rows the body loads at point `t` are rows `4096 (t mod 2) …` of the second operand. -/
theorem rows_apply {F : FTy → Type} [FloatOps F] (t : Fin cfg1.N) (x1 : Vec F S8192x32 .f32) (k : Fin 4096) (q : Fin 32)
    (hk : 4096 * (t.val % 2) + k.val < 8192) :
    rows (grid1.coords t) x1 (ix2 k q) = x1 (ix2 ⟨4096 * (t.val % 2) + k.val, hk⟩ q) := by
  obtain ⟨e0, e1⟩ := off_facts t
  show x1 ((Rect.unit (s := S8192x32) (k1_off1 (grid1.coords t)) S4096x32.size (k1_off1_inb (grid1.coords t))).idx (ix2 k q)) = _
  congr 1
  funext a
  apply Fin.ext
  match a with
  | ⟨0, _⟩ => show k1_off1 (grid1.coords t) (0 : Fin 2) + 1 * k.val = 4096 * (t.val % 2) + k.val; rw [e0]; omega
  | ⟨1, _⟩ => show k1_off1 (grid1.coords t) (1 : Fin 2) + 1 * q.val = q.val; rw [e1]; omega

/-- Two accumulation steps from the zero block: the first over the first 4096 contraction indices, the second over
    the last 4096, of rows `R …` of `ws` against `v`, leave the entries of the product `ws · v` in those rows. -/
theorem two_steps (ws : M 8192 8192) (v : M 8192 32) (R : ℕ) (hR : R + 1024 ≤ 8192)
    (xa xb : Vec Ideal S1024x4096 .f32) (ra rb : Vec Ideal S4096x32 .f32)
    (hxa : ∀ (p : Fin 1024) (k : Fin 4096), xa (ix2 p k) = ((ws ⟨R + p.val, by omega⟩ ⟨k.val, by omega⟩ : ℝ) : EReal))
    (hxb : ∀ (p : Fin 1024) (k : Fin 4096), xb (ix2 p k) = ((ws ⟨R + p.val, by omega⟩ ⟨4096 + k.val, by omega⟩ : ℝ) : EReal))
    (hra : ∀ (k : Fin 4096) (q : Fin 32), ra (ix2 k q) = ((v ⟨k.val, by omega⟩ q : ℝ) : EReal))
    (hrb : ∀ (k : Fin 4096) (q : Fin 32), rb (ix2 k q) = ((v ⟨4096 + k.val, by omega⟩ q : ℝ) : EReal))
    (p : Fin 1024) (q : Fin 32) :
    k1_pay2 (F := Ideal) xb rb (k1_pay2 (F := Ideal) xa ra (k1_pay1 (F := Ideal))) (ix2 p q)
      = (((ws * v) ⟨R + p.val, by omega⟩ q : ℝ) : EReal) := by
  rw [k1_pay2_apply, k1_pay2_apply, k1_pay1_apply]
  simp only [hxa, hxb, hra, hrb]
  exact half_sums ws v ⟨R + p.val, by omega⟩ q

end Cert.KernelIdeal.Reg1

end
-- ==== Proof.Reg1Value.lean ====
/-
  Region 1 at the extended reals, the value. Entered with the operand arrays at real matrices `ws` and `v`, the
  region's output array ends at the product `ws · v`. After the two points of a row tile the accumulator has gone
  from zero through the half-sum over the first 4096 contraction indices to the full sum, which is the product's
  entry; the second point copies it into the output block, which is then written back as rows `1024 i …` of the array;
  the eight row tiles' blocks cover the array.
-/
import proofs.«148117_j28647431864612_2_alg».proof.Proof.Reg1Reads
import proofs.«148117_j28647431864612_2_alg».proof.Proof.Reg1Pieces
import proofs.«148117_j28647431864612_2_alg».proof.Proof.Spec
import proofs.«148117_j28647431864612_2_alg».proof.Proof.LibRealLift
import proofs.«148117_j28647431864612_2_alg».proof.Proof.RegMath
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen Cert.KernelIdeal.RegMath Cert.Spec Cert.Lift
open Idealize.ShloMosaic Idealize.ShloMosaic.TcCoe Idealize.ShloMosaic.ValueIdx
open Idealize.SL Idealize.SL.Sem
open Idealize.ShloMosaic.Pipeline (Dat Cfg Window)

theorem fst_of_eq {α β : Type} {p : α × β} {a : α} {b : β} (h : p = (a, b)) : p.1 = a := by rw [h]
theorem snd_of_eq {α β : Type} {p : α × β} {a : α} {b : β} (h : p = (a, b)) : p.2 = b := by rw [h]

/-- Equal coordinates give equal entries. -/
theorem coe_congr {a b : ℕ} (A : Matrix (Fin a) (Fin b) ℝ) {r r' : Fin a} {s s' : Fin b} (hr : r.val = r'.val) (hs : s.val = s'.val) :
    ((A r s : ℝ) : EReal) = ((A r' s' : ℝ) : EReal) := by rw [Fin.ext hr, Fin.ext hs]

/-- After a point with j = 1 the output block's buffer holds the accumulator's new value: what the point before
    left plus this point's product. -/
theorem outsAt_odd_fst (V : (c : Dev nD) → (b : Ref sig .tc) → Buf (Elt Ideal) ((c : Thread nD τ).loc b)) (c : Dev nD) (t : Fin cfg1.N) (h1 : t.val % 2 = 1) (h0 : ¬ t.val % 2 = 0) (ht' : t.val - 1 < cfg1.N) :
    (outsAt V c t.val t.isLt).1 = k1_pay2 (F := Ideal) (iblk V c 0 t) (rows (grid1.coords t) (iblk V c 1 t)) (outsAt V c (t.val - 1) ht').2 :=
  (fst_of_eq (outsAt_C V c t h0 h1)).trans (out_C_2_eq _ _ _ _ _ _ _ _ _ _ _ _ _ _ _)

/-- After a point with j = 0 the accumulator holds this point's product over zero. -/
theorem outsAt_even_snd (V : (c : Dev nD) → (b : Ref sig .tc) → Buf (Elt Ideal) ((c : Thread nD τ).loc b)) (c : Dev nD) (n : ℕ) (hn : n < cfg1.N) (h0 : n % 2 = 0) :
    (outsAt V c n hn).2 = k1_pay2 (F := Ideal) (iblk V c 0 ⟨n, hn⟩) (rows (grid1.coords ⟨n, hn⟩) (iblk V c 1 ⟨n, hn⟩)) (k1_pay1 (F := Ideal)) :=
  (snd_of_eq (outsAt_A V c ⟨n, hn⟩ h0)).trans (sout_A_eq _ _ _ _ _ _ _ _ _ _ _ _ _ _)

/-- After a point with j = 1 the output block's buffer holds rows `1024 ⌊t/2⌋ …` of the product `ws · v`. -/
theorem out_odd (V : (c : Dev nD) → (b : Ref sig .tc) → Buf (Elt Ideal) ((c : Thread nD τ).loc b)) (c : Dev nD) (ws : M 8192 8192) (v : M 8192 32)
    (hws : V c (Pipeline.arrRef spec1 0) = arr2 ws) (hv : V c (Pipeline.arrRef spec1 1) = arr2 v)
    (t : Fin cfg1.N) (h1 : t.val % 2 = 1) (p : Fin 1024) (q : Fin 32) (hy : 1024 * (t.val / 2) + p.val < 8192) :
    (outsAt V c t.val t.isLt).1 (ix2 p q) = (((ws * v) ⟨1024 * (t.val / 2) + p.val, hy⟩ q : ℝ) : EReal) := by
  have hN : t.val < 16 := lt_of_lt_of_eq t.isLt N_1
  have h0 : ¬ t.val % 2 = 0 := by omega
  have ht' : t.val - 1 < cfg1.N := Nat.lt_of_le_of_lt (Nat.sub_le _ _) t.isLt
  rw [outsAt_odd_fst V c t h1 h0 ht', outsAt_even_snd V c (t.val - 1) ht' (by omega)]
  refine two_steps ws v (1024 * (t.val / 2)) (by omega) (iblk V c 0 ⟨t.val - 1, ht'⟩) (iblk V c 0 t)
    (rows (grid1.coords ⟨t.val - 1, ht'⟩) (iblk V c 1 ⟨t.val - 1, ht'⟩)) (rows (grid1.coords t) (iblk V c 1 t)) ?_ ?_ ?_ ?_ p q
  · intro p k
    exact (iblk0_apply V c ws hws ⟨t.val - 1, ht'⟩ p k (by show 1024 * ((t.val - 1) / 2) + p.val < 8192; omega) (by show 4096 * ((t.val - 1) % 2) + k.val < 8192; omega)).trans
      (coe_congr ws (by show 1024 * ((t.val - 1) / 2) + p.val = 1024 * (t.val / 2) + p.val; omega) (by show 4096 * ((t.val - 1) % 2) + k.val = k.val; omega))
  · intro p k
    exact (iblk0_apply V c ws hws t p k (by omega) (by omega)).trans
      (coe_congr ws rfl (by show 4096 * (t.val % 2) + k.val = 4096 + k.val; omega))
  · intro k q
    exact (rows_apply ⟨t.val - 1, ht'⟩ (iblk V c 1 ⟨t.val - 1, ht'⟩) k q (by show 4096 * ((t.val - 1) % 2) + k.val < 8192; omega)).trans
      ((iblk1_apply V c v hv ⟨t.val - 1, ht'⟩ _ q).trans (coe_congr v (by show 4096 * ((t.val - 1) % 2) + k.val = k.val; omega) rfl))
  · intro k q
    exact (rows_apply t (iblk V c 1 t) k q (by omega)).trans
      ((iblk1_apply V c v hv t _ q).trans (coe_congr v (by show 4096 * (t.val % 2) + k.val = 4096 + k.val; omega) rfl))

/-- What a point with j = 1 writes back is its block of the product `ws · v`. -/
theorem flushed_eq (V : (c : Dev nD) → (b : Ref sig .tc) → Buf (Elt Ideal) ((c : Thread nD τ).loc b)) (c : Dev nD) (ws : M 8192 8192) (v : M 8192 32)
    (hws : V c (Pipeline.arrRef spec1 0) = arr2 ws) (hv : V c (Pipeline.arrRef spec1 1) = arr2 v)
    (t : Fin cfg1.N) (hf : (cfg1.win 2).flush t = true) :
    (dat V c).flushed 2 t = ((cfg1.win 2).blk t).view.read (Elt Ideal) (arr2 (ws * v)) := by
  have h1 : t.val % 2 = 1 := (flush1_2 t).mp hf
  have hN : t.val < 16 := lt_of_lt_of_eq t.isLt N_1
  obtain ⟨-, -, -, -, e0, e1⟩ := idx_facts t
  show (cfg1.win 2).cut (grid1.coords t) ((dat V c).after 2 t) = _
  rw [after_2]
  funext j
  obtain ⟨p, q, rfl⟩ : ∃ (p : Fin 1024) (q : Fin 32), j = ix2 p q := ⟨j 0, j 1, eq_ix2 j⟩
  show (outsAt V c t.val t.isLt).1 (ix2 p q) = arr2 (ws * v) (((cfg1.win 2).blk t).view.emb (ix2 p q))
  rw [out_odd V c ws v hws hv t h1 p q (by omega)]
  refine (arr2_at (ws * v) _ _ _ ?_ ?_).symm
  · show win1_2.index t (0 : Fin 2) * 1024 + 1 * p.val = 1024 * (t.val / 2) + p.val; rw [e0]; omega
  · show win1_2.index t (1 : Fin 2) * 32 + 1 * q.val = q.val; rw [e1]; omega

/-- Every row of the output array is in the block of the j = 1 point of its row tile. -/
theorem cover (i : S8192x32.Idx) :
    ∃ t : Fin cfg1.N, (cfg1.win 2).flush t = true ∧ i ∈ ((cfg1.win 2).blk t).view.set := by
  have hi0 : (i 0).val < 8192 := idx2_lt0 i
  have hi1 : (i 1).val < 32 := idx2_lt1 i
  have hN : cfg1.N = 16 := N_1
  have ht : 2 * ((i 0).val / 1024) + 1 < cfg1.N := by omega
  obtain ⟨-, -, -, -, e0, e1⟩ := idx_facts ⟨2 * ((i 0).val / 1024) + 1, ht⟩
  refine ⟨⟨2 * ((i 0).val / 1024) + 1, ht⟩, (flush1_2 _).mpr (by show (2 * ((i 0).val / 1024) + 1) % 2 = 1; omega), ?_⟩
  show i ∈ ((View.whole main_v8).slice (win1_2.rect ⟨2 * ((i 0).val / 1024) + 1, ht⟩)).set
  rw [View.set_slice_whole, Rect.mem_set_unit]
  intro a
  match a with
  | ⟨0, _⟩ =>
    show win1_2.index ⟨2 * ((i 0).val / 1024) + 1, ht⟩ (0 : Fin 2) * 1024 ≤ (i 0).val ∧ (i 0).val < win1_2.index ⟨2 * ((i 0).val / 1024) + 1, ht⟩ (0 : Fin 2) * 1024 + 1024
    rw [e0]; show (2 * ((i 0).val / 1024) + 1) / 2 * 1024 ≤ (i 0).val ∧ (i 0).val < (2 * ((i 0).val / 1024) + 1) / 2 * 1024 + 1024; omega
  | ⟨1, _⟩ =>
    show win1_2.index ⟨2 * ((i 0).val / 1024) + 1, ht⟩ (1 : Fin 2) * 32 ≤ (i 1).val ∧ (i 1).val < win1_2.index ⟨2 * ((i 0).val / 1024) + 1, ht⟩ (1 : Fin 2) * 32 + 32
    rw [e1]; omega

/-- The region's output array, entered with the operand arrays at real matrices `ws` and `v`, ends at the product
    `ws · v`: every row tile's block is written back once, after its second point, holding that tile's rows. -/
theorem arrAt_real (V : (c : Dev nD) → (b : Ref sig .tc) → Buf (Elt Ideal) ((c : Thread nD τ).loc b)) (c : Dev nD) (ws : M 8192 8192) (v : M 8192 32)
    (hws : V c (Pipeline.arrRef spec1 0) = arr2 ws) (hv : V c (Pipeline.arrRef spec1 1) = arr2 v) :
    (dat V c).arrAt 2 cfg1.N = arr2 (ws * v) :=
  (dat V c).arrAt_eq_of_cover 2 (arr2 (ws * v)) (flushed_eq V c ws v hws hv) cover

end Cert.KernelIdeal.Reg1

end
-- ==== Proof.Reg2Pieces.lean ====
/-
  Region 2, the values the body leaves, generic in the float instance. At a point with j = 0 the accumulator is
  left at the product of the block of the first operand with the loaded rows of the second, added to the zero block;
  at a point with j = 1 it is left at that product added to what it held on entry, and the output block's buffer
  receives the same value.
-/
import proofs.«148117_j28647431864612_2_alg».proof.Proof.Reg2
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- The rows of the second operand the body loads at a point: 4096 rows starting at row `4096 j`. -/
abbrev rows (i : grid2.Coords) (x1 : Vec F S8192x32 .f32) : Vec F S4096x32 .f32 :=
  View.ld x1 (Rect.unit (s := S8192x32) (k2_off1 i) S4096x32.size (k2_off1_inb i))

/-- At j = 0 the accumulator is left at the zero block plus the product of the block of the first operand with the
    loaded rows of the second: the zero block is stored, read back, and the sum stored over it. -/
theorem sout_A_eq (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : cond_0 i) (hc1 : ¬cond_1 i)
    (x0 : Vec F S1024x4096 .f32) (x1 : Vec F S8192x32 .f32) :
    sout_A c i arg2 harg2 arg3 harg3 arg4 harg4 arg5 harg5 hc0 hc1 x0 x1 = k2_pay2 x0 (rows i x1) k2_pay1 := by
  unfold sout_A
  rw [View.read_writes_eq_canon _ _ _ (scover_A c i arg2 harg2 arg3 harg3 arg4 harg4 arg5 harg5 hc0 hc1 x0 x1)]
  unfold kernelRun_A
  dsimp only
  sl_unfold_words
  rw [View.canon_cons_unit_zero (S := S1024x32) hz, View.readCov_unit_zero (S := S1024x32) _ hz]
  simp only [View.readAt_eq_ld, harg2.read_unread, harg3.read_unread, View.ld_unit_zero (S := S1024x4096) hz]
  rfl

/-- At j = 1 the accumulator, entered at `xs0`, is left at `xs0` plus the product of the block of the first operand
    with the loaded rows of the second. -/
theorem sout_C_eq (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    sout_C c i arg2 harg2 arg3 harg3 arg4 harg4 arg5 harg5 hc0 hc1 x0 x1 xs0 = k2_pay2 x0 (rows i x1) xs0 := by
  unfold sout_C
  rw [View.read_writes_eq_canon _ _ _ (scover_C c i arg2 harg2 arg3 harg3 arg4 harg4 arg5 harg5 hc0 hc1 x0 x1 xs0)]
  unfold kernelRun_C
  dsimp only
  sl_unfold_words
  rw [View.canon_unit_zero (S := S1024x32) hz]
  simp only [View.readAt_eq_ld, harg2.read_unread, harg3.read_unread, harg5.read_unread,
    View.ld_unit_zero (S := S1024x4096) hz, View.ld_unit_zero (S := S1024x32) hz]
  rfl

/-- At j = 1 the output block's buffer receives the accumulator's new value: the accumulator is read back after its
    store and copied. -/
theorem out_C_2_eq (c : Dev nD) (i : grid2.Coords) (arg2 : Memref sig .tc .vmem S1024x4096 .f32) (harg2 : arg2.IsWhole) (arg3 : Memref sig .tc .vmem S8192x32 .f32) (harg3 : arg3.IsWhole) (arg4 : Memref sig .tc .vmem S1024x32 .f32) (harg4 : arg4.IsWhole) (arg5 : Memref sig .tc .vmem S1024x32 .f32) (harg5 : arg5.IsWhole) (hc0 : ¬cond_0 i) (hc1 : cond_1 i)
    (x0 : Vec F S1024x4096 .f32) (x1 : Vec F S8192x32 .f32) (xs0 : Vec F S1024x32 .f32) :
    out_C_2 c i arg2 harg2 arg3 harg3 arg4 harg4 arg5 harg5 hc0 hc1 x0 x1 xs0 = k2_pay2 x0 (rows i x1) xs0 := by
  unfold out_C_2
  rw [View.read_writes_eq_canon _ _ _ (cover_C_2 c i arg2 harg2 arg3 harg3 arg4 harg4 arg5 harg5 hc0 hc1 x0 x1 xs0)]
  unfold kernelRun_C
  dsimp only
  sl_unfold_words
  rw [View.canon_unit_zero (S := S1024x32) hz, View.readCov_unit_zero (S := S1024x32) _ hz]
  simp only [View.readAt_eq_ld, harg2.read_unread, harg3.read_unread, harg5.read_unread,
    View.ld_unit_zero (S := S1024x4096) hz, View.ld_unit_zero (S := S1024x32) hz]
  rfl

end Cert.KernelIdeal.Reg2

end
-- ==== Proof.Reg2Reads.lean ====
/-
  Region 2 at the extended reals, the reads at a point. When the two operand arrays hold real matrices `ws` and `v`,
  the block of `ws` at point `t` read at `(p, k)` is the entry `(1024 ⌊t/2⌋ + p, 4096 (t mod 2) + k)` of `ws`, the one
  block of `v` read at `(k, q)` is the entry `(k, q)` of `v`, and the rows the body loads are rows `4096 (t mod 2) …`.
  Two accumulation steps from zero over the two halves of the contraction leave the entries of the product `ws · v`.
-/
import proofs.«148117_j28647431864612_2_alg».proof.Proof.Reg2Pieces
import proofs.«148117_j28647431864612_2_alg».proof.Proof.Spec
import proofs.«148117_j28647431864612_2_alg».proof.Proof.LibRealLift
import proofs.«148117_j28647431864612_2_alg».proof.Proof.RegMath
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Cert.KernelIdeal.RegMath Cert.Spec Cert.Lift
open Idealize.ShloMosaic Idealize.ShloMosaic.TcCoe Idealize.ShloMosaic.ValueIdx
open Idealize.SL Idealize.SL.Sem
open Idealize.ShloMosaic.Pipeline (Dat Cfg Window)

/-- An array of reals read at an index whose coordinates are known. -/
theorem arr2_at {a b : ℕ} (A : Matrix (Fin a) (Fin b) ℝ) (i : (⟨2, ![a, b]⟩ : Shape).Idx) (r : Fin a) (s : Fin b)
    (h0 : (i 0).val = r.val) (h1 : (i 1).val = s.val) : arr2 A i = ((A r s : ℝ) : EReal) := by
  rw [arr2_apply]
  exact congrArg₂ (fun u v => ((A u v : ℝ) : EReal)) (Fin.ext h0) (Fin.ext h1)

theorem idx_facts : ∀ t : Fin cfg2.N, win2_0.index t (0 : Fin 2) = t.val / 2 ∧ win2_0.index t (1 : Fin 2) = t.val % 2
    ∧ win2_1.index t (0 : Fin 2) = 0 ∧ win2_1.index t (1 : Fin 2) = 0
    ∧ win2_2.index t (0 : Fin 2) = t.val / 2 ∧ win2_2.index t (1 : Fin 2) = 0 :=
  (by decide +kernel : ∀ t : Fin grid2.N, _)

theorem off_facts : ∀ t : Fin cfg2.N, k2_off1 (grid2.coords t) (0 : Fin 2) = 4096 * (t.val % 2) ∧ k2_off1 (grid2.coords t) (1 : Fin 2) = 0 :=
  (by decide +kernel : ∀ t : Fin grid2.N, _)

variable (V : (c : Dev nD) → (b : Ref sig .tc) → Buf (Elt Ideal) ((c : Thread nD τ).loc b))

theorem iblk0_apply (c : Dev nD) (ws : M 8192 8192) (hws : V c (Pipeline.arrRef spec2 0) = arr2 ws) (t : Fin cfg2.N)
    (p : Fin 1024) (k : Fin 4096) (hr : 1024 * (t.val / 2) + p.val < 8192) (hk : 4096 * (t.val % 2) + k.val < 8192) :
    (iblk V c 0 t : Vec Ideal S1024x4096 .f32) (ix2 p k) = ((ws ⟨1024 * (t.val / 2) + p.val, hr⟩ ⟨4096 * (t.val % 2) + k.val, hk⟩ : ℝ) : EReal) := by
  obtain ⟨e0, e1, -⟩ := idx_facts t
  show V c (Pipeline.arrRef spec2 0) (((cfg2.win 0).blk t).view.emb (ix2 p k)) = _
  rw [hws]
  refine arr2_at ws _ _ _ ?_ ?_
  · show win2_0.index t (0 : Fin 2) * 1024 + 1 * p.val = 1024 * (t.val / 2) + p.val; rw [e0]; omega
  · show win2_0.index t (1 : Fin 2) * 4096 + 1 * k.val = 4096 * (t.val % 2) + k.val; rw [e1]; omega

theorem iblk1_apply (c : Dev nD) (v : M 8192 32) (hv : V c (Pipeline.arrRef spec2 1) = arr2 v) (t : Fin cfg2.N)
    (k : Fin 8192) (q : Fin 32) :
    (iblk V c 1 t : Vec Ideal S8192x32 .f32) (ix2 k q) = ((v k q : ℝ) : EReal) := by
  obtain ⟨-, -, e0, e1, -⟩ := idx_facts t
  show V c (Pipeline.arrRef spec2 1) (((cfg2.win 1).blk t).view.emb (ix2 k q)) = _
  rw [hv]
  refine arr2_at v _ _ _ ?_ ?_
  · show win2_1.index t (0 : Fin 2) * 8192 + 1 * k.val = k.val; rw [e0]; omega
  · show win2_1.index t (1 : Fin 2) * 32 + 1 * q.val = q.val; rw [e1]; omega

/-- The rows the body loads at point `t` are rows `4096 (t mod 2) …` of the second operand. -/
theorem rows_apply {F : FTy → Type} [FloatOps F] (t : Fin cfg2.N) (x1 : Vec F S8192x32 .f32) (k : Fin 4096) (q : Fin 32)
    (hk : 4096 * (t.val % 2) + k.val < 8192) :
    rows (grid2.coords t) x1 (ix2 k q) = x1 (ix2 ⟨4096 * (t.val % 2) + k.val, hk⟩ q) := by
  obtain ⟨e0, e1⟩ := off_facts t
  show x1 ((Rect.unit (s := S8192x32) (k2_off1 (grid2.coords t)) S4096x32.size (k2_off1_inb (grid2.coords t))).idx (ix2 k q)) = _
  congr 1
  funext a
  apply Fin.ext
  match a with
  | ⟨0, _⟩ => show k2_off1 (grid2.coords t) (0 : Fin 2) + 1 * k.val = 4096 * (t.val % 2) + k.val; rw [e0]; omega
  | ⟨1, _⟩ => show k2_off1 (grid2.coords t) (1 : Fin 2) + 1 * q.val = q.val; rw [e1]; omega

/-- Two accumulation steps from the zero block: the first over the first 4096 contraction indices, the second over
    the last 4096, of rows `R …` of `ws` against `v`, leave the entries of the product `ws · v` in those rows. -/
theorem two_steps (ws : M 8192 8192) (v : M 8192 32) (R : ℕ) (hR : R + 1024 ≤ 8192)
    (xa xb : Vec Ideal S1024x4096 .f32) (ra rb : Vec Ideal S4096x32 .f32)
    (hxa : ∀ (p : Fin 1024) (k : Fin 4096), xa (ix2 p k) = ((ws ⟨R + p.val, by omega⟩ ⟨k.val, by omega⟩ : ℝ) : EReal))
    (hxb : ∀ (p : Fin 1024) (k : Fin 4096), xb (ix2 p k) = ((ws ⟨R + p.val, by omega⟩ ⟨4096 + k.val, by omega⟩ : ℝ) : EReal))
    (hra : ∀ (k : Fin 4096) (q : Fin 32), ra (ix2 k q) = ((v ⟨k.val, by omega⟩ q : ℝ) : EReal))
    (hrb : ∀ (k : Fin 4096) (q : Fin 32), rb (ix2 k q) = ((v ⟨4096 + k.val, by omega⟩ q : ℝ) : EReal))
    (p : Fin 1024) (q : Fin 32) :
    k2_pay2 (F := Ideal) xb rb (k2_pay2 (F := Ideal) xa ra (k2_pay1 (F := Ideal))) (ix2 p q)
      = (((ws * v) ⟨R + p.val, by omega⟩ q : ℝ) : EReal) := by
  rw [k2_pay2_apply, k2_pay2_apply, k2_pay1_apply]
  simp only [hxa, hxb, hra, hrb]
  exact half_sums ws v ⟨R + p.val, by omega⟩ q

end Cert.KernelIdeal.Reg2

end
-- ==== Proof.Reg2Value.lean ====
/-
  Region 2 at the extended reals, the value. Entered with the operand arrays at real matrices `ws` and `v`, the
  region's output array ends at the product `ws · v`. After the two points of a row tile the accumulator has gone
  from zero through the half-sum over the first 4096 contraction indices to the full sum, which is the product's
  entry; the second point copies it into the output block, which is then written back as rows `1024 i …` of the array;
  the eight row tiles' blocks cover the array.
-/
import proofs.«148117_j28647431864612_2_alg».proof.Proof.Reg2Reads
import proofs.«148117_j28647431864612_2_alg».proof.Proof.Reg2Pieces
import proofs.«148117_j28647431864612_2_alg».proof.Proof.Spec
import proofs.«148117_j28647431864612_2_alg».proof.Proof.LibRealLift
import proofs.«148117_j28647431864612_2_alg».proof.Proof.RegMath
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Cert.KernelIdeal.RegMath Cert.Spec Cert.Lift
open Idealize.ShloMosaic Idealize.ShloMosaic.TcCoe Idealize.ShloMosaic.ValueIdx
open Idealize.SL Idealize.SL.Sem
open Idealize.ShloMosaic.Pipeline (Dat Cfg Window)

theorem fst_of_eq {α β : Type} {p : α × β} {a : α} {b : β} (h : p = (a, b)) : p.1 = a := by rw [h]
theorem snd_of_eq {α β : Type} {p : α × β} {a : α} {b : β} (h : p = (a, b)) : p.2 = b := by rw [h]

/-- Equal coordinates give equal entries. -/
theorem coe_congr {a b : ℕ} (A : Matrix (Fin a) (Fin b) ℝ) {r r' : Fin a} {s s' : Fin b} (hr : r.val = r'.val) (hs : s.val = s'.val) :
    ((A r s : ℝ) : EReal) = ((A r' s' : ℝ) : EReal) := by rw [Fin.ext hr, Fin.ext hs]

/-- After a point with j = 1 the output block's buffer holds the accumulator's new value: what the point before
    left plus this point's product. -/
theorem outsAt_odd_fst (V : (c : Dev nD) → (b : Ref sig .tc) → Buf (Elt Ideal) ((c : Thread nD τ).loc b)) (c : Dev nD) (t : Fin cfg2.N) (h1 : t.val % 2 = 1) (h0 : ¬ t.val % 2 = 0) (ht' : t.val - 1 < cfg2.N) :
    (outsAt V c t.val t.isLt).1 = k2_pay2 (F := Ideal) (iblk V c 0 t) (rows (grid2.coords t) (iblk V c 1 t)) (outsAt V c (t.val - 1) ht').2 :=
  (fst_of_eq (outsAt_C V c t h0 h1)).trans (out_C_2_eq _ _ _ _ _ _ _ _ _ _ _ _ _ _ _)

/-- After a point with j = 0 the accumulator holds this point's product over zero. -/
theorem outsAt_even_snd (V : (c : Dev nD) → (b : Ref sig .tc) → Buf (Elt Ideal) ((c : Thread nD τ).loc b)) (c : Dev nD) (n : ℕ) (hn : n < cfg2.N) (h0 : n % 2 = 0) :
    (outsAt V c n hn).2 = k2_pay2 (F := Ideal) (iblk V c 0 ⟨n, hn⟩) (rows (grid2.coords ⟨n, hn⟩) (iblk V c 1 ⟨n, hn⟩)) (k2_pay1 (F := Ideal)) :=
  (snd_of_eq (outsAt_A V c ⟨n, hn⟩ h0)).trans (sout_A_eq _ _ _ _ _ _ _ _ _ _ _ _ _ _)

/-- After a point with j = 1 the output block's buffer holds rows `1024 ⌊t/2⌋ …` of the product `ws · v`. -/
theorem out_odd (V : (c : Dev nD) → (b : Ref sig .tc) → Buf (Elt Ideal) ((c : Thread nD τ).loc b)) (c : Dev nD) (ws : M 8192 8192) (v : M 8192 32)
    (hws : V c (Pipeline.arrRef spec2 0) = arr2 ws) (hv : V c (Pipeline.arrRef spec2 1) = arr2 v)
    (t : Fin cfg2.N) (h1 : t.val % 2 = 1) (p : Fin 1024) (q : Fin 32) (hy : 1024 * (t.val / 2) + p.val < 8192) :
    (outsAt V c t.val t.isLt).1 (ix2 p q) = (((ws * v) ⟨1024 * (t.val / 2) + p.val, hy⟩ q : ℝ) : EReal) := by
  have hN : t.val < 16 := lt_of_lt_of_eq t.isLt N_2
  have h0 : ¬ t.val % 2 = 0 := by omega
  have ht' : t.val - 1 < cfg2.N := Nat.lt_of_le_of_lt (Nat.sub_le _ _) t.isLt
  rw [outsAt_odd_fst V c t h1 h0 ht', outsAt_even_snd V c (t.val - 1) ht' (by omega)]
  refine two_steps ws v (1024 * (t.val / 2)) (by omega) (iblk V c 0 ⟨t.val - 1, ht'⟩) (iblk V c 0 t)
    (rows (grid2.coords ⟨t.val - 1, ht'⟩) (iblk V c 1 ⟨t.val - 1, ht'⟩)) (rows (grid2.coords t) (iblk V c 1 t)) ?_ ?_ ?_ ?_ p q
  · intro p k
    exact (iblk0_apply V c ws hws ⟨t.val - 1, ht'⟩ p k (by show 1024 * ((t.val - 1) / 2) + p.val < 8192; omega) (by show 4096 * ((t.val - 1) % 2) + k.val < 8192; omega)).trans
      (coe_congr ws (by show 1024 * ((t.val - 1) / 2) + p.val = 1024 * (t.val / 2) + p.val; omega) (by show 4096 * ((t.val - 1) % 2) + k.val = k.val; omega))
  · intro p k
    exact (iblk0_apply V c ws hws t p k (by omega) (by omega)).trans
      (coe_congr ws rfl (by show 4096 * (t.val % 2) + k.val = 4096 + k.val; omega))
  · intro k q
    exact (rows_apply ⟨t.val - 1, ht'⟩ (iblk V c 1 ⟨t.val - 1, ht'⟩) k q (by show 4096 * ((t.val - 1) % 2) + k.val < 8192; omega)).trans
      ((iblk1_apply V c v hv ⟨t.val - 1, ht'⟩ _ q).trans (coe_congr v (by show 4096 * ((t.val - 1) % 2) + k.val = k.val; omega) rfl))
  · intro k q
    exact (rows_apply t (iblk V c 1 t) k q (by omega)).trans
      ((iblk1_apply V c v hv t _ q).trans (coe_congr v (by show 4096 * (t.val % 2) + k.val = 4096 + k.val; omega) rfl))

/-- What a point with j = 1 writes back is its block of the product `ws · v`. -/
theorem flushed_eq (V : (c : Dev nD) → (b : Ref sig .tc) → Buf (Elt Ideal) ((c : Thread nD τ).loc b)) (c : Dev nD) (ws : M 8192 8192) (v : M 8192 32)
    (hws : V c (Pipeline.arrRef spec2 0) = arr2 ws) (hv : V c (Pipeline.arrRef spec2 1) = arr2 v)
    (t : Fin cfg2.N) (hf : (cfg2.win 2).flush t = true) :
    (dat V c).flushed 2 t = ((cfg2.win 2).blk t).view.read (Elt Ideal) (arr2 (ws * v)) := by
  have h1 : t.val % 2 = 1 := (flush2_2 t).mp hf
  have hN : t.val < 16 := lt_of_lt_of_eq t.isLt N_2
  obtain ⟨-, -, -, -, e0, e1⟩ := idx_facts t
  show (cfg2.win 2).cut (grid2.coords t) ((dat V c).after 2 t) = _
  rw [after_2]
  funext j
  obtain ⟨p, q, rfl⟩ : ∃ (p : Fin 1024) (q : Fin 32), j = ix2 p q := ⟨j 0, j 1, eq_ix2 j⟩
  show (outsAt V c t.val t.isLt).1 (ix2 p q) = arr2 (ws * v) (((cfg2.win 2).blk t).view.emb (ix2 p q))
  rw [out_odd V c ws v hws hv t h1 p q (by omega)]
  refine (arr2_at (ws * v) _ _ _ ?_ ?_).symm
  · show win2_2.index t (0 : Fin 2) * 1024 + 1 * p.val = 1024 * (t.val / 2) + p.val; rw [e0]; omega
  · show win2_2.index t (1 : Fin 2) * 32 + 1 * q.val = q.val; rw [e1]; omega

/-- Every row of the output array is in the block of the j = 1 point of its row tile. -/
theorem cover (i : S8192x32.Idx) :
    ∃ t : Fin cfg2.N, (cfg2.win 2).flush t = true ∧ i ∈ ((cfg2.win 2).blk t).view.set := by
  have hi0 : (i 0).val < 8192 := idx2_lt0 i
  have hi1 : (i 1).val < 32 := idx2_lt1 i
  have hN : cfg2.N = 16 := N_2
  have ht : 2 * ((i 0).val / 1024) + 1 < cfg2.N := by omega
  obtain ⟨-, -, -, -, e0, e1⟩ := idx_facts ⟨2 * ((i 0).val / 1024) + 1, ht⟩
  refine ⟨⟨2 * ((i 0).val / 1024) + 1, ht⟩, (flush2_2 _).mpr (by show (2 * ((i 0).val / 1024) + 1) % 2 = 1; omega), ?_⟩
  show i ∈ ((View.whole main_v16).slice (win2_2.rect ⟨2 * ((i 0).val / 1024) + 1, ht⟩)).set
  rw [View.set_slice_whole, Rect.mem_set_unit]
  intro a
  match a with
  | ⟨0, _⟩ =>
    show win2_2.index ⟨2 * ((i 0).val / 1024) + 1, ht⟩ (0 : Fin 2) * 1024 ≤ (i 0).val ∧ (i 0).val < win2_2.index ⟨2 * ((i 0).val / 1024) + 1, ht⟩ (0 : Fin 2) * 1024 + 1024
    rw [e0]; show (2 * ((i 0).val / 1024) + 1) / 2 * 1024 ≤ (i 0).val ∧ (i 0).val < (2 * ((i 0).val / 1024) + 1) / 2 * 1024 + 1024; omega
  | ⟨1, _⟩ =>
    show win2_2.index ⟨2 * ((i 0).val / 1024) + 1, ht⟩ (1 : Fin 2) * 32 ≤ (i 1).val ∧ (i 1).val < win2_2.index ⟨2 * ((i 0).val / 1024) + 1, ht⟩ (1 : Fin 2) * 32 + 32
    rw [e1]; omega

/-- The region's output array, entered with the operand arrays at real matrices `ws` and `v`, ends at the product
    `ws · v`: every row tile's block is written back once, after its second point, holding that tile's rows. -/
theorem arrAt_real (V : (c : Dev nD) → (b : Ref sig .tc) → Buf (Elt Ideal) ((c : Thread nD τ).loc b)) (c : Dev nD) (ws : M 8192 8192) (v : M 8192 32)
    (hws : V c (Pipeline.arrRef spec2 0) = arr2 ws) (hv : V c (Pipeline.arrRef spec2 1) = arr2 v) :
    (dat V c).arrAt 2 cfg2.N = arr2 (ws * v) :=
  (dat V c).arrAt_eq_of_cover 2 (arr2 (ws * v)) (flushed_eq V c ws v hws hv) cover

end Cert.KernelIdeal.Reg2

end
-- ==== Proof.RefValue.lean ====
/-
  The reference program's result, read at the extended reals on arrays of real numbers, is the coercion of the
  real matrix expression `Cert.Spec.outR`.
-/
import proofs.«148117_j28647431864612_2_alg».proof.Defs
import proofs.«148117_j28647431864612_2_alg».proof.Proof.Gen.ReferenceIdeal.Run
import proofs.«148117_j28647431864612_2_alg».proof.Proof.Gen.ReferenceIdeal.Read
import proofs.«148117_j28647431864612_2_alg».proof.Proof.Spec
import proofs.«148117_j28647431864612_2_alg».proof.Proof.LibRealLift

noncomputable section

namespace Cert.ReferenceIdeal.RefValue

open Cert.ReferenceIdeal Cert.ReferenceIdeal.Gen Cert.ReferenceIdeal.Read Cert.Spec Cert.Lift
open Idealize.ShloMosaic Idealize.ShloMosaic.TcCoe Idealize.SL.Sem Matrix

section Stages

variable (x : M 8192 32) (ws : M 8192 8192) (wp : M 32 32) (ts td : Fin 4 → M 32 32)

/-- The first Chebyshev term of the static operator, `ws · x`. -/
abbrev P1 : M 8192 32 := apS ws x
/-- The second: `2 · ws · P1 - x`. -/
abbrev P2 : M 8192 32 := step (apS ws) (P1 x ws) x
/-- The third: `2 · ws · P2 - P1`. -/
abbrev P3 : M 8192 32 := step (apS ws) (P2 x ws) (P1 x ws)
/-- The first Chebyshev term of the dynamic operator, `((x · wp) · xᵀ) · x`. -/
abbrev Q1 : M 8192 32 := apR x wp x
/-- The second: `2 · wd · Q1 - x`. -/
abbrev Q2 : M 8192 32 := step (apR x wp) (Q1 x wp) x
/-- The third: `2 · wd · Q2 - Q1`. -/
abbrev Q3 : M 8192 32 := step (apR x wp) (Q2 x wp) (Q1 x wp)

/-- Entry by entry, the sum of two arrays of reals is the array of the matrix sum. -/
theorem add_lift {a b : ℕ} (A B : M a b) (i : (⟨2, ![a, b]⟩ : Shape).Idx) : arr2 A i + arr2 B i = arr2 (A + B) i :=
  (EReal.coe_add _ _).symm
/-- Entry by entry, the difference of two arrays of reals is the array of the matrix difference. -/
theorem sub_lift {a b : ℕ} (A B : M a b) (i : (⟨2, ![a, b]⟩ : Shape).Idx) : arr2 A i - arr2 B i = arr2 (A - B) i :=
  (EReal.coe_sub _ _).symm
/-- Entry by entry, twice an array of reals is the array of the matrix scaled by two. -/
theorem two_lift {a b : ℕ} (A : M a b) (i : (⟨2, ![a, b]⟩ : Shape).Idx) : ((2 : ℝ) : EReal) * arr2 A i = arr2 ((2 : ℝ) • A) i :=
  (EReal.coe_mul _ _).symm

/-- Slice `0` of a stack of four matrices, with its leading unit axis dropped, is the matrix `t 0`. -/
theorem lift_v2 (t : Fin 4 → M 32 32) : val_main_v2 (F := Ideal) (arr3 t) = arr2 (t 0) := by
  funext i
  rw [val_main_v2_apply, val_main_v1_apply, arr3_apply, arr2_apply]
  have e0 : @Eq (Fin 4) (idx_main_v1 (idx_main_v2 i) 0) 0 := rfl
  have e1 : @Eq (Fin 32) (idx_main_v1 (idx_main_v2 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v1 (idx_main_v2 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- Slice `1` of a stack of four matrices, with its leading unit axis dropped, is the matrix `t 1`. -/
theorem lift_v5 (t : Fin 4 → M 32 32) : val_main_v5 (F := Ideal) (arr3 t) = arr2 (t 1) := by
  funext i
  rw [val_main_v5_apply, val_main_v4_apply, arr3_apply, arr2_apply]
  have e0 : @Eq (Fin 4) (idx_main_v4 (idx_main_v5 i) 0) 1 := rfl
  have e1 : @Eq (Fin 32) (idx_main_v4 (idx_main_v5 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v4 (idx_main_v5 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- Slice `2` of a stack of four matrices, with its leading unit axis dropped, is the matrix `t 2`. -/
theorem lift_v13 (t : Fin 4 → M 32 32) : val_main_v13 (F := Ideal) (arr3 t) = arr2 (t 2) := by
  funext i
  rw [val_main_v13_apply, val_main_v12_apply, arr3_apply, arr2_apply]
  have e0 : @Eq (Fin 4) (idx_main_v12 (idx_main_v13 i) 0) 2 := rfl
  have e1 : @Eq (Fin 32) (idx_main_v12 (idx_main_v13 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v12 (idx_main_v13 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- Slice `3` of a stack of four matrices, with its leading unit axis dropped, is the matrix `t 3`. -/
theorem lift_v21 (t : Fin 4 → M 32 32) : val_main_v21 (F := Ideal) (arr3 t) = arr2 (t 3) := by
  funext i
  rw [val_main_v21_apply, val_main_v20_apply, arr3_apply, arr2_apply]
  have e0 : @Eq (Fin 4) (idx_main_v20 (idx_main_v21 i) 0) 3 := rfl
  have e1 : @Eq (Fin 32) (idx_main_v20 (idx_main_v21 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v20 (idx_main_v21 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- Slice `1` of a stack of four matrices, with its leading unit axis dropped, is the matrix `t 1`. -/
theorem lift_v29 (t : Fin 4 → M 32 32) : val_main_v29 (F := Ideal) (arr3 t) = arr2 (t 1) := by
  funext i
  rw [val_main_v29_apply, val_main_v28_apply, arr3_apply, arr2_apply]
  have e0 : @Eq (Fin 4) (idx_main_v28 (idx_main_v29 i) 0) 1 := rfl
  have e1 : @Eq (Fin 32) (idx_main_v28 (idx_main_v29 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v28 (idx_main_v29 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- Slice `2` of a stack of four matrices, with its leading unit axis dropped, is the matrix `t 2`. -/
theorem lift_v37 (t : Fin 4 → M 32 32) : val_main_v37 (F := Ideal) (arr3 t) = arr2 (t 2) := by
  funext i
  rw [val_main_v37_apply, val_main_v36_apply, arr3_apply, arr2_apply]
  have e0 : @Eq (Fin 4) (idx_main_v36 (idx_main_v37 i) 0) 2 := rfl
  have e1 : @Eq (Fin 32) (idx_main_v36 (idx_main_v37 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v36 (idx_main_v37 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- Slice `3` of a stack of four matrices, with its leading unit axis dropped, is the matrix `t 3`. -/
theorem lift_v45 (t : Fin 4 → M 32 32) : val_main_v45 (F := Ideal) (arr3 t) = arr2 (t 3) := by
  funext i
  rw [val_main_v45_apply, val_main_v44_apply, arr3_apply, arr2_apply]
  have e0 : @Eq (Fin 4) (idx_main_v44 (idx_main_v45 i) 0) 3 := rfl
  have e1 : @Eq (Fin 32) (idx_main_v44 (idx_main_v45 i) 1) (i 0) :=
    Fin.ext (by have h0 : (i 0).val < 32 := (i 0).isLt; have h1 : (i 1).val < 32 := (i 1).isLt
                show ((i 0).val * 32 + (i 1).val) / 32 % 32 = (i 0).val; omega)
  have e2 : @Eq (Fin 32) (idx_main_v44 (idx_main_v45 i) 2) (i 1) :=
    Fin.ext (by have h0 : (i 0).val < 32 := (i 0).isLt; have h1 : (i 1).val < 32 := (i 1).isLt
                show ((i 0).val * 32 + (i 1).val) % 32 = (i 1).val; omega)
  rw [e0, e1, e2]

/-- The static operator applied to `x`. -/
theorem lift_v0 : val_main_v0 (F := Ideal) (arr2 x) (arr2 ws) = arr2 (P1 x ws) := by
  funext i
  rw [val_main_v0_apply]
  exact dot_real (ws) (x) (i 0) (i 1)

/-- The order-0 term: `x · ts 0`. -/
theorem lift_v3 : val_main_v3 (F := Ideal) (arr2 x) (arr3 ts) = arr2 (x * ts 0) := by
  funext i
  rw [val_main_v3_apply, lift_v2]
  exact dot_real (x) (ts 0) (i 0) (i 1)

/-- The order-1 term of the static expansion. -/
theorem lift_v6 : val_main_v6 (F := Ideal) (arr2 x) (arr2 ws) (arr3 ts) = arr2 (P1 x ws * ts 1) := by
  funext i
  rw [val_main_v6_apply, lift_v0, lift_v5]
  exact dot_real (P1 x ws) (ts 1) (i 0) (i 1)

/-- The static expansion through order 1. -/
theorem lift_v7 : val_main_v7 (F := Ideal) (arr2 x) (arr2 ws) (arr3 ts) = arr2 (x * ts 0 + P1 x ws * ts 1) := by
  funext i
  rw [val_main_v7_apply, lift_v3, lift_v6]
  exact add_lift _ _ i

/-- The static operator applied to its first term. -/
theorem lift_v8 : val_main_v8 (F := Ideal) (arr2 x) (arr2 ws) = arr2 (ws * P1 x ws) := by
  funext i
  rw [val_main_v8_apply, lift_v0]
  exact dot_real (ws) (P1 x ws) (i 0) (i 1)

/-- The broadcast constant is the real number two at every index. -/
theorem lift_v9 (i : S8192x32.Idx) : val_main_v9 (F := Ideal) i = ((2 : ℝ) : EReal) := by
  rw [val_main_v9_apply, val_main_cst_apply]
  exact ofBits_two

/-- Twice the static operator applied to its first term. -/
theorem lift_v10 : val_main_v10 (F := Ideal) (arr2 x) (arr2 ws) = arr2 ((2 : ℝ) • (ws * P1 x ws)) := by
  funext i
  rw [val_main_v10_apply, lift_v9, lift_v8]
  exact two_lift _ i

/-- The second Chebyshev term of the static operator. -/
theorem lift_v11 : val_main_v11 (F := Ideal) (arr2 x) (arr2 ws) = arr2 (P2 x ws) := by
  funext i
  rw [val_main_v11_apply, lift_v10]
  exact sub_lift _ _ i

/-- The order-2 term of the static expansion. -/
theorem lift_v14 : val_main_v14 (F := Ideal) (arr2 x) (arr2 ws) (arr3 ts) = arr2 (P2 x ws * ts 2) := by
  funext i
  rw [val_main_v14_apply, lift_v11, lift_v13]
  exact dot_real (P2 x ws) (ts 2) (i 0) (i 1)

/-- The static expansion through order 2. -/
theorem lift_v15 : val_main_v15 (F := Ideal) (arr2 x) (arr2 ws) (arr3 ts) = arr2 (x * ts 0 + P1 x ws * ts 1 + P2 x ws * ts 2) := by
  funext i
  rw [val_main_v15_apply, lift_v7, lift_v14]
  exact add_lift _ _ i

/-- The static operator applied to its second term. -/
theorem lift_v16 : val_main_v16 (F := Ideal) (arr2 x) (arr2 ws) = arr2 (ws * P2 x ws) := by
  funext i
  rw [val_main_v16_apply, lift_v11]
  exact dot_real (ws) (P2 x ws) (i 0) (i 1)

/-- The broadcast constant is the real number two at every index. -/
theorem lift_v17 (i : S8192x32.Idx) : val_main_v17 (F := Ideal) i = ((2 : ℝ) : EReal) := by
  rw [val_main_v17_apply, val_main_cst_0_apply]
  exact ofBits_two

/-- Twice the static operator applied to its second term. -/
theorem lift_v18 : val_main_v18 (F := Ideal) (arr2 x) (arr2 ws) = arr2 ((2 : ℝ) • (ws * P2 x ws)) := by
  funext i
  rw [val_main_v18_apply, lift_v17, lift_v16]
  exact two_lift _ i

/-- The third Chebyshev term of the static operator. -/
theorem lift_v19 : val_main_v19 (F := Ideal) (arr2 x) (arr2 ws) = arr2 (P3 x ws) := by
  funext i
  rw [val_main_v19_apply, lift_v18, lift_v0]
  exact sub_lift _ _ i

/-- The order-3 term of the static expansion. -/
theorem lift_v22 : val_main_v22 (F := Ideal) (arr2 x) (arr2 ws) (arr3 ts) = arr2 (P3 x ws * ts 3) := by
  funext i
  rw [val_main_v22_apply, lift_v19, lift_v21]
  exact dot_real (P3 x ws) (ts 3) (i 0) (i 1)

/-- The static expansion. -/
theorem lift_v23 : val_main_v23 (F := Ideal) (arr2 x) (arr2 ws) (arr3 ts) = arr2 (x * ts 0 + P1 x ws * ts 1 + P2 x ws * ts 2 + P3 x ws * ts 3) := by
  funext i
  rw [val_main_v23_apply, lift_v15, lift_v22]
  exact add_lift _ _ i

/-- The product `x · wp`. -/
theorem lift_v24 : val_main_v24 (F := Ideal) (arr2 x) (arr2 wp) = arr2 (x * wp) := by
  funext i
  rw [val_main_v24_apply]
  exact dot_real (x) (wp) (i 0) (i 1)

/-- The transposed array is the array of the transposed matrix. -/
theorem lift_v25 : val_main_v25 (F := Ideal) (arr2 x) = arr2 xᵀ := by
  funext i
  rw [val_main_v25_apply]
  rfl

/-- The dynamic operator's matrix `(x · wp) · xᵀ`. -/
theorem lift_v26 : val_main_v26 (F := Ideal) (arr2 x) (arr2 wp) = arr2 (x * wp * xᵀ) := by
  funext i
  rw [val_main_v26_apply, lift_v24, lift_v25]
  exact dot_real (x * wp) (xᵀ) (i 0) (i 1)

/-- The dynamic operator applied to `x`. -/
theorem lift_v27 : val_main_v27 (F := Ideal) (arr2 x) (arr2 wp) = arr2 (Q1 x wp) := by
  funext i
  rw [val_main_v27_apply, lift_v26]
  exact dot_real (x * wp * xᵀ) (x) (i 0) (i 1)

/-- The order-1 term of the dynamic expansion. -/
theorem lift_v30 : val_main_v30 (F := Ideal) (arr2 x) (arr2 wp) (arr3 td) = arr2 (Q1 x wp * td 1) := by
  funext i
  rw [val_main_v30_apply, lift_v27, lift_v29]
  exact dot_real (Q1 x wp) (td 1) (i 0) (i 1)

/-- The dynamic expansion through order 1. -/
theorem lift_v31 : val_main_v31 (F := Ideal) (arr2 x) (arr2 wp) (arr3 ts) (arr3 td) = arr2 (x * ts 0 + Q1 x wp * td 1) := by
  funext i
  rw [val_main_v31_apply, lift_v3, lift_v30]
  exact add_lift _ _ i

/-- The dynamic operator applied to its first term. -/
theorem lift_v32 : val_main_v32 (F := Ideal) (arr2 x) (arr2 wp) = arr2 (x * wp * xᵀ * Q1 x wp) := by
  funext i
  rw [val_main_v32_apply, lift_v26, lift_v27]
  exact dot_real (x * wp * xᵀ) (Q1 x wp) (i 0) (i 1)

/-- The broadcast constant is the real number two at every index. -/
theorem lift_v33 (i : S8192x32.Idx) : val_main_v33 (F := Ideal) i = ((2 : ℝ) : EReal) := by
  rw [val_main_v33_apply, val_main_cst_1_apply]
  exact ofBits_two

/-- Twice the dynamic operator applied to its first term. -/
theorem lift_v34 : val_main_v34 (F := Ideal) (arr2 x) (arr2 wp) = arr2 ((2 : ℝ) • (x * wp * xᵀ * Q1 x wp)) := by
  funext i
  rw [val_main_v34_apply, lift_v33, lift_v32]
  exact two_lift _ i

/-- The second Chebyshev term of the dynamic operator. -/
theorem lift_v35 : val_main_v35 (F := Ideal) (arr2 x) (arr2 wp) = arr2 (Q2 x wp) := by
  funext i
  rw [val_main_v35_apply, lift_v34]
  exact sub_lift _ _ i

/-- The order-2 term of the dynamic expansion. -/
theorem lift_v38 : val_main_v38 (F := Ideal) (arr2 x) (arr2 wp) (arr3 td) = arr2 (Q2 x wp * td 2) := by
  funext i
  rw [val_main_v38_apply, lift_v35, lift_v37]
  exact dot_real (Q2 x wp) (td 2) (i 0) (i 1)

/-- The dynamic expansion through order 2. -/
theorem lift_v39 : val_main_v39 (F := Ideal) (arr2 x) (arr2 wp) (arr3 ts) (arr3 td) = arr2 (x * ts 0 + Q1 x wp * td 1 + Q2 x wp * td 2) := by
  funext i
  rw [val_main_v39_apply, lift_v31, lift_v38]
  exact add_lift _ _ i

/-- The dynamic operator applied to its second term. -/
theorem lift_v40 : val_main_v40 (F := Ideal) (arr2 x) (arr2 wp) = arr2 (x * wp * xᵀ * Q2 x wp) := by
  funext i
  rw [val_main_v40_apply, lift_v26, lift_v35]
  exact dot_real (x * wp * xᵀ) (Q2 x wp) (i 0) (i 1)

/-- The broadcast constant is the real number two at every index. -/
theorem lift_v41 (i : S8192x32.Idx) : val_main_v41 (F := Ideal) i = ((2 : ℝ) : EReal) := by
  rw [val_main_v41_apply, val_main_cst_2_apply]
  exact ofBits_two

/-- Twice the dynamic operator applied to its second term. -/
theorem lift_v42 : val_main_v42 (F := Ideal) (arr2 x) (arr2 wp) = arr2 ((2 : ℝ) • (x * wp * xᵀ * Q2 x wp)) := by
  funext i
  rw [val_main_v42_apply, lift_v41, lift_v40]
  exact two_lift _ i

/-- The third Chebyshev term of the dynamic operator. -/
theorem lift_v43 : val_main_v43 (F := Ideal) (arr2 x) (arr2 wp) = arr2 (Q3 x wp) := by
  funext i
  rw [val_main_v43_apply, lift_v42, lift_v27]
  exact sub_lift _ _ i

/-- The order-3 term of the dynamic expansion. -/
theorem lift_v46 : val_main_v46 (F := Ideal) (arr2 x) (arr2 wp) (arr3 td) = arr2 (Q3 x wp * td 3) := by
  funext i
  rw [val_main_v46_apply, lift_v43, lift_v45]
  exact dot_real (Q3 x wp) (td 3) (i 0) (i 1)

/-- The dynamic expansion. -/
theorem lift_v47 : val_main_v47 (F := Ideal) (arr2 x) (arr2 wp) (arr3 ts) (arr3 td) = arr2 (x * ts 0 + Q1 x wp * td 1 + Q2 x wp * td 2 + Q3 x wp * td 3) := by
  funext i
  rw [val_main_v47_apply, lift_v39, lift_v46]
  exact add_lift _ _ i

/-- The sum of the two expansions. -/
theorem lift_v48 : val_main_v48 (F := Ideal) (arr2 x) (arr2 ws) (arr2 wp) (arr3 ts) (arr3 td) = arr2 (x * ts 0 + P1 x ws * ts 1 + P2 x ws * ts 2 + P3 x ws * ts 3 + (x * ts 0 + Q1 x wp * td 1 + Q2 x wp * td 2 + Q3 x wp * td 3)) := by
  funext i
  rw [val_main_v48_apply, lift_v23, lift_v47]
  exact add_lift _ _ i

/-- The sum of the two expansions is `outR`: the second expansion's weights `ts 0, td 1, td 2, td 3` are the values of
    `fun k => if k = 0 then ts 0 else td k` at `0, 1, 2, 3`. -/
theorem sum_eq_outR :
    x * ts 0 + P1 x ws * ts 1 + P2 x ws * ts 2 + P3 x ws * ts 3 + (x * ts 0 + Q1 x wp * td 1 + Q2 x wp * td 2 + Q3 x wp * td 3)
      = outR x ws wp ts td := by
  unfold outR cheb
  rfl

end Stages

open Cert.Spec Cert.Lift Idealize.ShloMosaic Idealize.SL.Sem in
/-- On arguments that are arrays of real numbers, the reference program's result is the array of `outR`. -/
theorem res_real (m : (ℓ : Loc Cert.ReferenceIdeal.nD Cert.ReferenceIdeal.τ Cert.ReferenceIdeal.sig) → Buf (Elt Ideal) ℓ) (c : Dev Cert.ReferenceIdeal.nD)
    (x : M 8192 32) (ws : M 8192 8192) (wp : M 32 32) (ts td : Fin 4 → M 32 32)
    (h0 : m ((c.tc : Thread nD τ).loc main_arg0) = arr2 x) (h1 : m ((c.tc : Thread nD τ).loc main_arg1) = arr2 ws)
    (h2 : m ((c.tc : Thread nD τ).loc main_arg2) = arr2 wp) (h3 : m ((c.tc : Thread nD τ).loc main_arg3) = arr3 ts)
    (h4 : m ((c.tc : Thread nD τ).loc main_arg4) = arr3 td) :
    Cert.ReferenceIdeal.Value.res_main_v48 (F := Ideal) m c = arr2 (outR x ws wp ts td) := by
  rw [val_main_v48_eq, h0, h1, h2, h3, h4, lift_v48, sum_eq_outR]

end Cert.ReferenceIdeal.RefValue

end
-- ==== Proof.Finite.lean ====
/-
  Finiteness of the inputs. The precondition says that, for each of the five argument arrays, the conjunction
  over all entries of `|a| < +∞` holds. An extended real whose absolute value is below `+∞` is neither `+∞`
  nor `-∞`, hence a real number; so each argument array is the entrywise coercion of an array of reals, and the
  two-axis and three-axis arrays are `arr2` / `arr3` of real matrices.
-/
import proofs.«148117_j28647431864612_2_alg».proof.Defs
import proofs.«148117_j28647431864612_2_alg».proof.Proof.Spec
import proofs.«148117_j28647431864612_2_alg».proof.Proof.LibRealLift
import Idealize.ShloMosaic.Lib.ReduceAll
import Idealize.ShloMosaic.Lib.ValueIdx

noncomputable section

namespace Cert.KernelIdeal.Finite

open Cert.Spec Cert.Lift Idealize.ShloMosaic Idealize.ShloMosaic.ValueIdx

/-- The shape with no axes has exactly one index. -/
instance : Subsingleton Cert.Pre_finite_inputs.S_.Idx := ⟨fun a b => funext fun d => d.elim0⟩

/-- An extended real `a` with `max a (-a) < +∞` (the bit pattern `0x7F800000` denotes `+∞`) is a real number:
    at `a = +∞` the maximum is `+∞`, at `a = -∞` it is `-(-∞) = +∞`, and `+∞ < +∞` is false. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  induction a using EReal.rec with
  | bot => simp [Ideal.cmp] at h
  | coe r => exact ⟨r, rfl⟩
  | top => simp [Ideal.cmp] at h

/-- An array of extended reals, of any shape, every entry of which has absolute value below `+∞`, is the
    entrywise coercion of an array of reals: choose the real number entry by entry. -/
theorem real_array {S : Shape} (bc : Cert.Pre_finite_inputs.S_.BroadcastsInDim S (![] : Fin 0 → Fin S.rank))
    (a : FVec Ideal S .f32)
    (h : ∀ i, cmpf .olt (Host.absf (F := Ideal) a)
        (broadcastInDim S ![] bc (constant (F := Ideal) Cert.Pre_finite_inputs.S_ .f32 0x7F800000#32)) i = 1#1) :
    ∃ r : S.Idx → ℝ, a = fun i => ((r i : ℝ) : EReal) := by
  have key : ∀ i, ∃ r : ℝ, a i = (r : EReal) := fun i => real_of_abs_lt_top (a i) (h i)
  choose r hr using key
  exact ⟨r, funext hr⟩

/-- A two-axis array of coerced reals is `arr2` of the matrix whose entry `(p, q)` is the real at index `(p, q)`. -/
theorem arr2_of_real {a b : ℕ} (f : (⟨2, ![a, b]⟩ : Shape).Idx → EReal) (r : (⟨2, ![a, b]⟩ : Shape).Idx → ℝ)
    (hr : f = fun i => ((r i : ℝ) : EReal)) : f = arr2 (Matrix.of fun p q => r (ix2 p q)) := by
  subst hr; funext i; rw [arr2_apply]
  exact congrArg (fun j => ((r j : ℝ) : EReal)) (eq_ix2 i)

/-- A three-axis array of coerced reals is `arr3` of the family of matrices whose entry `(k, p, q)` is the real at
    index `(k, p, q)`. -/
theorem arr3_of_real {n a b : ℕ} (f : (⟨3, ![n, a, b]⟩ : Shape).Idx → EReal) (r : (⟨3, ![n, a, b]⟩ : Shape).Idx → ℝ)
    (hr : f = fun i => ((r i : ℝ) : EReal)) : f = arr3 (fun k => Matrix.of fun p q => r (ix3 k p q)) := by
  subst hr; funext i; rw [arr3_apply]
  exact congrArg (fun j => ((r j : ℝ) : EReal)) (eq_ix3 i)

end Cert.KernelIdeal.Finite

open Cert.Spec Cert.Lift Cert.KernelIdeal Idealize.ShloMosaic Idealize.ShloMosaic.TcCoe Idealize.SL.Sem in
/-- Under the precondition, the five argument arrays are arrays of real numbers: `x`, `ws`, `wp` are `arr2` of real
    matrices and the two weight stacks are `arr3` of families of four real matrices. The precondition is a
    conjunction of five "all entries satisfy `|a| < +∞`" facts; each conjunct gives the entrywise fact, and
    `real_array` then yields the real entries. -/
theorem Cert.KernelIdeal.Finite.real_args [hPre : Cert.Pre_finite_inputs.Facts] (m : (ℓ : Loc nD τ sig) → Buf (Elt Ideal) ℓ) (h : Cert.Pre_KernelIdeal m) (c : Dev nD) :
    ∃ (x : M 8192 32) (ws : M 8192 8192) (wp : M 32 32) (ts td : Fin 4 → M 32 32),
      m ((c.tc : Thread nD τ).loc main_arg0) = arr2 x ∧ m ((c.tc : Thread nD τ).loc main_arg1) = arr2 ws ∧ m ((c.tc : Thread nD τ).loc main_arg2) = arr2 wp
      ∧ m ((c.tc : Thread nD τ).loc main_arg3) = arr3 ts ∧ m ((c.tc : Thread nD τ).loc main_arg4) = arr3 td := by
  have h0 := congrFun (h c) ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  obtain ⟨r0, hr0⟩ := real_array _ (m ((c.tc : Thread nD τ).loc main_arg0)) (Host.reduce_andi_all _ _ _ _ _ e0)
  obtain ⟨r1, hr1⟩ := real_array _ (m ((c.tc : Thread nD τ).loc main_arg1)) (Host.reduce_andi_all _ _ _ _ _ e1)
  obtain ⟨r2, hr2⟩ := real_array _ (m ((c.tc : Thread nD τ).loc main_arg2)) (Host.reduce_andi_all _ _ _ _ _ e2)
  obtain ⟨r3, hr3⟩ := real_array _ (m ((c.tc : Thread nD τ).loc main_arg3)) (Host.reduce_andi_all _ _ _ _ _ e3)
  obtain ⟨r4, hr4⟩ := real_array _ (m ((c.tc : Thread nD τ).loc main_arg4)) (Host.reduce_andi_all _ _ _ _ _ e4)
  exact ⟨_, _, _, _, _, arr2_of_real _ r0 hr0, arr2_of_real _ r1 hr1, arr2_of_real _ r2 hr2,
    arr3_of_real _ r3 hr3, arr3_of_real _ r4 hr4⟩

end
-- ==== Proof.Algebraic.lean ====
/-
  The value claim. Under the precondition every argument is an array of real numbers. On such arrays each region of
  the kernel program leaves the product of its two operands, so the kernel program ends with the coercion of
  `Spec.outK`; the reference ends with the coercion of `Spec.outR`; and the two real matrices are equal by the
  associativity of the matrix product (`Spec.outK_eq_outR`).
-/
import proofs.«148117_j28647431864612_2_alg».proof.Defs
import proofs.«148117_j28647431864612_2_alg».proof.Proof.KernelValue
import proofs.«148117_j28647431864612_2_alg».proof.Proof.Reg0Value
import proofs.«148117_j28647431864612_2_alg».proof.Proof.Reg1Value
import proofs.«148117_j28647431864612_2_alg».proof.Proof.Reg2Value
import proofs.«148117_j28647431864612_2_alg».proof.Proof.Gen.ReferenceIdeal.Run
import proofs.«148117_j28647431864612_2_alg».proof.Proof.RefValue
import proofs.«148117_j28647431864612_2_alg».proof.Proof.Finite
import proofs.«148117_j28647431864612_2_alg».proof.Proof.Gen.Pre_finite_inputs

noncomputable section

namespace Cert.Proof.Algebraic

open Idealize.ShloMosaic Idealize.ShloMosaic.TcCoe Idealize.SL.Sem
open Cert.Spec Cert.Lift

/-- The two idealized programs, run from memories agreeing on the arguments, end with equal results. -/
theorem algebraic : Cert.algebraic_KernelIdeal_ReferenceIdeal := by
  intro m ρ m' ρ' hpre hagree
  choose x ws wp ts td h0 h1 h2 h3 h4 using fun c => Cert.KernelIdeal.Finite.real_args m hpre c
  refine ⟨fun c => arr2 (outK (x c) (ws c) (wp c) (ts c) (td c)), ?_, ?_⟩
  · refine (θ_run Cert.KernelIdeal.defs _ _).mono (fun _ h c => ⟨(h c).1.trans ?_, (h c).2⟩) (Cert.KernelIdeal.Run.run_result (F := Ideal) m ρ)
    exact KernelValue.result_of m c (x c) (ws c) (wp c) (ts c) (td c)
      (fun v hws hv => Cert.KernelIdeal.Reg0.arrAt_real (Cert.KernelIdeal.Run.Ve0 m) c (ws c) v hws hv)
      (fun v hws hv => Cert.KernelIdeal.Reg1.arrAt_real (Cert.KernelIdeal.Run.Ve1 m) c (ws c) v hws hv)
      (fun v hws hv => Cert.KernelIdeal.Reg2.arrAt_real (Cert.KernelIdeal.Run.Ve2 m) c (ws c) v hws hv)
      (h0 c) (h1 c) (h2 c) (h3 c) (h4 c)
  · refine (θ_run Cert.ReferenceIdeal.defs _ _).mono (fun _ h c => ⟨(h c).1.trans ?_, (h c).2⟩) (Cert.ReferenceIdeal.Value.run (F := Ideal) m' ρ')
    exact (Cert.ReferenceIdeal.RefValue.res_real m' c (x c) (ws c) (wp c) (ts c) (td c)
      ((hagree c).1.trans (h0 c)) ((hagree c).2.1.trans (h1 c)) ((hagree c).2.2.1.trans (h2 c)) ((hagree c).2.2.2.1.trans (h3 c)) ((hagree c).2.2.2.2.trans (h4 c))).trans
      (congrArg arr2 (outK_eq_outR (x c) (ws c) (wp c) (ts c) (td c)).symm)

end Cert.Proof.Algebraic

end
-- ==== Proof.lean ====
/-
  The certificate's claim: both kernel programs and the reference run to the end with their arguments unchanged,
  nothing is owed for the idealization, and at the extended reals the idealized kernel and the idealized reference
  end with equal results — on finite inputs each is the coercion of one real matrix expression, and the two
  expressions differ only by the association of a triple matrix product.
-/
import proofs.«148117_j28647431864612_2_alg».proof.Defs
import proofs.«148117_j28647431864612_2_alg».proof.Proof.Gen.Kernel
import proofs.«148117_j28647431864612_2_alg».proof.Proof.Gen.KernelIdeal
import proofs.«148117_j28647431864612_2_alg».proof.Proof.Gen.ReferenceIdeal
import proofs.«148117_j28647431864612_2_alg».proof.Proof.Gen.Pre_finite_inputs
import proofs.«148117_j28647431864612_2_alg».proof.Proof.Frames
import proofs.«148117_j28647431864612_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_p, Frames.frame_pi, Frames.frame_ri, Frames.preserves, Algebraic.algebraic⟩

end Cert.Proof

end
